-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S30000x128 : Shape := ⟨2, ![30000, 128]⟩
abbrev S8000x128 : Shape := ⟨2, ![8000, 128]⟩
abbrev S200000x128 : Shape := ⟨2, ![200000, 128]⟩
abbrev S128x128 : Shape := ⟨2, ![128, 128]⟩
abbrev S128 : Shape := ⟨1, ![128]⟩
abbrev S150000 : Shape := ⟨1, ![150000]⟩
abbrev S500000 : Shape := ⟨1, ![500000]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S8000x128 : S_.BroadcastsInDim S8000x128 (![] : Fin 0 → Fin S8000x128.rank)
  reducesTo_S8000x128_S_d0_1 : S8000x128.ReducesTo [0, 1] S_
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  main_v93

def fn_part4 {F : FTy → Type} [FloatOps F] (main_arg14 : FVec F S128x128 .f32) (main_arg15 : FVec F S128x128 .f32) (main_arg16 : FVec F S128x128 .f32) (main_arg17 : FVec F S128x128 .f32) (main_arg18 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_v13 : IVec S_ 1) (main_v16 : IVec S200000x128 1) : IVec S_ 1 :=
  let main_c_5 : IVec S_ 1 := constantI S_ 1 1#1
  let main_v17 : IVec S_ 1 := (fun x v => Host.reduce IntOp.andi x v reducesTo_S200000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S100000x128 .f32) (main_arg1 : FVec F S30000x128 .f32) (main_arg2 : FVec F S8000x128 .f32) (main_arg3 : FVec F S200000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : IVec S150000 32) (main_arg20 : IVec S150000 32) (main_arg21 : IVec S150000 32) (main_arg22 : IVec S150000 32) (main_arg23 : IVec S500000 32) (main_arg24 : IVec S500000 32) (main_arg25 : IVec S500000 32) (main_arg26 : IVec S500000 32) (main_arg27 : IVec S1000000 32) (main_arg28 : IVec S1000000 32) (main_arg29 : IVec S500000 32) (main_arg30 : IVec S500000 32) (main_arg31 : IVec S500000 32) (main_arg32 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S30000x128 .f32 := Host.absf main_arg1
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S8000x128 .f32 := Host.absf main_arg2
  let main_cst_2 : FVec F S_ .f32 := constant S_ .f32 0x7F800000#32
  let main_v10 : FVec F S8000x128 .f32 := broadcastInDim S8000x128 ![] bcast_S_S8000x128 main_cst_2
  let main_v11 : IVec S8000x128 1 := cmpf .olt main_v9 main_v10
  let main_c_3 : IVec S_ 1 := constantI S_ 1 1#1
  let main_v12 : IVec S_ 1 := (fun x v => Host.reduce IntOp.andi x v reducesTo_S8000x128_S_d0_1 h_S_) main_v11 main_c_3
  let main_v13 : IVec S_ 1 := andi main_v8 main_v12
  let main_v14 : FVec F S200000x128 .f32 := Host.absf main_arg3
  let main_cst_4 : FVec F S_ .f32 := constant S_ .f32 0x7F800000#32
  let main_v15 : FVec F S200000x128 .f32 := broadcastInDim S200000x128 ![] bcast_S_S200000x128 main_cst_4
  let main_v16 : IVec S200000x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S30000x128 : Shape := ⟨2, ![30000, 128]⟩
abbrev S8000x128 : Shape := ⟨2, ![8000, 128]⟩
abbrev S200000x128 : Shape := ⟨2, ![200000, 128]⟩
abbrev S128x128 : Shape := ⟨2, ![128, 128]⟩
abbrev S128 : Shape := ⟨1, ![128]⟩
abbrev S150000 : Shape := ⟨1, ![150000]⟩
abbrev S500000 : Shape := ⟨1, ![500000]⟩
abbrev S1000000 : Shape := ⟨1, ![1000000]⟩
abbrev S_ : Shape := ⟨0, ![]⟩
abbrev S150000x1 : Shape := ⟨2, ![150000, 1]⟩
abbrev S150000x128 : Shape := ⟨2, ![150000, 128]⟩
abbrev S8000 : Shape := ⟨1, ![8000]⟩
abbrev S8000x1 : Shape := ⟨2, ![8000, 1]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S1000000x1 : Shape := ⟨2, ![1000000, 1]⟩
abbrev S1000000x128 : Shape := ⟨2, ![1000000, 128]⟩
abbrev S30000 : Shape := ⟨1, ![30000]⟩
abbrev S30000x1 : Shape := ⟨2, ![30000, 1]⟩
abbrev S1x128 : Shape := ⟨2, ![1, 128]⟩
abbrev S2000x128 : Shape := ⟨2, ![2000, 128]⟩
abbrev S338000x128 : Shape := ⟨2, ![338000, 128]⟩

abbrev nBuf : Space → Nat
  | .hbm => 217
  | .vmem => 45
  | .smem => 0
  | _ => 0

abbrev hbmTy0_0 (i : Nat) : BufTy := match i % 128 with
  | 0 => ⟨S100000x128, .f32⟩
  | 1 => ⟨S30000x128, .f32⟩
  | 2 => ⟨S8000x128, .f32⟩
  | 3 => ⟨S200000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S150000, .i32⟩
  | 20 => ⟨S150000, .i32⟩
  | 21 => ⟨S150000, .i32⟩
  | 22 => ⟨S150000, .i32⟩
  | 23 => ⟨S500000, .i32⟩
  | 24 => ⟨S500000, .i32⟩
  | 25 => ⟨S500000, .i32⟩
  | 26 => ⟨S500000, .i32⟩
  | 27 => ⟨S1000000, .i32⟩
  | 28 => ⟨S1000000, .i32⟩
  | 29 => ⟨S500000, .i32⟩
  | 30 => ⟨S500000, .i32⟩
  | 31 => ⟨S500000, .i32⟩
  | 32 => ⟨S500000, .i32⟩
  | 33 => ⟨S_, .i32⟩
  | 34 => ⟨S150000, .i32⟩
  | 35 => ⟨S150000, .i1⟩
  | 36 => ⟨S_, .i32⟩
  | 37 => ⟨S150000, .i32⟩
  | 38 => ⟨S150000, .i32⟩
  | 39 => ⟨S150000, .i32⟩
  | 40 => ⟨S150000x1, .i32⟩
  | 41 => ⟨S150000x128, .f32⟩
  | 42 => ⟨S_, .f32⟩
  | 43 => ⟨S8000x128, .f32⟩
  | 44 => ⟨S150000x1, .i32⟩
  | 45 => ⟨S8000x128, .f32⟩
  | 46 => ⟨S_, .f32⟩
  | 47 => ⟨S150000, .f32⟩
  | 48 => ⟨S_, .f32⟩
  | 49 => ⟨S8000, .f32⟩
  | 50 => ⟨S150000x1, .i32⟩
  | 51 => ⟨S8000, .f32⟩
  | 52 => ⟨S_, .f32⟩
  | 53 => ⟨S8000, .f32⟩
  | 54 => ⟨S8000, .f32⟩
  | 55 => ⟨S8000x1, .f32⟩
  | 56 => ⟨S8000x128, .f32⟩
  | 57 => ⟨S8000x128, .f32⟩
  | 58 => ⟨S_, .i32⟩
  | 59 => ⟨S150000, .i32⟩
  | 60 => ⟨S150000, .i1⟩
  | 61 => ⟨S_, .i32⟩
  | 62 => ⟨S150000, .i32⟩
  | 63 => ⟨S150000, .i32⟩
  | 64 => ⟨S150000, .i32⟩
  | 65 => ⟨S150000x1, .i32⟩
  | 66 => ⟨S150000x128, .f32⟩
  | 67 => ⟨S_, .f32⟩
  | 68 => ⟨S100000x128, .f32⟩
  | 69 => ⟨S150000x1, .i32⟩
  | 70 => ⟨S100000x128, .f32⟩
  | 71 => ⟨S_, .f32⟩
  | 72 => ⟨S150000, .f32⟩
  | 73 => ⟨S_, .f32⟩
  | 74 => ⟨S100000, .f32⟩
  | 75 => ⟨S150000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S_, .f32⟩
  | 93 => ⟨S200000x128, .f32⟩
  | 94 => ⟨S500000x1, .i32⟩
  | 95 => ⟨S200000x128, .f32⟩
  | 96 => ⟨S_, .f32⟩
  | 97 => ⟨S500000, .f32⟩
  | 98 => ⟨S_, .f32⟩
  | 99 => ⟨S200000, .f32⟩
  | 100 => ⟨S500000x1, .i32⟩
  | 101 => ⟨S200000, .f32⟩
  | 102 => ⟨S_, .f32⟩
  | 103 => ⟨S200000, .f32⟩
  | 104 => ⟨S200000, .f32⟩
  | 105 => ⟨S200000x1, .f32⟩
  | 106 => ⟨S200000x128, .f32⟩
  | 107 => ⟨S200000x128, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S_, .f32⟩
  | 118 => ⟨S100000x128, .f32⟩
  | 119 => ⟨S500000x1, .i32⟩
  | 120 => ⟨S100000x128, .f32⟩
  | 121 => ⟨S_, .f32⟩
  | 122 => ⟨S500000, .f32⟩
  | 123 => ⟨S_, .f32⟩
  | 124 => ⟨S100000, .f32⟩
  | 125 => ⟨S500000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x128, .f32⟩
  | 14 => ⟨S_, .f32⟩
  | 15 => ⟨S200000x128, .f32⟩
  | 16 => ⟨S1000000x1, .i32⟩
  | 17 => ⟨S200000x128, .f32⟩
  | 18 => ⟨S_, .f32⟩
  | 19 => ⟨S1000000, .f32⟩
  | 20 => ⟨S_, .f32⟩
  | 21 => ⟨S200000, .f32⟩
  | 22 => ⟨S1000000x1, .i32⟩
  | 23 => ⟨S200000, .f32⟩
  | 24 => ⟨S_, .f32⟩
  | 25 => ⟨S200000, .f32⟩
  | 26 => ⟨S200000, .f32⟩
  | 27 => ⟨S200000x1, .f32⟩
  | 28 => ⟨S200000x128, .f32⟩
  | 29 => ⟨S200000x128, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .f32⟩
  | 39 => ⟨S_, .f32⟩
  | 40 => ⟨S30000x128, .f32⟩
  | 41 => ⟨S500000x1, .i32⟩
  | 42 => ⟨S30000x128, .f32⟩
  | 43 => ⟨S_, .f32⟩
  | 44 => ⟨S500000, .f32⟩
  | 45 => ⟨S_, .f32⟩
  | 46 => ⟨S30000, .f32⟩
  | 47 => ⟨S500000x1, .i32⟩
  | 48 => ⟨S30000, .f32⟩
  | 49 => ⟨S_, .f32⟩
  | 50 => ⟨S30000, .f32⟩
  | 51 => ⟨S30000, .f32⟩
  | 52 => ⟨S30000x1, .f32⟩
  | 53 => ⟨S30000x128, .f32⟩
  | 54 => ⟨S30000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S200000x128, .f32⟩
  | 66 => ⟨S500000x1, .i32⟩
  | 67 => ⟨S200000x128, .f32⟩
  | 68 => ⟨S_, .f32⟩
  | 69 => ⟨S500000, .f32⟩
  | 70 => ⟨S_, .f32⟩
  | 71 => ⟨S200000, .f32⟩
  | 72 => ⟨S500000x1, .i32⟩
  | 73 => ⟨S200000, .f32⟩
  | 74 => ⟨S_, .f32⟩
  | 75 => ⟨S200000, .f32⟩
  | 76 => ⟨S200000, .f32⟩
  | 77 => ⟨S200000x1, .f32⟩
  | 78 => ⟨S200000x128, .f32⟩
  | 79 => ⟨S200000x128, .f32⟩
  | 80 => ⟨S1x128, .f32⟩
  | 81 => ⟨S100000x128, .f32⟩
  | 82 => ⟨S1x128, .f32⟩
  | 83 => ⟨S30000x128, .f32⟩
  | 84 => ⟨S1x128, .f32⟩
  | 85 => ⟨S8000x128, .f32⟩
  | 86 => ⟨S1x128, .f32⟩
  | 87 => ⟨S200000x128, .f32⟩
  | 88 => ⟨S338000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_c : Ref sig .tc := ⟨.hbm, 33, rfl⟩
abbrev main_v0 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst_1 : Ref sig .tc := ⟨.hbm, 46, rfl⟩
abbrev main_v10 : Ref sig .tc := ⟨.hbm, 47, rfl⟩
abbrev main_cst_2 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_3 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c_4 : Ref sig .tc := ⟨.hbm, 58, rfl⟩
abbrev main_v19 : Ref sig .tc := ⟨.hbm, 59, rfl⟩
abbrev main_v20 : Ref sig .tc := ⟨.hbm, 60, rfl⟩
abbrev main_c_5 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_6 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_7 : Ref sig .tc := ⟨.hbm, 71, rfl⟩
abbrev main_v29 : Ref sig .tc := ⟨.hbm, 72, rfl⟩
abbrev main_cst_8 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_9 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_10 : Ref sig .tc := ⟨.hbm, 83, rfl⟩
abbrev main_v38 : Ref sig .tc := ⟨.hbm, 84, rfl⟩
abbrev main_v39 : Ref sig .tc := ⟨.hbm, 85, rfl⟩
abbrev main_c_11 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_12 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_13 : Ref sig .tc := ⟨.hbm, 96, rfl⟩
abbrev main_v48 : Ref sig .tc := ⟨.hbm, 97, rfl⟩
abbrev main_cst_14 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_15 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_16 : Ref sig .tc := ⟨.hbm, 108, rfl⟩
abbrev main_v57 : Ref sig .tc := ⟨.hbm, 109, rfl⟩
abbrev main_v58 : Ref sig .tc := ⟨.hbm, 110, rfl⟩
abbrev main_c_17 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_18 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_19 : Ref sig .tc := ⟨.hbm, 121, rfl⟩
abbrev main_v67 : Ref sig .tc := ⟨.hbm, 122, rfl⟩
abbrev main_cst_20 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_21 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_22 : Ref sig .tc := ⟨.hbm, 133, rfl⟩
abbrev main_v76 : Ref sig .tc := ⟨.hbm, 134, rfl⟩
abbrev main_v77 : Ref sig .tc := ⟨.hbm, 135, rfl⟩
abbrev main_c_23 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_24 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_25 : Ref sig .tc := ⟨.hbm, 146, rfl⟩
abbrev main_v86 : Ref sig .tc := ⟨.hbm, 147, rfl⟩
abbrev main_cst_26 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_27 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_28 : Ref sig .tc := ⟨.hbm, 158, rfl⟩
abbrev main_v95 : Ref sig .tc := ⟨.hbm, 159, rfl⟩
abbrev main_v96 : Ref sig .tc := ⟨.hbm, 160, rfl⟩
abbrev main_c_29 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_30 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_31 : Ref sig .tc := ⟨.hbm, 171, rfl⟩
abbrev main_v105 : Ref sig .tc := ⟨.hbm, 172, rfl⟩
abbrev main_cst_32 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_33 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_c_34 : Ref sig .tc := ⟨.hbm, 183, rfl⟩
abbrev main_v114 : Ref sig .tc := ⟨.hbm, 184, rfl⟩
abbrev main_v115 : Ref sig .tc := ⟨.hbm, 185, rfl⟩
abbrev main_c_35 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_36 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_37 : Ref sig .tc := ⟨.hbm, 196, rfl⟩
abbrev main_v124 : Ref sig .tc := ⟨.hbm, 197, rfl⟩
abbrev main_cst_38 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_cst_39 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S30000x128 : S_.BroadcastsInDim S30000x128 (![] : Fin 0 → Fin S30000x128.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S100000x128_S30000x128_S8000x128_S200000x128_S338000x128_d0 : Shape.Concatenates [S100000x128, S30000x128, S8000x128, S200000x128] S338000x128 0
  gather_S100000x128_S150000x1_S150000x128_1_0_n_n_0_1_1128_wf : GatherDims.WF S100000x128 S150000x1 S150000x128 [1] [0] [] [0] [] 1 ![1, 128]
  scatter_S8000x128_S150000x1_S150000x128_1_0_0_1_wf : ScatterDims.WF S8000x128 S150000x1 S150000x128 [1] [0] [0] 1
  scatter_S8000_S150000x1_S150000_n_0_0_1_wf : ScatterDims.WF S8000 S150000x1 S150000 [] [0] [0] 1
  gather_S8000x128_S150000x1_S150000x128_1_0_n_n_0_1_1128_wf : GatherDims.WF S8000x128 S150000x1 S150000x128 [1] [0] [] [0] [] 1 ![1, 128]
  scatter_S100000x128_S150000x1_S150000x128_1_0_0_1_wf : ScatterDims.WF S100000x128 S150000x1 S150000x128 [1] [0] [0] 1
  scatter_S100000_S150000x1_S150000_n_0_0_1_wf : ScatterDims.WF S100000 S150000x1 S150000 [] [0] [0] 1
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  scatter_S30000x128_S500000x1_S500000x128_1_0_0_1_wf : ScatterDims.WF S30000x128 S500000x1 S500000x128 [1] [0] [0] 1
  scatter_S30000_S500000x1_S500000_n_0_0_1_wf : ScatterDims.WF S30000 S500000x1 S500000 [] [0] [0] 1
  gather_S30000x128_S500000x1_S500000x128_1_0_n_n_0_1_1128_wf : GatherDims.WF S30000x128 S500000x1 S500000x128 [1] [0] [] [0] [] 1 ![1, 128]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S30000x128.size a
  hwx1_0 : ∀ i : grid1.Coords, EltTy.bits .f32 = 32 ∨ (Rect.block (s := S30000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S30000x128.size a
  hwx1_1 : ∀ i : grid1.Coords, EltTy.bits .f32 = 32 ∨ (Rect.block (s := S30000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S30000x128.size a
  hwx1_5 : ∀ i : grid1.Coords, EltTy.bits .f32 = 32 ∨ (Rect.block (s := S30000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S8000x128.size a
  hwx2_0 : ∀ i : grid2.Coords, EltTy.bits .f32 = 32 ∨ (Rect.block (s := S8000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S8000x128.size a
  hwx2_1 : ∀ i : grid2.Coords, EltTy.bits .f32 = 32 ∨ (Rect.block (s := S8000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S8000x128.size a
  hwx2_5 : ∀ i : grid2.Coords, EltTy.bits .f32 = 32 ∨ (Rect.block (s := S8000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S200000x128.size a
  hwx3_1 : ∀ i : grid3.Coords, EltTy.bits .f32 = 32 ∨ (Rect.block (s := S200000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S200000x128.size a
  hwx3_2 : ∀ i : grid3.Coords, EltTy.bits .f32 = 32 ∨ (Rect.block (s := S200000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S200000x128.size a
  hwx3_3 : ∀ i : grid3.Coords, EltTy.bits .f32 = 32 ∨ (Rect.block (s := S200000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S200000x128.size a
  hwx3_9 : ∀ i : grid3.Coords, EltTy.bits .f32 = 32 ∨ (Rect.block (s := S200000x128) S2000x128.size (cc3_transform_9 i) (hinb3_9 i)).WholeWords (EltTy.packing .f32)

variable [Facts₀]

def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S8000x128_S150000x1_S150000x128_1_0_0_1 : ScatterDims S8000x128 S150000x1 S150000x128 where
  updateWindowDims := [1]
  insertedWindowDims := [0]
  scatterDimsToOperandDims := [0]
  indexVectorDim := 1
  wf := scatter_S8000x128_S150000x1_S150000x128_1_0_0_1_wf
def scatter_S8000_S150000x1_S150000_n_0_0_1 : ScatterDims S8000 S150000x1 S150000 where
  updateWindowDims := []
  insertedWindowDims := [0]
  scatterDimsToOperandDims := [0]
  indexVectorDim := 1
  wf := scatter_S8000_S150000x1_S150000_n_0_0_1_wf
def gather_S8000x128_S150000x1_S150000x128_1_0_n_n_0_1_1128 : GatherDims S8000x128 S150000x1 S150000x128 where
  offsetDims := [1]
  collapsedSliceDims := [0]
  operandBatchingDims := []
  startIndicesBatchingDims := []
  startIndexMap := [0]
  indexVectorDim := 1
  sliceSizes := ![1, 128]
  wf := gather_S8000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S30000x128_S500000x1_S500000x128_1_0_0_1 : ScatterDims S30000x128 S500000x1 S500000x128 where
  updateWindowDims := [1]
  insertedWindowDims := [0]
  scatterDimsToOperandDims := [0]
  indexVectorDim := 1
  wf := scatter_S30000x128_S500000x1_S500000x128_1_0_0_1_wf
def scatter_S30000_S500000x1_S500000_n_0_0_1 : ScatterDims S30000 S500000x1 S500000 where
  updateWindowDims := []
  insertedWindowDims := [0]
  scatterDimsToOperandDims := [0]
  indexVectorDim := 1
  wf := scatter_S30000_S500000x1_S500000_n_0_0_1_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v133) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v134) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v113) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v135) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v136) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v137) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v138) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg3) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v132) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg18) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v139) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v140) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S30000x128 : Shape := ⟨2, ![30000, 128]⟩
abbrev S8000x128 : Shape := ⟨2, ![8000, 128]⟩
abbrev S200000x128 : Shape := ⟨2, ![200000, 128]⟩
abbrev S128x128 : Shape := ⟨2, ![128, 128]⟩
abbrev S128 : Shape := ⟨1, ![128]⟩
abbrev S150000 : Shape := ⟨1, ![150000]⟩
abbrev S500000 : Shape := ⟨1, ![500000]⟩
abbrev S1000000 : Shape := ⟨1, ![1000000]⟩
abbrev S1x128 : Shape := ⟨2, ![1, 128]⟩
abbrev S_ : Shape := ⟨0, ![]⟩
abbrev S150000x1 : Shape := ⟨2, ![150000, 1]⟩
abbrev S150000x128 : Shape := ⟨2, ![150000, 128]⟩
abbrev S8000 : Shape := ⟨1, ![8000]⟩
abbrev S8000x1 : Shape := ⟨2, ![8000, 1]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S1000000x1 : Shape := ⟨2, ![1000000, 1]⟩
abbrev S1000000x128 : Shape := ⟨2, ![1000000, 128]⟩
abbrev S30000 : Shape := ⟨1, ![30000]⟩
abbrev S30000x1 : Shape := ⟨2, ![30000, 1]⟩
abbrev S338000x128 : Shape := ⟨2, ![338000, 128]⟩

abbrev nBuf : Space → Nat
  | .hbm => 239
  | .vmem => 0
  | .smem => 0
  | _ => 0

abbrev hbmTy0_0 (i : Nat) : BufTy := match i % 128 with
  | 0 => ⟨S100000x128, .f32⟩
  | 1 => ⟨S30000x128, .f32⟩
  | 2 => ⟨S8000x128, .f32⟩
  | 3 => ⟨S200000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S150000, .i32⟩
  | 20 => ⟨S150000, .i32⟩
  | 21 => ⟨S150000, .i32⟩
  | 22 => ⟨S150000, .i32⟩
  | 23 => ⟨S500000, .i32⟩
  | 24 => ⟨S500000, .i32⟩
  | 25 => ⟨S500000, .i32⟩
  | 26 => ⟨S500000, .i32⟩
  | 27 => ⟨S1000000, .i32⟩
  | 28 => ⟨S1000000, .i32⟩
  | 29 => ⟨S500000, .i32⟩
  | 30 => ⟨S500000, .i32⟩
  | 31 => ⟨S500000, .i32⟩
  | 32 => ⟨S500000, .i32⟩
  | 33 => ⟨S100000x128, .f32⟩
  | 34 => ⟨S1x128, .f32⟩
  | 35 => ⟨S100000x128, .f32⟩
  | 36 => ⟨S100000x128, .f32⟩
  | 37 => ⟨S30000x128, .f32⟩
  | 38 => ⟨S1x128, .f32⟩
  | 39 => ⟨S30000x128, .f32⟩
  | 40 => ⟨S30000x128, .f32⟩
  | 41 => ⟨S8000x128, .f32⟩
  | 42 => ⟨S1x128, .f32⟩
  | 43 => ⟨S8000x128, .f32⟩
  | 44 => ⟨S8000x128, .f32⟩
  | 45 => ⟨S200000x128, .f32⟩
  | 46 => ⟨S1x128, .f32⟩
  | 47 => ⟨S200000x128, .f32⟩
  | 48 => ⟨S200000x128, .f32⟩
  | 49 => ⟨S_, .i32⟩
  | 50 => ⟨S150000, .i32⟩
  | 51 => ⟨S150000, .i1⟩
  | 52 => ⟨S_, .i32⟩
  | 53 => ⟨S150000, .i32⟩
  | 54 => ⟨S150000, .i32⟩
  | 55 => ⟨S150000, .i32⟩
  | 56 => ⟨S150000x1, .i32⟩
  | 57 => ⟨S150000x128, .f32⟩
  | 58 => ⟨S_, .f32⟩
  | 59 => ⟨S8000x128, .f32⟩
  | 60 => ⟨S150000x1, .i32⟩
  | 61 => ⟨S8000x128, .f32⟩
  | 62 => ⟨S_, .f32⟩
  | 63 => ⟨S150000, .f32⟩
  | 64 => ⟨S_, .f32⟩
  | 65 => ⟨S8000, .f32⟩
  | 66 => ⟨S150000x1, .i32⟩
  | 67 => ⟨S8000, .f32⟩
  | 68 => ⟨S_, .f32⟩
  | 69 => ⟨S8000, .f32⟩
  | 70 => ⟨S8000, .f32⟩
  | 71 => ⟨S8000x1, .f32⟩
  | 72 => ⟨S8000x128, .f32⟩
  | 73 => ⟨S8000x128, .f32⟩
  | 74 => ⟨S8000x128, .f32⟩
  | 75 => ⟨S8000x128, .f32⟩
  | 76 => ⟨S_, .i32⟩
  | 77 => ⟨S150000, .i32⟩
  | 78 => ⟨S150000, .i1⟩
  | 79 => ⟨S_, .i32⟩
  | 80 => ⟨S150000, .i32⟩
  | 81 => ⟨S150000, .i32⟩
  | 82 => ⟨S150000, .i32⟩
  | 83 => ⟨S150000x1, .i32⟩
  | 84 => ⟨S150000x128, .f32⟩
  | 85 => ⟨S_, .f32⟩
  | 86 => ⟨S100000x128, .f32⟩
  | 87 => ⟨S150000x1, .i32⟩
  | 88 => ⟨S100000x128, .f32⟩
  | 89 => ⟨S_, .f32⟩
  | 90 => ⟨S150000, .f32⟩
  | 91 => ⟨S_, .f32⟩
  | 92 => ⟨S100000, .f32⟩
  | 93 => ⟨S150000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S100000x128, .f32⟩
  | 102 => ⟨S100000x128, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S_, .f32⟩
  | 113 => ⟨S200000x128, .f32⟩
  | 114 => ⟨S500000x1, .i32⟩
  | 115 => ⟨S200000x128, .f32⟩
  | 116 => ⟨S_, .f32⟩
  | 117 => ⟨S500000, .f32⟩
  | 118 => ⟨S_, .f32⟩
  | 119 => ⟨S200000, .f32⟩
  | 120 => ⟨S500000x1, .i32⟩
  | 121 => ⟨S200000, .f32⟩
  | 122 => ⟨S_, .f32⟩
  | 123 => ⟨S200000, .f32⟩
  | 124 => ⟨S200000, .f32⟩
  | 125 => ⟨S200000x1, .f32⟩
  | 126 => ⟨S200000x128, .f32⟩
  | 127 => ⟨S200000x128, .f32⟩
  | _ => ⟨S100000x128, .f32⟩

abbrev hbmTy0_1 (i : Nat) : BufTy := match i % 128 with
  | 0 => ⟨S200000x128, .f32⟩
  | 1 => ⟨S200000x128, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .f32⟩
  | 12 => ⟨S100000x128, .f32⟩
  | 13 => ⟨S500000x1, .i32⟩
  | 14 => ⟨S100000x128, .f32⟩
  | 15 => ⟨S_, .f32⟩
  | 16 => ⟨S500000, .f32⟩
  | 17 => ⟨S_, .f32⟩
  | 18 => ⟨S100000, .f32⟩
  | 19 => ⟨S500000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S100000x128, .f32⟩
  | 28 => ⟨S100000x128, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x128, .f32⟩
  | 38 => ⟨S_, .f32⟩
  | 39 => ⟨S200000x128, .f32⟩
  | 40 => ⟨S1000000x1, .i32⟩
  | 41 => ⟨S200000x128, .f32⟩
  | 42 => ⟨S_, .f32⟩
  | 43 => ⟨S1000000, .f32⟩
  | 44 => ⟨S_, .f32⟩
  | 45 => ⟨S200000, .f32⟩
  | 46 => ⟨S1000000x1, .i32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x128, .f32⟩
  | 53 => ⟨S200000x128, .f32⟩
  | 54 => ⟨S200000x128, .f32⟩
  | 55 => ⟨S200000x128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S_, .f32⟩
  | 66 => ⟨S30000x128, .f32⟩
  | 67 => ⟨S500000x1, .i32⟩
  | 68 => ⟨S30000x128, .f32⟩
  | 69 => ⟨S_, .f32⟩
  | 70 => ⟨S500000, .f32⟩
  | 71 => ⟨S_, .f32⟩
  | 72 => ⟨S30000, .f32⟩
  | 73 => ⟨S500000x1, .i32⟩
  | 74 => ⟨S30000, .f32⟩
  | 75 => ⟨S_, .f32⟩
  | 76 => ⟨S30000, .f32⟩
  | 77 => ⟨S30000, .f32⟩
  | 78 => ⟨S30000x1, .f32⟩
  | 79 => ⟨S30000x128, .f32⟩
  | 80 => ⟨S30000x128, .f32⟩
  | 81 => ⟨S30000x128, .f32⟩
  | 82 => ⟨S30000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S_, .f32⟩
  | 93 => ⟨S200000x128, .f32⟩
  | 94 => ⟨S500000x1, .i32⟩
  | 95 => ⟨S200000x128, .f32⟩
  | 96 => ⟨S_, .f32⟩
  | 97 => ⟨S500000, .f32⟩
  | 98 => ⟨S_, .f32⟩
  | 99 => ⟨S200000, .f32⟩
  | 100 => ⟨S500000x1, .i32⟩
  | 101 => ⟨S200000, .f32⟩
  | 102 => ⟨S_, .f32⟩
  | 103 => ⟨S200000, .f32⟩
  | 104 => ⟨S200000, .f32⟩
  | 105 => ⟨S200000x1, .f32⟩
  | 106 => ⟨S200000x128, .f32⟩
  | 107 => ⟨S200000x128, .f32⟩
  | 108 => ⟨S200000x128, .f32⟩
  | 109 => ⟨S200000x128, .f32⟩
  | 110 => ⟨S338000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c : Ref sig .tc := ⟨.hbm, 49, rfl⟩
abbrev main_v16 : Ref sig .tc := ⟨.hbm, 50, rfl⟩
abbrev main_v17 : Ref sig .tc := ⟨.hbm, 51, rfl⟩
abbrev main_c_0 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_1 : Ref sig .tc := ⟨.hbm, 62, rfl⟩
abbrev main_v26 : Ref sig .tc := ⟨.hbm, 63, rfl⟩
abbrev main_cst_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_3 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_4 : Ref sig .tc := ⟨.hbm, 76, rfl⟩
abbrev main_v37 : Ref sig .tc := ⟨.hbm, 77, rfl⟩
abbrev main_v38 : Ref sig .tc := ⟨.hbm, 78, rfl⟩
abbrev main_c_5 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_6 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_7 : Ref sig .tc := ⟨.hbm, 89, rfl⟩
abbrev main_v47 : Ref sig .tc := ⟨.hbm, 90, rfl⟩
abbrev main_cst_8 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_10 : Ref sig .tc := ⟨.hbm, 103, rfl⟩
abbrev main_v58 : Ref sig .tc := ⟨.hbm, 104, rfl⟩
abbrev main_v59 : Ref sig .tc := ⟨.hbm, 105, rfl⟩
abbrev main_c_11 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_13 : Ref sig .tc := ⟨.hbm, 116, rfl⟩
abbrev main_v68 : Ref sig .tc := ⟨.hbm, 117, rfl⟩
abbrev main_cst_14 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_16 : Ref sig .tc := ⟨.hbm, 130, rfl⟩
abbrev main_v79 : Ref sig .tc := ⟨.hbm, 131, rfl⟩
abbrev main_v80 : Ref sig .tc := ⟨.hbm, 132, rfl⟩
abbrev main_c_17 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_18 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_19 : Ref sig .tc := ⟨.hbm, 143, rfl⟩
abbrev main_v89 : Ref sig .tc := ⟨.hbm, 144, rfl⟩
abbrev main_cst_20 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_21 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_c_22 : Ref sig .tc := ⟨.hbm, 157, rfl⟩
abbrev main_v100 : Ref sig .tc := ⟨.hbm, 158, rfl⟩
abbrev main_v101 : Ref sig .tc := ⟨.hbm, 159, rfl⟩
abbrev main_c_23 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_24 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_25 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_27 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_c_28 : Ref sig .tc := ⟨.hbm, 184, rfl⟩
abbrev main_v121 : Ref sig .tc := ⟨.hbm, 185, rfl⟩
abbrev main_v122 : Ref sig .tc := ⟨.hbm, 186, rfl⟩
abbrev main_c_29 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_30 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_31 : Ref sig .tc := ⟨.hbm, 197, rfl⟩
abbrev main_v131 : Ref sig .tc := ⟨.hbm, 198, rfl⟩
abbrev main_cst_32 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_33 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_c_34 : Ref sig .tc := ⟨.hbm, 211, rfl⟩
abbrev main_v142 : Ref sig .tc := ⟨.hbm, 212, rfl⟩
abbrev main_v143 : Ref sig .tc := ⟨.hbm, 213, rfl⟩
abbrev main_c_35 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_36 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_37 : Ref sig .tc := ⟨.hbm, 224, rfl⟩
abbrev main_v152 : Ref sig .tc := ⟨.hbm, 225, rfl⟩
abbrev main_cst_38 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_39 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S30000x128_0_1 : S1x128.BroadcastsInDim S30000x128 (![0, 1] : Fin 2 → Fin S30000x128.rank)
  bcast_S1x128_S8000x128_0_1 : S1x128.BroadcastsInDim S8000x128 (![0, 1] : Fin 2 → Fin S8000x128.rank)
  bcast_S1x128_S200000x128_0_1 : S1x128.BroadcastsInDim S200000x128 (![0, 1] : Fin 2 → Fin S200000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S30000x128 : S_.BroadcastsInDim S30000x128 (![] : Fin 0 → Fin S30000x128.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  concatenates_S100000x128_S30000x128_S8000x128_S200000x128_S338000x128_d0 : Shape.Concatenates [S100000x128, S30000x128, S8000x128, S200000x128] S338000x128 0
  dot_S100000x128_S128x128_S100000x128_1_0_0_1_n_n_wf : DotDims.WF S100000x128 S128x128 S100000x128 [1] [0] [0] [1] [] []
  dot_S30000x128_S128x128_S30000x128_1_0_0_1_n_n_wf : DotDims.WF S30000x128 S128x128 S30000x128 [1] [0] [0] [1] [] []
  dot_S8000x128_S128x128_S8000x128_1_0_0_1_n_n_wf : DotDims.WF S8000x128 S128x128 S8000x128 [1] [0] [0] [1] [] []
  dot_S200000x128_S128x128_S200000x128_1_0_0_1_n_n_wf : DotDims.WF S200000x128 S128x128 S200000x128 [1] [0] [0] [1] [] []
  gather_S100000x128_S150000x1_S150000x128_1_0_n_n_0_1_1128_wf : GatherDims.WF S100000x128 S150000x1 S150000x128 [1] [0] [] [0] [] 1 ![1, 128]
  scatter_S8000x128_S150000x1_S150000x128_1_0_0_1_wf : ScatterDims.WF S8000x128 S150000x1 S150000x128 [1] [0] [0] 1
  scatter_S8000_S150000x1_S150000_n_0_0_1_wf : ScatterDims.WF S8000 S150000x1 S150000 [] [0] [0] 1
  gather_S8000x128_S150000x1_S150000x128_1_0_n_n_0_1_1128_wf : GatherDims.WF S8000x128 S150000x1 S150000x128 [1] [0] [] [0] [] 1 ![1, 128]
  scatter_S100000x128_S150000x1_S150000x128_1_0_0_1_wf : ScatterDims.WF S100000x128 S150000x1 S150000x128 [1] [0] [0] 1
  scatter_S100000_S150000x1_S150000_n_0_0_1_wf : ScatterDims.WF S100000 S150000x1 S150000 [] [0] [0] 1
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  scatter_S30000x128_S500000x1_S500000x128_1_0_0_1_wf : ScatterDims.WF S30000x128 S500000x1 S500000x128 [1] [0] [0] 1
  scatter_S30000_S500000x1_S500000_n_0_0_1_wf : ScatterDims.WF S30000 S500000x1 S500000 [] [0] [0] 1
  gather_S30000x128_S500000x1_S500000x128_1_0_n_n_0_1_1128_wf : GatherDims.WF S30000x128 S500000x1 S500000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S8000x128_S150000x1_S150000x128_1_0_0_1 : ScatterDims S8000x128 S150000x1 S150000x128 where
  updateWindowDims := [1]
  insertedWindowDims := [0]
  scatterDimsToOperandDims := [0]
  indexVectorDim := 1
  wf := scatter_S8000x128_S150000x1_S150000x128_1_0_0_1_wf
def scatter_S8000_S150000x1_S150000_n_0_0_1 : ScatterDims S8000 S150000x1 S150000 where
  updateWindowDims := []
  insertedWindowDims := [0]
  scatterDimsToOperandDims := [0]
  indexVectorDim := 1
  wf := scatter_S8000_S150000x1_S150000_n_0_0_1_wf
def gather_S8000x128_S150000x1_S150000x128_1_0_n_n_0_1_1128 : GatherDims S8000x128 S150000x1 S150000x128 where
  offsetDims := [1]
  collapsedSliceDims := [0]
  operandBatchingDims := []
  startIndicesBatchingDims := []
  startIndexMap := [0]
  indexVectorDim := 1
  sliceSizes := ![1, 128]
  wf := gather_S8000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S30000x128_S500000x1_S500000x128_1_0_0_1 : ScatterDims S30000x128 S500000x1 S500000x128 where
  updateWindowDims := [1]
  insertedWindowDims := [0]
  scatterDimsToOperandDims := [0]
  indexVectorDim := 1
  wf := scatter_S30000x128_S500000x1_S500000x128_1_0_0_1_wf
def scatter_S30000_S500000x1_S500000_n_0_0_1 : ScatterDims S30000 S500000x1 S500000 where
  updateWindowDims := []
  insertedWindowDims := [0]
  scatterDimsToOperandDims := [0]
  indexVectorDim := 1
  wf := scatter_S30000_S500000x1_S500000_n_0_0_1_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf

class Facts : Prop extends Facts₀ where

variable [Facts]
-- ==== Proof.BitsRegion0.lean ====
/-
  Region 0 of the program: one launch of the linear-sum kernel over blocks of 2000 rows. At a grid point the body reads
  3 blocks of 2000 rows, 3 whole 128 x 128 weight matrices and one bias row, and stores one 2000 x 128 tile: the sum of the
  3 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.Kernel.Launch
import proofs.«139170_j4398046511496_1_alg».proof.Proof.Gen.Kernel.Skeleton
import proofs.«139170_j4398046511496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's staging buffer holds its block at every point, whether or not that point fetched it (a block that is
    not fetched again has not moved). -/
theorem held0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- Input operand 1's staging buffer holds its block at every point, whether or not that point fetched it (a block that is
    not fetched again has not moved). -/
theorem held0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-- Input operand 2's staging buffer holds its block at every point, whether or not that point fetched it (a block that is
    not fetched again has not moved). -/
theorem held0_2_of {c : Dev nD} (dat : Dat τ (Elt F) Unit ℕ (UR sig nD τ) ℕ cfg0 c) (hA : dat.A 2 = V c (Pipeline.arrRef spec0 2))
    (hafter : ∀ t, dat.after 2 t = block0 V c 2 t) (t : Fin cfg0.N) (d) : dat.before 2 t d = block0 V c 2 t :=
  (dat.before_in_eq_fetched 2 rfl (fun _ => rfl) (fun _ _ _ => rfl) (fun t => by rw [hafter]; unfold Dat.blockOf block0; rw [hA]; try rfl) t d).trans
    (by unfold Dat.fetched Dat.blockOf block0; rw [hA]; try rfl)

/-- Input operand 3's staging buffer holds its block at every point, whether or not that point fetched it (a block that is
    not fetched again has not moved). -/
theorem held0_3_of {c : Dev nD} (dat : Dat τ (Elt F) Unit ℕ (UR sig nD τ) ℕ cfg0 c) (hA : dat.A 3 = V c (Pipeline.arrRef spec0 3))
    (hafter : ∀ t, dat.after 3 t = block0 V c 3 t) (t : Fin cfg0.N) (d) : dat.before 3 t d = block0 V c 3 t :=
  (dat.before_in_eq_fetched 3 rfl (fun _ => rfl) (fun _ _ _ => rfl) (fun t => by rw [hafter]; unfold Dat.blockOf block0; rw [hA]; try rfl) t d).trans
    (by unfold Dat.fetched Dat.blockOf block0; rw [hA]; try rfl)

/-- Input operand 4's staging buffer holds its block at every point, whether or not that point fetched it (a block that is
    not fetched again has not moved). -/
theorem held0_4_of {c : Dev nD} (dat : Dat τ (Elt F) Unit ℕ (UR sig nD τ) ℕ cfg0 c) (hA : dat.A 4 = V c (Pipeline.arrRef spec0 4))
    (hafter : ∀ t, dat.after 4 t = block0 V c 4 t) (t : Fin cfg0.N) (d) : dat.before 4 t d = block0 V c 4 t :=
  (dat.before_in_eq_fetched 4 rfl (fun _ => rfl) (fun _ _ _ => rfl) (fun t => by rw [hafter]; unfold Dat.blockOf block0; rw [hA]; try rfl) t d).trans
    (by unfold Dat.fetched Dat.blockOf block0; rw [hA]; try rfl)

/-- Input operand 5's staging buffer holds its block at every point, whether or not that point fetched it (a block that is
    not fetched again has not moved). -/
theorem held0_5_of {c : Dev nD} (dat : Dat τ (Elt F) Unit ℕ (UR sig nD τ) ℕ cfg0 c) (hA : dat.A 5 = V c (Pipeline.arrRef spec0 5))
    (hafter : ∀ t, dat.after 5 t = block0 V c 5 t) (t : Fin cfg0.N) (d) : dat.before 5 t d = block0 V c 5 t :=
  (dat.before_in_eq_fetched 5 rfl (fun _ => rfl) (fun _ _ _ => rfl) (fun t => by rw [hafter]; unfold Dat.blockOf block0; rw [hA]; try rfl) t d).trans
    (by unfold Dat.fetched Dat.blockOf block0; rw [hA]; try rfl)

/-- Input operand 6's staging buffer holds its block at every point, whether or not that point fetched it (a block that is
    not fetched again has not moved). -/
theorem held0_6_of {c : Dev nD} (dat : Dat τ (Elt F) Unit ℕ (UR sig nD τ) ℕ cfg0 c) (hA : dat.A 6 = V c (Pipeline.arrRef spec0 6))
    (hafter : ∀ t, dat.after 6 t = block0 V c 6 t) (t : Fin cfg0.N) (d) : dat.before 6 t d = block0 V c 6 t :=
  (dat.before_in_eq_fetched 6 rfl (fun _ => rfl) (fun _ _ _ => rfl) (fun t => by rw [hafter]; unfold Dat.blockOf block0; rw [hA]; try rfl) t d).trans
    (by unfold Dat.fetched Dat.blockOf block0; rw [hA]; try rfl)

/-- The whole 2000 x 128 tile, the whole 128 x 128 matrix and the whole 1 x 128 row: the body's accesses. -/
abbrev tileRect0 : Rect S2000x128 := Rect.unit (s := S2000x128) ![0, 0] S2000x128.size inb_S2000x128_S2000x128_0_0
abbrev weightRect0 : Rect S128x128 := Rect.unit (s := S128x128) ![0, 0] S128x128.size inb_S128x128_S128x128_0_0
abbrev rowRect0 : Rect S1x128 := Rect.unit (s := S1x128) ![0, 0] S1x128.size inb_S1x128_S1x128_0_0

/-- The output tile after the body, from the input blocks: one store of the whole tile, of the sum of the products plus the bias row. -/
def tile0 (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) : Vec F S2000x128 .f32 :=
  View.canon [⟨tileRect0, k0_pay1 (View.ld x0 tileRect0) (View.ld x3 weightRect0) (View.ld x1 tileRect0) (View.ld x4 weightRect0) (View.ld x2 tileRect0) (View.ld x5 weightRect0) (View.ld x6 rowRect0)⟩]

/-- That one store covers the tile. -/
theorem tile0_covered (p0 : Vec F S2000x128 .f32) (y : S2000x128.Idx) :
    ∃ pc ∈ ([⟨tileRect0, p0⟩] : List (View.Piece (Elt F) S2000x128 .f32)), y ∈ pc.1.set :=
  View.cover_of_tiled [⟨tileRect0, p0⟩] S2000x128.size (by rfl) y

set_option maxHeartbeats 4000000 in
/-- The body on whole staging buffers, the inputs' at contents `x` and the output's at anything, runs to its end leaving the
    inputs as they were and the output at `tile0` of them. -/
theorem body0_triple (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (tile0 x0 x1 x2 x3 x4 x5 x6)) -∗ K ⟨⟩))
      ⊢ wp frame (wpE (defs₀ (F := F)) Variants.none c none) E (cc0_kernel i arg0 harg0 arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tile0_covered _)

/-- The launch's proof data on core `c`: the arrays as the region finds them; after the body at a point each input's buffer
    still at its block and the output's at `tile0` of the blocks; nothing else held, nothing owed. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => block0 V c 4 t
    | ⟨5, _⟩ => block0 V c 5 t
    | ⟨6, _⟩ => block0 V c 6 t
    | ⟨7, _⟩ => tile0 (block0 V c 0 t) (block0 V c 1 t) (block0 V c 2 t) (block0 V c 3 t) (block0 V c 4 t) (block0 V c 5 t) (block0 V c 6 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = block0 V c 0 t := by dsimp only [data0]
theorem data0_after_1 (c : Dev nD) (t : Fin cfg0.N) : (data0 V c).after 1 t = block0 V c 1 t := by dsimp only [data0]
theorem data0_after_2 (c : Dev nD) (t : Fin cfg0.N) : (data0 V c).after 2 t = block0 V c 2 t := by dsimp only [data0]
theorem data0_after_3 (c : Dev nD) (t : Fin cfg0.N) : (data0 V c).after 3 t = block0 V c 3 t := by dsimp only [data0]
theorem data0_after_4 (c : Dev nD) (t : Fin cfg0.N) : (data0 V c).after 4 t = block0 V c 4 t := by dsimp only [data0]
theorem data0_after_5 (c : Dev nD) (t : Fin cfg0.N) : (data0 V c).after 5 t = block0 V c 5 t := by dsimp only [data0]
theorem data0_after_6 (c : Dev nD) (t : Fin cfg0.N) : (data0 V c).after 6 t = block0 V c 6 t := by dsimp only [data0]
theorem data0_after_7 (c : Dev nD) (t : Fin cfg0.N) : (data0 V c).after 7 t = tile0 (block0 V c 0 t) (block0 V c 1 t) (block0 V c 2 t) (block0 V c 3 t) (block0 V c 4 t) (block0 V c 5 t) (block0 V c 6 t) := by dsimp only [data0]

theorem data0_before_0 (c : Dev nD) (t : Fin cfg0.N) (d) : (data0 V c).before 0 t d = block0 V c 0 t :=
  held0_0_of V (data0 V c) (data0_A V c 0) (data0_after_0 V c) t d
theorem data0_before_1 (c : Dev nD) (t : Fin cfg0.N) (d) : (data0 V c).before 1 t d = block0 V c 1 t :=
  held0_1_of V (data0 V c) (data0_A V c 1) (data0_after_1 V c) t d
theorem data0_before_2 (c : Dev nD) (t : Fin cfg0.N) (d) : (data0 V c).before 2 t d = block0 V c 2 t :=
  held0_2_of V (data0 V c) (data0_A V c 2) (data0_after_2 V c) t d
theorem data0_before_3 (c : Dev nD) (t : Fin cfg0.N) (d) : (data0 V c).before 3 t d = block0 V c 3 t :=
  held0_3_of V (data0 V c) (data0_A V c 3) (data0_after_3 V c) t d
theorem data0_before_4 (c : Dev nD) (t : Fin cfg0.N) (d) : (data0 V c).before 4 t d = block0 V c 4 t :=
  held0_4_of V (data0 V c) (data0_A V c 4) (data0_after_4 V c) t d
theorem data0_before_5 (c : Dev nD) (t : Fin cfg0.N) (d) : (data0 V c).before 5 t d = block0 V c 5 t :=
  held0_5_of V (data0 V c) (data0_A V c 5) (data0_after_5 V c) t d
theorem data0_before_6 (c : Dev nD) (t : Fin cfg0.N) (d) : (data0 V c).before 6 t d = block0 V c 6 t :=
  held0_6_of V (data0 V c) (data0_A V c 6) (data0_after_6 V c) t d

/-- What the body is called with at point `t`, operand by operand, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t))

/-- The body at any point: the inputs' buffers hold their blocks, so the triple applies; the rest passes through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [data0_before_0, data0_before_1, data0_before_2, data0_before_3, data0_before_4, data0_before_5, data0_before_6]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5, data0_after_6, data0_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_triple c Set.univ _ _ _ _ _ _ _ _ _ _ _ _ _ _ _ _ _ (block0 V c 0 t) (block0 V c 1 t) (block0 V c 2 t) (block0 V c 3 t) (block0 V c 4 t) (block0 V c 5 t) (block0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's per-point obligation. -/
theorem body0_obligation (c : Dev nD) : BodyObligation (data0 (F := F) V c) (defs₀ (F := F)) Variants.none () Set.univ := fun t => by
  rw [bigSep_W0, bigSep_W0]
  exact body0_at V c t

end Cert.Kernel.Rgn

end
-- ==== Proof.BitsRegion1.lean ====
/-
  Region 1 of the program: one launch of the linear-sum kernel over blocks of 2000 rows. At a grid point the body reads
  2 blocks of 2000 rows, 2 whole 128 x 128 weight matrices and one bias row, and stores one 2000 x 128 tile: the sum of the
  2 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.Kernel.Launch
import proofs.«139170_j4398046511496_1_alg».proof.Proof.Gen.Kernel.Skeleton
import proofs.«139170_j4398046511496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's staging buffer holds its block at every point, whether or not that point fetched it (a block that is
    not fetched again has not moved). -/
theorem held1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- Input operand 1's staging buffer holds its block at every point, whether or not that point fetched it (a block that is
    not fetched again has not moved). -/
theorem held1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-- Input operand 2's staging buffer holds its block at every point, whether or not that point fetched it (a block that is
    not fetched again has not moved). -/
theorem held1_2_of {c : Dev nD} (dat : Dat τ (Elt F) Unit ℕ (UR sig nD τ) ℕ cfg1 c) (hA : dat.A 2 = V c (Pipeline.arrRef spec1 2))
    (hafter : ∀ t, dat.after 2 t = block1 V c 2 t) (t : Fin cfg1.N) (d) : dat.before 2 t d = block1 V c 2 t :=
  (dat.before_in_eq_fetched 2 rfl (fun _ => rfl) (fun _ _ _ => rfl) (fun t => by rw [hafter]; unfold Dat.blockOf block1; rw [hA]; try rfl) t d).trans
    (by unfold Dat.fetched Dat.blockOf block1; rw [hA]; try rfl)

/-- Input operand 3's staging buffer holds its block at every point, whether or not that point fetched it (a block that is
    not fetched again has not moved). -/
theorem held1_3_of {c : Dev nD} (dat : Dat τ (Elt F) Unit ℕ (UR sig nD τ) ℕ cfg1 c) (hA : dat.A 3 = V c (Pipeline.arrRef spec1 3))
    (hafter : ∀ t, dat.after 3 t = block1 V c 3 t) (t : Fin cfg1.N) (d) : dat.before 3 t d = block1 V c 3 t :=
  (dat.before_in_eq_fetched 3 rfl (fun _ => rfl) (fun _ _ _ => rfl) (fun t => by rw [hafter]; unfold Dat.blockOf block1; rw [hA]; try rfl) t d).trans
    (by unfold Dat.fetched Dat.blockOf block1; rw [hA]; try rfl)

/-- Input operand 4's staging buffer holds its block at every point, whether or not that point fetched it (a block that is
    not fetched again has not moved). -/
theorem held1_4_of {c : Dev nD} (dat : Dat τ (Elt F) Unit ℕ (UR sig nD τ) ℕ cfg1 c) (hA : dat.A 4 = V c (Pipeline.arrRef spec1 4))
    (hafter : ∀ t, dat.after 4 t = block1 V c 4 t) (t : Fin cfg1.N) (d) : dat.before 4 t d = block1 V c 4 t :=
  (dat.before_in_eq_fetched 4 rfl (fun _ => rfl) (fun _ _ _ => rfl) (fun t => by rw [hafter]; unfold Dat.blockOf block1; rw [hA]; try rfl) t d).trans
    (by unfold Dat.fetched Dat.blockOf block1; rw [hA]; try rfl)

/-- The whole 2000 x 128 tile, the whole 128 x 128 matrix and the whole 1 x 128 row: the body's accesses. -/
abbrev tileRect1 : Rect S2000x128 := Rect.unit (s := S2000x128) ![0, 0] S2000x128.size inb_S2000x128_S2000x128_0_0
abbrev weightRect1 : Rect S128x128 := Rect.unit (s := S128x128) ![0, 0] S128x128.size inb_S128x128_S128x128_0_0
abbrev rowRect1 : Rect S1x128 := Rect.unit (s := S1x128) ![0, 0] S1x128.size inb_S1x128_S1x128_0_0

/-- The output tile after the body, from the input blocks: one store of the whole tile, of the sum of the products plus the bias row. -/
def tile1 (x0 : Vec F S2000x128 .f32) (x1 : Vec F S2000x128 .f32) (x2 : Vec F S128x128 .f32) (x3 : Vec F S128x128 .f32) (x4 : Vec F S1x128 .f32) : Vec F S2000x128 .f32 :=
  View.canon [⟨tileRect1, k1_pay1 (View.ld x0 tileRect1) (View.ld x2 weightRect1) (View.ld x1 tileRect1) (View.ld x3 weightRect1) (View.ld x4 rowRect1)⟩]

/-- That one store covers the tile. -/
theorem tile1_covered (p0 : Vec F S2000x128 .f32) (y : S2000x128.Idx) :
    ∃ pc ∈ ([⟨tileRect1, p0⟩] : List (View.Piece (Elt F) S2000x128 .f32)), y ∈ pc.1.set :=
  View.cover_of_tiled [⟨tileRect1, p0⟩] S2000x128.size (by rfl) y

set_option maxHeartbeats 4000000 in
/-- The body on whole staging buffers, the inputs' at contents `x` and the output's at anything, runs to its end leaving the
    inputs as they were and the output at `tile1` of them. -/
theorem body1_triple (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (tile1 x0 x1 x2 x3 x4)) -∗ K ⟨⟩))
      ⊢ wp frame (wpE (defs₀ (F := F)) Variants.none c none) E (cc1_kernel i arg0 harg0 arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile1_covered _)

/-- The launch's proof data on core `c`: the arrays as the region finds them; after the body at a point each input's buffer
    still at its block and the output's at `tile1` of the blocks; nothing else held, nothing owed. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => block1 V c 3 t
    | ⟨4, _⟩ => block1 V c 4 t
    | ⟨5, _⟩ => tile1 (block1 V c 0 t) (block1 V c 1 t) (block1 V c 2 t) (block1 V c 3 t) (block1 V c 4 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after_0 (c : Dev nD) (t : Fin cfg1.N) : (data1 V c).after 0 t = block1 V c 0 t := by dsimp only [data1]
theorem data1_after_1 (c : Dev nD) (t : Fin cfg1.N) : (data1 V c).after 1 t = block1 V c 1 t := by dsimp only [data1]
theorem data1_after_2 (c : Dev nD) (t : Fin cfg1.N) : (data1 V c).after 2 t = block1 V c 2 t := by dsimp only [data1]
theorem data1_after_3 (c : Dev nD) (t : Fin cfg1.N) : (data1 V c).after 3 t = block1 V c 3 t := by dsimp only [data1]
theorem data1_after_4 (c : Dev nD) (t : Fin cfg1.N) : (data1 V c).after 4 t = block1 V c 4 t := by dsimp only [data1]
theorem data1_after_5 (c : Dev nD) (t : Fin cfg1.N) : (data1 V c).after 5 t = tile1 (block1 V c 0 t) (block1 V c 1 t) (block1 V c 2 t) (block1 V c 3 t) (block1 V c 4 t) := by dsimp only [data1]

theorem data1_before_0 (c : Dev nD) (t : Fin cfg1.N) (d) : (data1 V c).before 0 t d = block1 V c 0 t :=
  held1_0_of V (data1 V c) (data1_A V c 0) (data1_after_0 V c) t d
theorem data1_before_1 (c : Dev nD) (t : Fin cfg1.N) (d) : (data1 V c).before 1 t d = block1 V c 1 t :=
  held1_1_of V (data1 V c) (data1_A V c 1) (data1_after_1 V c) t d
theorem data1_before_2 (c : Dev nD) (t : Fin cfg1.N) (d) : (data1 V c).before 2 t d = block1 V c 2 t :=
  held1_2_of V (data1 V c) (data1_A V c 2) (data1_after_2 V c) t d
theorem data1_before_3 (c : Dev nD) (t : Fin cfg1.N) (d) : (data1 V c).before 3 t d = block1 V c 3 t :=
  held1_3_of V (data1 V c) (data1_A V c 3) (data1_after_3 V c) t d
theorem data1_before_4 (c : Dev nD) (t : Fin cfg1.N) (d) : (data1 V c).before 4 t d = block1 V c 4 t :=
  held1_4_of V (data1 V c) (data1_A V c 4) (data1_after_4 V c) t d

/-- What the body is called with at point `t`, operand by operand, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d)))

/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t))

/-- The body at any point: the inputs' buffers hold their blocks, so the triple applies; the rest passes through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [data1_before_0, data1_before_1, data1_before_2, data1_before_3, data1_before_4]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5]
  iintro ⟨HΦ, Ho, ⟨%d0, H0⟩, ⟨%d1, H1⟩, ⟨%d2, H2⟩, ⟨%d3, H3⟩, ⟨%d4, H4⟩, ⟨%d5, H5⟩⟩
  iapply (body1_triple c Set.univ _ _ _ _ _ _ _ _ _ _ _ _ _ (block1 V c 0 t) (block1 V c 1 t) (block1 V c 2 t) (block1 V c 3 t) (block1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's per-point obligation. -/
theorem body1_obligation (c : Dev nD) : BodyObligation (data1 (F := F) V c) (defs₀ (F := F)) Variants.none () Set.univ := fun t => by
  rw [bigSep_W1, bigSep_W1]
  exact body1_at V c t

end Cert.Kernel.Rgn

end
-- ==== Proof.BitsRegion2.lean ====
/-
  Region 2 of the program: one launch of the linear-sum kernel over blocks of 2000 rows. At a grid point the body reads
  2 blocks of 2000 rows, 2 whole 128 x 128 weight matrices and one bias row, and stores one 2000 x 128 tile: the sum of the
  2 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.Kernel.Launch
import proofs.«139170_j4398046511496_1_alg».proof.Proof.Gen.Kernel.Skeleton
import proofs.«139170_j4398046511496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input operand 0's staging buffer holds its block at every point, whether or not that point fetched it (a block that is
    not fetched again has not moved). -/
theorem held2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- Input operand 1's staging buffer holds its block at every point, whether or not that point fetched it (a block that is
    not fetched again has not moved). -/
theorem held2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-- Input operand 2's staging buffer holds its block at every point, whether or not that point fetched it (a block that is
    not fetched again has not moved). -/
theorem held2_2_of {c : Dev nD} (dat : Dat τ (Elt F) Unit ℕ (UR sig nD τ) ℕ cfg2 c) (hA : dat.A 2 = V c (Pipeline.arrRef spec2 2))
    (hafter : ∀ t, dat.after 2 t = block2 V c 2 t) (t : Fin cfg2.N) (d) : dat.before 2 t d = block2 V c 2 t :=
  (dat.before_in_eq_fetched 2 rfl (fun _ => rfl) (fun _ _ _ => rfl) (fun t => by rw [hafter]; unfold Dat.blockOf block2; rw [hA]; try rfl) t d).trans
    (by unfold Dat.fetched Dat.blockOf block2; rw [hA]; try rfl)

/-- Input operand 3's staging buffer holds its block at every point, whether or not that point fetched it (a block that is
    not fetched again has not moved). -/
theorem held2_3_of {c : Dev nD} (dat : Dat τ (Elt F) Unit ℕ (UR sig nD τ) ℕ cfg2 c) (hA : dat.A 3 = V c (Pipeline.arrRef spec2 3))
    (hafter : ∀ t, dat.after 3 t = block2 V c 3 t) (t : Fin cfg2.N) (d) : dat.before 3 t d = block2 V c 3 t :=
  (dat.before_in_eq_fetched 3 rfl (fun _ => rfl) (fun _ _ _ => rfl) (fun t => by rw [hafter]; unfold Dat.blockOf block2; rw [hA]; try rfl) t d).trans
    (by unfold Dat.fetched Dat.blockOf block2; rw [hA]; try rfl)

/-- Input operand 4's staging buffer holds its block at every point, whether or not that point fetched it (a block that is
    not fetched again has not moved). -/
theorem held2_4_of {c : Dev nD} (dat : Dat τ (Elt F) Unit ℕ (UR sig nD τ) ℕ cfg2 c) (hA : dat.A 4 = V c (Pipeline.arrRef spec2 4))
    (hafter : ∀ t, dat.after 4 t = block2 V c 4 t) (t : Fin cfg2.N) (d) : dat.before 4 t d = block2 V c 4 t :=
  (dat.before_in_eq_fetched 4 rfl (fun _ => rfl) (fun _ _ _ => rfl) (fun t => by rw [hafter]; unfold Dat.blockOf block2; rw [hA]; try rfl) t d).trans
    (by unfold Dat.fetched Dat.blockOf block2; rw [hA]; try rfl)

/-- The whole 2000 x 128 tile, the whole 128 x 128 matrix and the whole 1 x 128 row: the body's accesses. -/
abbrev tileRect2 : Rect S2000x128 := Rect.unit (s := S2000x128) ![0, 0] S2000x128.size inb_S2000x128_S2000x128_0_0
abbrev weightRect2 : Rect S128x128 := Rect.unit (s := S128x128) ![0, 0] S128x128.size inb_S128x128_S128x128_0_0
abbrev rowRect2 : Rect S1x128 := Rect.unit (s := S1x128) ![0, 0] S1x128.size inb_S1x128_S1x128_0_0

/-- The output tile after the body, from the input blocks: one store of the whole tile, of the sum of the products plus the bias row. -/
def tile2 (x0 : Vec F S2000x128 .f32) (x1 : Vec F S2000x128 .f32) (x2 : Vec F S128x128 .f32) (x3 : Vec F S128x128 .f32) (x4 : Vec F S1x128 .f32) : Vec F S2000x128 .f32 :=
  View.canon [⟨tileRect2, k2_pay1 (View.ld x0 tileRect2) (View.ld x2 weightRect2) (View.ld x1 tileRect2) (View.ld x3 weightRect2) (View.ld x4 rowRect2)⟩]

/-- That one store covers the tile. -/
theorem tile2_covered (p0 : Vec F S2000x128 .f32) (y : S2000x128.Idx) :
    ∃ pc ∈ ([⟨tileRect2, p0⟩] : List (View.Piece (Elt F) S2000x128 .f32)), y ∈ pc.1.set :=
  View.cover_of_tiled [⟨tileRect2, p0⟩] S2000x128.size (by rfl) y

set_option maxHeartbeats 4000000 in
/-- The body on whole staging buffers, the inputs' at contents `x` and the output's at anything, runs to its end leaving the
    inputs as they were and the output at `tile2` of them. -/
theorem body2_triple (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (tile2 x0 x1 x2 x3 x4)) -∗ K ⟨⟩))
      ⊢ wp frame (wpE (defs₀ (F := F)) Variants.none c none) E (cc2_kernel i arg0 harg0 arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile2_covered _)

/-- The launch's proof data on core `c`: the arrays as the region finds them; after the body at a point each input's buffer
    still at its block and the output's at `tile2` of the blocks; nothing else held, nothing owed. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => block2 V c 3 t
    | ⟨4, _⟩ => block2 V c 4 t
    | ⟨5, _⟩ => tile2 (block2 V c 0 t) (block2 V c 1 t) (block2 V c 2 t) (block2 V c 3 t) (block2 V c 4 t)
  Φ _ := Pipeline.ΦA spec2 c
  q _ := fullShare
  owed _ := 0

theorem data2_A (c : Dev nD) (w : Fin cfg2.W) : (data2 V c).A w = V c (Pipeline.arrRef spec2 w) := by
  dsimp only [data2]

theorem data2_after_0 (c : Dev nD) (t : Fin cfg2.N) : (data2 V c).after 0 t = block2 V c 0 t := by dsimp only [data2]
theorem data2_after_1 (c : Dev nD) (t : Fin cfg2.N) : (data2 V c).after 1 t = block2 V c 1 t := by dsimp only [data2]
theorem data2_after_2 (c : Dev nD) (t : Fin cfg2.N) : (data2 V c).after 2 t = block2 V c 2 t := by dsimp only [data2]
theorem data2_after_3 (c : Dev nD) (t : Fin cfg2.N) : (data2 V c).after 3 t = block2 V c 3 t := by dsimp only [data2]
theorem data2_after_4 (c : Dev nD) (t : Fin cfg2.N) : (data2 V c).after 4 t = block2 V c 4 t := by dsimp only [data2]
theorem data2_after_5 (c : Dev nD) (t : Fin cfg2.N) : (data2 V c).after 5 t = tile2 (block2 V c 0 t) (block2 V c 1 t) (block2 V c 2 t) (block2 V c 3 t) (block2 V c 4 t) := by dsimp only [data2]

theorem data2_before_0 (c : Dev nD) (t : Fin cfg2.N) (d) : (data2 V c).before 0 t d = block2 V c 0 t :=
  held2_0_of V (data2 V c) (data2_A V c 0) (data2_after_0 V c) t d
theorem data2_before_1 (c : Dev nD) (t : Fin cfg2.N) (d) : (data2 V c).before 1 t d = block2 V c 1 t :=
  held2_1_of V (data2 V c) (data2_A V c 1) (data2_after_1 V c) t d
theorem data2_before_2 (c : Dev nD) (t : Fin cfg2.N) (d) : (data2 V c).before 2 t d = block2 V c 2 t :=
  held2_2_of V (data2 V c) (data2_A V c 2) (data2_after_2 V c) t d
theorem data2_before_3 (c : Dev nD) (t : Fin cfg2.N) (d) : (data2 V c).before 3 t d = block2 V c 3 t :=
  held2_3_of V (data2 V c) (data2_A V c 3) (data2_after_3 V c) t d
theorem data2_before_4 (c : Dev nD) (t : Fin cfg2.N) (d) : (data2 V c).before 4 t d = block2 V c 4 t :=
  held2_4_of V (data2 V c) (data2_A V c 4) (data2_after_4 V c) t d

/-- What the body is called with at point `t`, operand by operand, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t))

/-- The body at any point: the inputs' buffers hold their blocks, so the triple applies; the rest passes through unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [data2_before_0, data2_before_1, data2_before_2, data2_before_3, data2_before_4]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5]
  iintro ⟨HΦ, Ho, ⟨%d0, H0⟩, ⟨%d1, H1⟩, ⟨%d2, H2⟩, ⟨%d3, H3⟩, ⟨%d4, H4⟩, ⟨%d5, H5⟩⟩
  iapply (body2_triple c Set.univ _ _ _ _ _ _ _ _ _ _ _ _ _ (block2 V c 0 t) (block2 V c 1 t) (block2 V c 2 t) (block2 V c 3 t) (block2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's per-point obligation. -/
theorem body2_obligation (c : Dev nD) : BodyObligation (data2 (F := F) V c) (defs₀ (F := F)) Variants.none () Set.univ := fun t => by
  rw [bigSep_W2, bigSep_W2]
  exact body2_at V c t

end Cert.Kernel.Rgn

end
-- ==== Proof.BitsRegion3.lean ====
/-
  Region 3 of the program: one launch of the linear-sum kernel over blocks of 2000 rows. At a grid point the body reads
  4 blocks of 2000 rows, 4 whole 128 x 128 weight matrices and one bias row, and stores one 2000 x 128 tile: the sum of the
  4 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.Kernel.Launch
import proofs.«139170_j4398046511496_1_alg».proof.Proof.Gen.Kernel.Skeleton
import proofs.«139170_j4398046511496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input operand 0's staging buffer holds its block at every point, whether or not that point fetched it (a block that is
    not fetched again has not moved). -/
theorem held3_0_of {c : Dev nD} (dat : Dat τ (Elt F) Unit ℕ (UR sig nD τ) ℕ cfg3 c) (hA : dat.A 0 = V c (Pipeline.arrRef spec3 0))
    (hafter : ∀ t, dat.after 0 t = block3 V c 0 t) (t : Fin cfg3.N) (d) : dat.before 0 t d = block3 V c 0 t :=
  (dat.before_in_eq_fetched 0 rfl (fun _ => rfl) (fun _ _ _ => rfl) (fun t => by rw [hafter]; unfold Dat.blockOf block3; rw [hA]; try rfl) t d).trans
    (by unfold Dat.fetched Dat.blockOf block3; rw [hA]; try rfl)

/-- Input operand 1's staging buffer holds its block at every point, whether or not that point fetched it (a block that is
    not fetched again has not moved). -/
theorem held3_1_of {c : Dev nD} (dat : Dat τ (Elt F) Unit ℕ (UR sig nD τ) ℕ cfg3 c) (hA : dat.A 1 = V c (Pipeline.arrRef spec3 1))
    (hafter : ∀ t, dat.after 1 t = block3 V c 1 t) (t : Fin cfg3.N) (d) : dat.before 1 t d = block3 V c 1 t :=
  (dat.before_in_eq_fetched 1 rfl (fun _ => rfl) (fun _ _ _ => rfl) (fun t => by rw [hafter]; unfold Dat.blockOf block3; rw [hA]; try rfl) t d).trans
    (by unfold Dat.fetched Dat.blockOf block3; rw [hA]; try rfl)

/-- Input operand 2's staging buffer holds its block at every point, whether or not that point fetched it (a block that is
    not fetched again has not moved). -/
theorem held3_2_of {c : Dev nD} (dat : Dat τ (Elt F) Unit ℕ (UR sig nD τ) ℕ cfg3 c) (hA : dat.A 2 = V c (Pipeline.arrRef spec3 2))
    (hafter : ∀ t, dat.after 2 t = block3 V c 2 t) (t : Fin cfg3.N) (d) : dat.before 2 t d = block3 V c 2 t :=
  (dat.before_in_eq_fetched 2 rfl (fun _ => rfl) (fun _ _ _ => rfl) (fun t => by rw [hafter]; unfold Dat.blockOf block3; rw [hA]; try rfl) t d).trans
    (by unfold Dat.fetched Dat.blockOf block3; rw [hA]; try rfl)

/-- Input operand 3's staging buffer holds its block at every point, whether or not that point fetched it (a block that is
    not fetched again has not moved). -/
theorem held3_3_of {c : Dev nD} (dat : Dat τ (Elt F) Unit ℕ (UR sig nD τ) ℕ cfg3 c) (hA : dat.A 3 = V c (Pipeline.arrRef spec3 3))
    (hafter : ∀ t, dat.after 3 t = block3 V c 3 t) (t : Fin cfg3.N) (d) : dat.before 3 t d = block3 V c 3 t :=
  (dat.before_in_eq_fetched 3 rfl (fun _ => rfl) (fun _ _ _ => rfl) (fun t => by rw [hafter]; unfold Dat.blockOf block3; rw [hA]; try rfl) t d).trans
    (by unfold Dat.fetched Dat.blockOf block3; rw [hA]; try rfl)

/-- Input operand 4's staging buffer holds its block at every point, whether or not that point fetched it (a block that is
    not fetched again has not moved). -/
theorem held3_4_of {c : Dev nD} (dat : Dat τ (Elt F) Unit ℕ (UR sig nD τ) ℕ cfg3 c) (hA : dat.A 4 = V c (Pipeline.arrRef spec3 4))
    (hafter : ∀ t, dat.after 4 t = block3 V c 4 t) (t : Fin cfg3.N) (d) : dat.before 4 t d = block3 V c 4 t :=
  (dat.before_in_eq_fetched 4 rfl (fun _ => rfl) (fun _ _ _ => rfl) (fun t => by rw [hafter]; unfold Dat.blockOf block3; rw [hA]; try rfl) t d).trans
    (by unfold Dat.fetched Dat.blockOf block3; rw [hA]; try rfl)

/-- Input operand 5's staging buffer holds its block at every point, whether or not that point fetched it (a block that is
    not fetched again has not moved). -/
theorem held3_5_of {c : Dev nD} (dat : Dat τ (Elt F) Unit ℕ (UR sig nD τ) ℕ cfg3 c) (hA : dat.A 5 = V c (Pipeline.arrRef spec3 5))
    (hafter : ∀ t, dat.after 5 t = block3 V c 5 t) (t : Fin cfg3.N) (d) : dat.before 5 t d = block3 V c 5 t :=
  (dat.before_in_eq_fetched 5 rfl (fun _ => rfl) (fun _ _ _ => rfl) (fun t => by rw [hafter]; unfold Dat.blockOf block3; rw [hA]; try rfl) t d).trans
    (by unfold Dat.fetched Dat.blockOf block3; rw [hA]; try rfl)

/-- Input operand 6's staging buffer holds its block at every point, whether or not that point fetched it (a block that is
    not fetched again has not moved). -/
theorem held3_6_of {c : Dev nD} (dat : Dat τ (Elt F) Unit ℕ (UR sig nD τ) ℕ cfg3 c) (hA : dat.A 6 = V c (Pipeline.arrRef spec3 6))
    (hafter : ∀ t, dat.after 6 t = block3 V c 6 t) (t : Fin cfg3.N) (d) : dat.before 6 t d = block3 V c 6 t :=
  (dat.before_in_eq_fetched 6 rfl (fun _ => rfl) (fun _ _ _ => rfl) (fun t => by rw [hafter]; unfold Dat.blockOf block3; rw [hA]; try rfl) t d).trans
    (by unfold Dat.fetched Dat.blockOf block3; rw [hA]; try rfl)

/-- Input operand 7's staging buffer holds its block at every point, whether or not that point fetched it (a block that is
    not fetched again has not moved). -/
theorem held3_7_of {c : Dev nD} (dat : Dat τ (Elt F) Unit ℕ (UR sig nD τ) ℕ cfg3 c) (hA : dat.A 7 = V c (Pipeline.arrRef spec3 7))
    (hafter : ∀ t, dat.after 7 t = block3 V c 7 t) (t : Fin cfg3.N) (d) : dat.before 7 t d = block3 V c 7 t :=
  (dat.before_in_eq_fetched 7 rfl (fun _ => rfl) (fun _ _ _ => rfl) (fun t => by rw [hafter]; unfold Dat.blockOf block3; rw [hA]; try rfl) t d).trans
    (by unfold Dat.fetched Dat.blockOf block3; rw [hA]; try rfl)

/-- Input operand 8's staging buffer holds its block at every point, whether or not that point fetched it (a block that is
    not fetched again has not moved). -/
theorem held3_8_of {c : Dev nD} (dat : Dat τ (Elt F) Unit ℕ (UR sig nD τ) ℕ cfg3 c) (hA : dat.A 8 = V c (Pipeline.arrRef spec3 8))
    (hafter : ∀ t, dat.after 8 t = block3 V c 8 t) (t : Fin cfg3.N) (d) : dat.before 8 t d = block3 V c 8 t :=
  (dat.before_in_eq_fetched 8 rfl (fun _ => rfl) (fun _ _ _ => rfl) (fun t => by rw [hafter]; unfold Dat.blockOf block3; rw [hA]; try rfl) t d).trans
    (by unfold Dat.fetched Dat.blockOf block3; rw [hA]; try rfl)

/-- The whole 2000 x 128 tile, the whole 128 x 128 matrix and the whole 1 x 128 row: the body's accesses. -/
abbrev tileRect3 : Rect S2000x128 := Rect.unit (s := S2000x128) ![0, 0] S2000x128.size inb_S2000x128_S2000x128_0_0
abbrev weightRect3 : Rect S128x128 := Rect.unit (s := S128x128) ![0, 0] S128x128.size inb_S128x128_S128x128_0_0
abbrev rowRect3 : Rect S1x128 := Rect.unit (s := S1x128) ![0, 0] S1x128.size inb_S1x128_S1x128_0_0

/-- The output tile after the body, from the input blocks: one store of the whole tile, of the sum of the products plus the bias row. -/
def tile3 (x0 : Vec F S2000x128 .f32) (x1 : Vec F S2000x128 .f32) (x2 : Vec F S2000x128 .f32) (x3 : Vec F S2000x128 .f32) (x4 : Vec F S128x128 .f32) (x5 : Vec F S128x128 .f32) (x6 : Vec F S128x128 .f32) (x7 : Vec F S128x128 .f32) (x8 : Vec F S1x128 .f32) : Vec F S2000x128 .f32 :=
  View.canon [⟨tileRect3, k3_pay1 (View.ld x0 tileRect3) (View.ld x4 weightRect3) (View.ld x1 tileRect3) (View.ld x5 weightRect3) (View.ld x2 tileRect3) (View.ld x6 weightRect3) (View.ld x3 tileRect3) (View.ld x7 weightRect3) (View.ld x8 rowRect3)⟩]

/-- That one store covers the tile. -/
theorem tile3_covered (p0 : Vec F S2000x128 .f32) (y : S2000x128.Idx) :
    ∃ pc ∈ ([⟨tileRect3, p0⟩] : List (View.Piece (Elt F) S2000x128 .f32)), y ∈ pc.1.set :=
  View.cover_of_tiled [⟨tileRect3, p0⟩] S2000x128.size (by rfl) y

set_option maxHeartbeats 4000000 in
/-- The body on whole staging buffers, the inputs' at contents `x` and the output's at anything, runs to its end leaving the
    inputs as they were and the output at `tile3` of them. -/
theorem body3_triple (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S2000x128 .f32) (x3 : Vec F S2000x128 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (tile3 x0 x1 x2 x3 x4 x5 x6 x7 x8)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8 arg9 harg9) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (tile3_covered _)

/-- The launch's proof data on core `c`: the arrays as the region finds them; after the body at a point each input's buffer
    still at its block and the output's at `tile3` of the blocks; nothing else held, nothing owed. -/
def data3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => block3 V c 3 t
    | ⟨4, _⟩ => block3 V c 4 t
    | ⟨5, _⟩ => block3 V c 5 t
    | ⟨6, _⟩ => block3 V c 6 t
    | ⟨7, _⟩ => block3 V c 7 t
    | ⟨8, _⟩ => block3 V c 8 t
    | ⟨9, _⟩ => tile3 (block3 V c 0 t) (block3 V c 1 t) (block3 V c 2 t) (block3 V c 3 t) (block3 V c 4 t) (block3 V c 5 t) (block3 V c 6 t) (block3 V c 7 t) (block3 V c 8 t)
  Φ _ := Pipeline.ΦA spec3 c
  q _ := fullShare
  owed _ := 0

theorem data3_A (c : Dev nD) (w : Fin cfg3.W) : (data3 V c).A w = V c (Pipeline.arrRef spec3 w) := by
  dsimp only [data3]

theorem data3_after_0 (c : Dev nD) (t : Fin cfg3.N) : (data3 V c).after 0 t = block3 V c 0 t := by dsimp only [data3]
theorem data3_after_1 (c : Dev nD) (t : Fin cfg3.N) : (data3 V c).after 1 t = block3 V c 1 t := by dsimp only [data3]
theorem data3_after_2 (c : Dev nD) (t : Fin cfg3.N) : (data3 V c).after 2 t = block3 V c 2 t := by dsimp only [data3]
theorem data3_after_3 (c : Dev nD) (t : Fin cfg3.N) : (data3 V c).after 3 t = block3 V c 3 t := by dsimp only [data3]
theorem data3_after_4 (c : Dev nD) (t : Fin cfg3.N) : (data3 V c).after 4 t = block3 V c 4 t := by dsimp only [data3]
theorem data3_after_5 (c : Dev nD) (t : Fin cfg3.N) : (data3 V c).after 5 t = block3 V c 5 t := by dsimp only [data3]
theorem data3_after_6 (c : Dev nD) (t : Fin cfg3.N) : (data3 V c).after 6 t = block3 V c 6 t := by dsimp only [data3]
theorem data3_after_7 (c : Dev nD) (t : Fin cfg3.N) : (data3 V c).after 7 t = block3 V c 7 t := by dsimp only [data3]
theorem data3_after_8 (c : Dev nD) (t : Fin cfg3.N) : (data3 V c).after 8 t = block3 V c 8 t := by dsimp only [data3]
theorem data3_after_9 (c : Dev nD) (t : Fin cfg3.N) : (data3 V c).after 9 t = tile3 (block3 V c 0 t) (block3 V c 1 t) (block3 V c 2 t) (block3 V c 3 t) (block3 V c 4 t) (block3 V c 5 t) (block3 V c 6 t) (block3 V c 7 t) (block3 V c 8 t) := by dsimp only [data3]

theorem data3_before_0 (c : Dev nD) (t : Fin cfg3.N) (d) : (data3 V c).before 0 t d = block3 V c 0 t :=
  held3_0_of V (data3 V c) (data3_A V c 0) (data3_after_0 V c) t d
theorem data3_before_1 (c : Dev nD) (t : Fin cfg3.N) (d) : (data3 V c).before 1 t d = block3 V c 1 t :=
  held3_1_of V (data3 V c) (data3_A V c 1) (data3_after_1 V c) t d
theorem data3_before_2 (c : Dev nD) (t : Fin cfg3.N) (d) : (data3 V c).before 2 t d = block3 V c 2 t :=
  held3_2_of V (data3 V c) (data3_A V c 2) (data3_after_2 V c) t d
theorem data3_before_3 (c : Dev nD) (t : Fin cfg3.N) (d) : (data3 V c).before 3 t d = block3 V c 3 t :=
  held3_3_of V (data3 V c) (data3_A V c 3) (data3_after_3 V c) t d
theorem data3_before_4 (c : Dev nD) (t : Fin cfg3.N) (d) : (data3 V c).before 4 t d = block3 V c 4 t :=
  held3_4_of V (data3 V c) (data3_A V c 4) (data3_after_4 V c) t d
theorem data3_before_5 (c : Dev nD) (t : Fin cfg3.N) (d) : (data3 V c).before 5 t d = block3 V c 5 t :=
  held3_5_of V (data3 V c) (data3_A V c 5) (data3_after_5 V c) t d
theorem data3_before_6 (c : Dev nD) (t : Fin cfg3.N) (d) : (data3 V c).before 6 t d = block3 V c 6 t :=
  held3_6_of V (data3 V c) (data3_A V c 6) (data3_after_6 V c) t d
theorem data3_before_7 (c : Dev nD) (t : Fin cfg3.N) (d) : (data3 V c).before 7 t d = block3 V c 7 t :=
  held3_7_of V (data3 V c) (data3_A V c 7) (data3_after_7 V c) t d
theorem data3_before_8 (c : Dev nD) (t : Fin cfg3.N) (d) : (data3 V c).before 8 t d = block3 V c 8 t :=
  held3_8_of V (data3 V c) (data3_A V c 8) (data3_after_8 V c) t d

/-- What the body is called with at point `t`, operand by operand, -/
def pre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d))
    ∗ (∃ d, owns (c : Thread nD τ) (st3_6 t) fullShare ((data3 V c).before 6 t d))
    ∗ (∃ d, owns (c : Thread nD τ) (st3_7 t) fullShare ((data3 V c).before 7 t d))
    ∗ (∃ d, owns (c : Thread nD τ) (st3_8 t) fullShare ((data3 V c).before 8 t d))
    ∗ (∃ d, owns (c : Thread nD τ) (st3_9 t) fullShare ((data3 V c).before 9 t d)))

/-- and what it returns. -/
def post3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t)
    ∗ owns (c : Thread nD τ) (st3_6 t) fullShare ((data3 V c).after 6 t)
    ∗ owns (c : Thread nD τ) (st3_7 t) fullShare ((data3 V c).after 7 t)
    ∗ owns (c : Thread nD τ) (st3_8 t) fullShare ((data3 V c).after 8 t)
    ∗ owns (c : Thread nD τ) (st3_9 t) fullShare ((data3 V c).after 9 t))

/-- The body at any point: the inputs' buffers hold their blocks, so the triple applies; the rest passes through unread. -/
theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [data3_before_0, data3_before_1, data3_before_2, data3_before_3, data3_before_4, data3_before_5, data3_before_6, data3_before_7, data3_before_8]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5, data3_after_6, data3_after_7, data3_after_8, data3_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body3_triple c Set.univ _ _ _ _ _ _ _ _ _ _ _ _ _ _ _ _ _ _ _ _ _ (block3 V c 0 t) (block3 V c 1 t) (block3 V c 2 t) (block3 V c 3 t) (block3 V c 4 t) (block3 V c 5 t) (block3 V c 6 t) (block3 V c 7 t) (block3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's per-point obligation. -/
theorem body3_obligation (c : Dev nD) : BodyObligation (data3 (F := F) V c) (defs₀ (F := F)) Variants.none () Set.univ := fun t => by
  rw [bigSep_W3, bigSep_W3]
  exact body3_at V c t

end Cert.Kernel.Rgn

end
-- ==== Proof.BitsRun.lean ====
/-
  The whole program as a run of segments: stretches of host operations and the four kernel launches, in the program's order.
  The device's buffer contents are followed from the launch through every segment boundary (`at0` … `at11`): a host stretch
  applies its operations; a launch leaves its input arrays as they were and its output array at what the grid's write-backs
  leave. The run ends with every buffer at `at11`; the argument arrays are then read back to their launch contents.
-/
import proofs.«139170_j4398046511496_1_alg».proof.Proof.BitsRegion0
import proofs.«139170_j4398046511496_1_alg».proof.Proof.BitsRegion1
import proofs.«139170_j4398046511496_1_alg».proof.Proof.BitsRegion2
import proofs.«139170_j4398046511496_1_alg».proof.Proof.BitsRegion3

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At the launch. -/
abbrev at0 : Dev nD → Valuation τ sig (Elt F) := fun c b => (s₀ m ρ).mem ((c : Dev nD), b)
/-- After the host stretch `main_part0_ops0`. -/
abbrev at1 : Dev nD → Valuation τ sig (Elt F) := fun c => StableHlo.after main_part0_ops0 (at0 m ρ c)
/-- After the host stretch `main_part1_ops0`. -/
abbrev at2 : Dev nD → Valuation τ sig (Elt F) := fun c => StableHlo.after main_part1_ops0 (at1 m ρ c)
/-- After the host stretch `main_part2_ops0`. -/
abbrev at3 : Dev nD → Valuation τ sig (Elt F) := fun c => StableHlo.after main_part2_ops0 (at2 m ρ c)
/-- The same, read at the TensorCore's references: what launch 0 finds. -/
abbrev entry0 : (c : Dev nD) → (b : Ref sig .tc) → Buf (Elt F) ((c : Thread nD τ).loc b) := fun c b => at3 m ρ c b
/-- After launch 0: its arrays at what the pipeline leaves, every other buffer as before. -/
def at4 (c : Dev nD) : Valuation τ sig (Elt F) :=
  Pipeline.withArrays spec0 c (at3 m ρ c) fun w => (data0 (entry0 m ρ) c).arrAt w cfg0.N
theorem at4_arr (c : Dev nD) (w : Fin cfg0.W) :
    at4 m ρ c (Proc.devRef .tc (Pipeline.arrRef spec0 w)) = (data0 (entry0 m ρ) c).arrAt w cfg0.N := by
  unfold at4; exact Pipeline.withArrays_arr spec0 launch0.win.arr_inj c _ _ w
theorem at4_of_ne (c : Dev nD) (b : Ref sig .tc) (hb : ∀ w, Pipeline.arrRef spec0 w ≠ b) :
    at4 m ρ c (Proc.devRef .tc b) = at3 m ρ c (Proc.devRef .tc b) := by
  unfold at4; exact Pipeline.withArrays_of_ne spec0 c _ _ b hb
abbrev exit0 : (c : Dev nD) → (b : Ref sig .tc) → Buf (Elt F) ((c : Thread nD τ).loc b) := fun c b => at4 m ρ c b
theorem left0 (c : Dev nD) (w : Fin cfg0.W) : (data0 (entry0 m ρ) c).arrAt w cfg0.N = exit0 m ρ c (Pipeline.arrRef spec0 w) :=
  (at4_arr m ρ c w).symm
theorem kept0 (c : Dev nD) : ∀ b, b ∉ Finset.univ.image (Pipeline.arrRef spec0) → exit0 m ρ c b = entry0 m ρ c b :=
  fun b hb => at4_of_ne m ρ c b fun w e => hb (Finset.mem_image.mpr ⟨w, Finset.mem_univ _, e⟩)
/-- After the host stretch `main_part2_ops1`. -/
abbrev at5 : Dev nD → Valuation τ sig (Elt F) := fun c => StableHlo.after main_part2_ops1 (at4 m ρ c)
/-- The same, read at the TensorCore's references: what launch 1 finds. -/
abbrev entry1 : (c : Dev nD) → (b : Ref sig .tc) → Buf (Elt F) ((c : Thread nD τ).loc b) := fun c b => at5 m ρ c b
/-- After launch 1: its arrays at what the pipeline leaves, every other buffer as before. -/
def at6 (c : Dev nD) : Valuation τ sig (Elt F) :=
  Pipeline.withArrays spec1 c (at5 m ρ c) fun w => (data1 (entry1 m ρ) c).arrAt w cfg1.N
theorem at6_arr (c : Dev nD) (w : Fin cfg1.W) :
    at6 m ρ c (Proc.devRef .tc (Pipeline.arrRef spec1 w)) = (data1 (entry1 m ρ) c).arrAt w cfg1.N := by
  unfold at6; exact Pipeline.withArrays_arr spec1 launch1.win.arr_inj c _ _ w
theorem at6_of_ne (c : Dev nD) (b : Ref sig .tc) (hb : ∀ w, Pipeline.arrRef spec1 w ≠ b) :
    at6 m ρ c (Proc.devRef .tc b) = at5 m ρ c (Proc.devRef .tc b) := by
  unfold at6; exact Pipeline.withArrays_of_ne spec1 c _ _ b hb
abbrev exit1 : (c : Dev nD) → (b : Ref sig .tc) → Buf (Elt F) ((c : Thread nD τ).loc b) := fun c b => at6 m ρ c b
theorem left1 (c : Dev nD) (w : Fin cfg1.W) : (data1 (entry1 m ρ) c).arrAt w cfg1.N = exit1 m ρ c (Pipeline.arrRef spec1 w) :=
  (at6_arr m ρ c w).symm
theorem kept1 (c : Dev nD) : ∀ b, b ∉ Finset.univ.image (Pipeline.arrRef spec1) → exit1 m ρ c b = entry1 m ρ c b :=
  fun b hb => at6_of_ne m ρ c b fun w e => hb (Finset.mem_image.mpr ⟨w, Finset.mem_univ _, e⟩)
/-- After the host stretch `main_part2_ops2`. -/
abbrev at7 : Dev nD → Valuation τ sig (Elt F) := fun c => StableHlo.after main_part2_ops2 (at6 m ρ c)
/-- The same, read at the TensorCore's references: what launch 2 finds. -/
abbrev entry2 : (c : Dev nD) → (b : Ref sig .tc) → Buf (Elt F) ((c : Thread nD τ).loc b) := fun c b => at7 m ρ c b
/-- After launch 2: its arrays at what the pipeline leaves, every other buffer as before. -/
def at8 (c : Dev nD) : Valuation τ sig (Elt F) :=
  Pipeline.withArrays spec2 c (at7 m ρ c) fun w => (data2 (entry2 m ρ) c).arrAt w cfg2.N
theorem at8_arr (c : Dev nD) (w : Fin cfg2.W) :
    at8 m ρ c (Proc.devRef .tc (Pipeline.arrRef spec2 w)) = (data2 (entry2 m ρ) c).arrAt w cfg2.N := by
  unfold at8; exact Pipeline.withArrays_arr spec2 launch2.win.arr_inj c _ _ w
theorem at8_of_ne (c : Dev nD) (b : Ref sig .tc) (hb : ∀ w, Pipeline.arrRef spec2 w ≠ b) :
    at8 m ρ c (Proc.devRef .tc b) = at7 m ρ c (Proc.devRef .tc b) := by
  unfold at8; exact Pipeline.withArrays_of_ne spec2 c _ _ b hb
abbrev exit2 : (c : Dev nD) → (b : Ref sig .tc) → Buf (Elt F) ((c : Thread nD τ).loc b) := fun c b => at8 m ρ c b
theorem left2 (c : Dev nD) (w : Fin cfg2.W) : (data2 (entry2 m ρ) c).arrAt w cfg2.N = exit2 m ρ c (Pipeline.arrRef spec2 w) :=
  (at8_arr m ρ c w).symm
theorem kept2 (c : Dev nD) : ∀ b, b ∉ Finset.univ.image (Pipeline.arrRef spec2) → exit2 m ρ c b = entry2 m ρ c b :=
  fun b hb => at8_of_ne m ρ c b fun w e => hb (Finset.mem_image.mpr ⟨w, Finset.mem_univ _, e⟩)
/-- After the host stretch `main_part3_ops0`. -/
abbrev at9 : Dev nD → Valuation τ sig (Elt F) := fun c => StableHlo.after main_part3_ops0 (at8 m ρ c)
/-- The same, read at the TensorCore's references: what launch 3 finds. -/
abbrev entry3 : (c : Dev nD) → (b : Ref sig .tc) → Buf (Elt F) ((c : Thread nD τ).loc b) := fun c b => at9 m ρ c b
/-- After launch 3: its arrays at what the pipeline leaves, every other buffer as before. -/
def at10 (c : Dev nD) : Valuation τ sig (Elt F) :=
  Pipeline.withArrays spec3 c (at9 m ρ c) fun w => (data3 (entry3 m ρ) c).arrAt w cfg3.N
theorem at10_arr (c : Dev nD) (w : Fin cfg3.W) :
    at10 m ρ c (Proc.devRef .tc (Pipeline.arrRef spec3 w)) = (data3 (entry3 m ρ) c).arrAt w cfg3.N := by
  unfold at10; exact Pipeline.withArrays_arr spec3 launch3.win.arr_inj c _ _ w
theorem at10_of_ne (c : Dev nD) (b : Ref sig .tc) (hb : ∀ w, Pipeline.arrRef spec3 w ≠ b) :
    at10 m ρ c (Proc.devRef .tc b) = at9 m ρ c (Proc.devRef .tc b) := by
  unfold at10; exact Pipeline.withArrays_of_ne spec3 c _ _ b hb
abbrev exit3 : (c : Dev nD) → (b : Ref sig .tc) → Buf (Elt F) ((c : Thread nD τ).loc b) := fun c b => at10 m ρ c b
theorem left3 (c : Dev nD) (w : Fin cfg3.W) : (data3 (entry3 m ρ) c).arrAt w cfg3.N = exit3 m ρ c (Pipeline.arrRef spec3 w) :=
  (at10_arr m ρ c w).symm
theorem kept3 (c : Dev nD) : ∀ b, b ∉ Finset.univ.image (Pipeline.arrRef spec3) → exit3 m ρ c b = entry3 m ρ c b :=
  fun b hb => at10_of_ne m ρ c b fun w e => hb (Finset.mem_image.mpr ⟨w, Finset.mem_univ _, e⟩)
/-- After the host stretch `main_part3_ops1`. -/
abbrev at11 : Dev nD → Valuation τ sig (Elt F) := fun c => StableHlo.after main_part3_ops1 (at10 m ρ c)

/-! ## The proof data of the four launches, and what rides beside the buffers -/

abbrev adm : (p : Fin 4) → (pcfgs (F := F) p).Adm := fun p => (cfgs p).toPCfg_adm
/-- Every launch's proof data at its entry contents. -/
def pdats : (p : Fin 4) → (c : Dev nD) → Dat τ (Elt F) Unit ℕ (UR sig nD τ) ℕ (Pipeline.pin (pcfgs (F := F)) adm p) c
  | ⟨0, _⟩ => fun c => data0 (entry0 m ρ) c
  | ⟨1, _⟩ => fun c => data1 (entry1 m ρ) c
  | ⟨2, _⟩ => fun c => data2 (entry2 m ρ) c
  | ⟨3, _⟩ => fun c => data3 (entry3 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A host stretch as a segment over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0: entered with every unscoped buffer at `at3`, left with them at `at4`. Its arrays are split out of the
    unscoped buffers and put back at the exit contents; the generator register goes into the launch's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (entry0 m ρ) c).loose
  hwaits := Pipeline.hwaits_of_owed_zero _ _ _ _ L lv 0 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (exit0 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered with every unscoped buffer at `at5`, left with them at `at6`. Its arrays are split out of the
    unscoped buffers and put back at the exit contents; the generator register goes into the launch's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (entry1 m ρ) c).loose
  hwaits := Pipeline.hwaits_of_owed_zero _ _ _ _ L lv 1 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered with every unscoped buffer at `at7`, left with them at `at8`. Its arrays are split out of the
    unscoped buffers and put back at the exit contents; the generator register goes into the launch's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (entry2 m ρ) c).loose
  hwaits := Pipeline.hwaits_of_owed_zero _ _ _ _ L lv 2 fun _ _ => rfl
  pre c := iprop(StableHlo.held (c : Thread nD τ) (Pipeline.ucRefs τ sig) (at7 m ρ c) ∗ R c)
  post c := iprop(StableHlo.held (c : Thread nD τ) (Pipeline.ucRefs τ sig) (at8 m ρ c) ∗ R c)
  X c := iprop(∃ r, prngReg c r)
  Y c := iprop(∃ r, prngReg c r)
  Z c := Pipeline.unscopedRest (Ix := Unit) (Name := ℕ) (U := UR sig nD τ) (Lvl := ℕ) spec2 c (entry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (entry2 m ρ c) (exit2 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered with every unscoped buffer at `at9`, left with them at `at10`. Its arrays are split out of the
    unscoped buffers and put back at the exit contents; the generator register goes into the launch's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body3_obligation (entry3 m ρ) c).loose
  hwaits := Pipeline.hwaits_of_owed_zero _ _ _ _ L lv 3 fun _ _ => rfl
  pre c := iprop(StableHlo.held (c : Thread nD τ) (Pipeline.ucRefs τ sig) (at9 m ρ c) ∗ R c)
  post c := iprop(StableHlo.held (c : Thread nD τ) (Pipeline.ucRefs τ sig) (at10 m ρ c) ∗ R c)
  X c := iprop(∃ r, prngReg c r)
  Y c := iprop(∃ r, prngReg c r)
  Z c := Pipeline.unscopedRest (Ix := Unit) (Name := ℕ) (U := UR sig nD τ) (Lvl := ℕ) spec3 c (entry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (entry3 m ρ c) (exit3 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg main_part0_ops0 main_part0_ops0_sub main_part0_ops0_fresh (at0 m ρ)),
    .host (hseg main_part1_ops0 main_part1_ops0_sub main_part1_ops0_fresh (at1 m ρ)),
    .host (hseg main_part2_ops0 main_part2_ops0_sub main_part2_ops0_fresh (at2 m ρ)),
    .region (reg0 m ρ),
    .host (hseg main_part2_ops1 main_part2_ops1_sub main_part2_ops1_fresh (at4 m ρ)),
    .region (reg1 m ρ),
    .host (hseg main_part2_ops2 main_part2_ops2_sub main_part2_ops2_fresh (at6 m ρ)),
    .region (reg2 m ρ),
    .host (hseg main_part3_ops0 main_part3_ops0_sub main_part3_ops0_fresh (at8 m ρ)),
    .region (reg3 m ρ),
    .host (hseg main_part3_ops1 main_part3_ops1_sub main_part3_ops1_fresh (at10 m ρ)) ]

theorem main_run (c : Dev nD) : main (F := F) c = Pipeline.Seg.run (segs m ρ) := (main_chain_windows c).trans (by chain_rfl)

/-- The last thread state without what the core owes: every unscoped buffer at `at11`, the generator register at some state. -/
abbrev Tlast (c : Dev nD) : sProp 𝕄 := iprop(StableHlo.held (c : Thread nD τ) (Pipeline.ucRefs τ sig) (at11 m ρ c) ∗ ∃ r, prngReg c r)

set_option backward.isDefEq.respectTransparency.types false in
/-- From any memory with zero counters, every weakly fair execution of the program terminates, nothing faulting, and in every
    final state each unscoped buffer holds its contents at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tlast m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (at11 m ρ c) ∗ R c)
          ⊢ iprop(Tlast m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at11 m ρ c b)
    (hfin := fun c s' => by
      iintro ⟨⟨Hh, -⟩, HSI⟩
      unfold StableHlo.held
      imodintro
      iapply (pointsTo_read_all (Pipeline.ucRefs τ sig) (fun b => (((c : Thread nD τ)).1, b)) (at11 m ρ c) s')
      isplitl [Hh] <;> iassumption)
    (hQ := fun s h => h)

end Cert.Kernel.Rgn

end
-- ==== Proof.BitsArgs.lean ====
/-
  No segment changes an argument array. A host stretch changes only the buffers its operations write (listed here, stretch by
  stretch); a launch changes only its output array. So each argument's buffer at the last boundary is read back, boundary by
  boundary, to the launch memory: the frame.
-/
import proofs.«139170_j4398046511496_1_alg».proof.Proof.BitsRun

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

abbrev s0_written : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_c_4, main_v19, main_v20, main_c_5, main_v21, main_v22, main_v23, main_v24, main_v25, main_cst_6, main_v26, main_v27, main_v28, main_cst_7, main_v29, main_cst_8, main_v30, main_v31, main_v32, main_cst_9, main_v33, main_v34, main_v35, main_v36, main_v37, main_c_10, main_v38, main_v39, main_c_11, main_v40, main_v41, main_v42, main_v43, main_v44, main_cst_12]
set_option maxRecDepth 8192 in
set_option maxHeartbeats 4000000 in
theorem s0_writes : (main_part0_ops0 : List (HloOp τ sig (Elt F))).Forall fun op => op.writes ⊆ (s0_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at1_keep (c : Dev nD) (r : Ref sig .tc) (h : r ∉ s0_written) :
    at1 m ρ c (Proc.devRef .tc r) = at0 m ρ c (Proc.devRef .tc r) :=
  StableHlo.after_of_writes_sub main_part0_ops0 _ s0_writes h

abbrev s1_written : List (Ref sig .tc) := [main_v45, main_v46, main_v47, main_cst_13, main_v48, main_cst_14, main_v49, main_v50, main_v51, main_cst_15, main_v52, main_v53, main_v54, main_v55, main_v56, main_c_16, main_v57, main_v58, main_c_17, main_v59, main_v60, main_v61, main_v62, main_v63, main_cst_18, main_v64, main_v65, main_v66, main_cst_19, main_v67, main_cst_20, main_v68, main_v69, main_v70, main_cst_21, main_v71, main_v72, main_v73, main_v74, main_v75, main_c_22, main_v76, main_v77, main_c_23, main_v78, main_v79, main_v80, main_v81, main_v82, main_cst_24, main_v83, main_v84, main_v85, main_cst_25, main_v86, main_cst_26, main_v87, main_v88, main_v89, main_cst_27]
set_option maxRecDepth 8192 in
set_option maxHeartbeats 4000000 in
theorem s1_writes : (main_part1_ops0 : List (HloOp τ sig (Elt F))).Forall fun op => op.writes ⊆ (s1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at2_keep (c : Dev nD) (r : Ref sig .tc) (h : r ∉ s1_written) :
    at2 m ρ c (Proc.devRef .tc r) = at1 m ρ c (Proc.devRef .tc r) :=
  StableHlo.after_of_writes_sub main_part1_ops0 _ s1_writes h

abbrev s2_written : List (Ref sig .tc) := [main_v90, main_v91, main_v92, main_v93, main_v94, main_c_28, main_v95, main_v96, main_c_29, main_v97, main_v98, main_v99, main_v100, main_v101, main_cst_30, main_v102, main_v103, main_v104, main_cst_31, main_v105, main_cst_32, main_v106, main_v107, main_v108, main_cst_33, main_v109, main_v110, main_v111, main_v112, main_v113, main_c_34, main_v114, main_v115, main_c_35, main_v116, main_v117, main_v118, main_v119, main_v120, main_cst_36, main_v121, main_v122, main_v123, main_cst_37, main_v124, main_cst_38, main_v125, main_v126, main_v127, main_cst_39, main_v128, main_v129, main_v130, main_v131, main_v132, main_v133]
set_option maxRecDepth 8192 in
set_option maxHeartbeats 4000000 in
theorem s2_writes : (main_part2_ops0 : List (HloOp τ sig (Elt F))).Forall fun op => op.writes ⊆ (s2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at3_keep (c : Dev nD) (r : Ref sig .tc) (h : r ∉ s2_written) :
    at3 m ρ c (Proc.devRef .tc r) = at2 m ρ c (Proc.devRef .tc r) :=
  StableHlo.after_of_writes_sub main_part2_ops0 _ s2_writes h

abbrev s3_written : List (Ref sig .tc) := [main_v135]
set_option maxRecDepth 8192 in
set_option maxHeartbeats 4000000 in
theorem s3_writes : (main_part2_ops1 : List (HloOp τ sig (Elt F))).Forall fun op => op.writes ⊆ (s3_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at5_keep (c : Dev nD) (r : Ref sig .tc) (h : r ∉ s3_written) :
    at5 m ρ c (Proc.devRef .tc r) = at4 m ρ c (Proc.devRef .tc r) :=
  StableHlo.after_of_writes_sub main_part2_ops1 _ s3_writes h

abbrev s4_written : List (Ref sig .tc) := [main_v137]
set_option maxRecDepth 8192 in
set_option maxHeartbeats 4000000 in
theorem s4_writes : (main_part2_ops2 : List (HloOp τ sig (Elt F))).Forall fun op => op.writes ⊆ (s4_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at7_keep (c : Dev nD) (r : Ref sig .tc) (h : r ∉ s4_written) :
    at7 m ρ c (Proc.devRef .tc r) = at6 m ρ c (Proc.devRef .tc r) :=
  StableHlo.after_of_writes_sub main_part2_ops2 _ s4_writes h

abbrev s5_written : List (Ref sig .tc) := [main_v139]
set_option maxRecDepth 8192 in
set_option maxHeartbeats 4000000 in
theorem s5_writes : (main_part3_ops0 : List (HloOp τ sig (Elt F))).Forall fun op => op.writes ⊆ (s5_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at9_keep (c : Dev nD) (r : Ref sig .tc) (h : r ∉ s5_written) :
    at9 m ρ c (Proc.devRef .tc r) = at8 m ρ c (Proc.devRef .tc r) :=
  StableHlo.after_of_writes_sub main_part3_ops0 _ s5_writes h

abbrev s6_written : List (Ref sig .tc) := [main_v141]
set_option maxRecDepth 8192 in
set_option maxHeartbeats 4000000 in
theorem s6_writes : (main_part3_ops1 : List (HloOp τ sig (Elt F))).Forall fun op => op.writes ⊆ (s6_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at11_keep (c : Dev nD) (r : Ref sig .tc) (h : r ∉ s6_written) :
    at11 m ρ c (Proc.devRef .tc r) = at10 m ρ c (Proc.devRef .tc r) :=
  StableHlo.after_of_writes_sub main_part3_ops1 _ s6_writes h

/-! ## What each launch changes: its output array only -/

/-- Launch 0 leaves every buffer but its output array `main_v134` as it found it: an input array is put back as read, a
    buffer that is no operand is untouched. -/
theorem at4_keep (c : Dev nD) (b : Ref sig .tc) (hb : b ≠ main_v134) :
    at4 m ρ c (Proc.devRef .tc b) = at3 m ρ c (Proc.devRef .tc b) := by
  by_cases h : ∃ w, Pipeline.arrRef spec0 w = b
  · obtain ⟨w, rfl⟩ := h
    match w with
    | ⟨0, _⟩ => exact (at4_arr m ρ c 0).trans (((data0 (entry0 m ρ) c).arrAt_in 0 rfl _).trans (data0_A (entry0 m ρ) c 0))
    | ⟨1, _⟩ => exact (at4_arr m ρ c 1).trans (((data0 (entry0 m ρ) c).arrAt_in 1 rfl _).trans (data0_A (entry0 m ρ) c 1))
    | ⟨2, _⟩ => exact (at4_arr m ρ c 2).trans (((data0 (entry0 m ρ) c).arrAt_in 2 rfl _).trans (data0_A (entry0 m ρ) c 2))
    | ⟨3, _⟩ => exact (at4_arr m ρ c 3).trans (((data0 (entry0 m ρ) c).arrAt_in 3 rfl _).trans (data0_A (entry0 m ρ) c 3))
    | ⟨4, _⟩ => exact (at4_arr m ρ c 4).trans (((data0 (entry0 m ρ) c).arrAt_in 4 rfl _).trans (data0_A (entry0 m ρ) c 4))
    | ⟨5, _⟩ => exact (at4_arr m ρ c 5).trans (((data0 (entry0 m ρ) c).arrAt_in 5 rfl _).trans (data0_A (entry0 m ρ) c 5))
    | ⟨6, _⟩ => exact (at4_arr m ρ c 6).trans (((data0 (entry0 m ρ) c).arrAt_in 6 rfl _).trans (data0_A (entry0 m ρ) c 6))
    | ⟨7, _⟩ => exact absurd rfl hb
  · exact at4_of_ne m ρ c b (fun w e => h ⟨w, e⟩)

/-- Launch 1 leaves every buffer but its output array `main_v136` as it found it: an input array is put back as read, a
    buffer that is no operand is untouched. -/
theorem at6_keep (c : Dev nD) (b : Ref sig .tc) (hb : b ≠ main_v136) :
    at6 m ρ c (Proc.devRef .tc b) = at5 m ρ c (Proc.devRef .tc b) := by
  by_cases h : ∃ w, Pipeline.arrRef spec1 w = b
  · obtain ⟨w, rfl⟩ := h
    match w with
    | ⟨0, _⟩ => exact (at6_arr m ρ c 0).trans (((data1 (entry1 m ρ) c).arrAt_in 0 rfl _).trans (data1_A (entry1 m ρ) c 0))
    | ⟨1, _⟩ => exact (at6_arr m ρ c 1).trans (((data1 (entry1 m ρ) c).arrAt_in 1 rfl _).trans (data1_A (entry1 m ρ) c 1))
    | ⟨2, _⟩ => exact (at6_arr m ρ c 2).trans (((data1 (entry1 m ρ) c).arrAt_in 2 rfl _).trans (data1_A (entry1 m ρ) c 2))
    | ⟨3, _⟩ => exact (at6_arr m ρ c 3).trans (((data1 (entry1 m ρ) c).arrAt_in 3 rfl _).trans (data1_A (entry1 m ρ) c 3))
    | ⟨4, _⟩ => exact (at6_arr m ρ c 4).trans (((data1 (entry1 m ρ) c).arrAt_in 4 rfl _).trans (data1_A (entry1 m ρ) c 4))
    | ⟨5, _⟩ => exact absurd rfl hb
  · exact at6_of_ne m ρ c b (fun w e => h ⟨w, e⟩)

/-- Launch 2 leaves every buffer but its output array `main_v138` as it found it: an input array is put back as read, a
    buffer that is no operand is untouched. -/
theorem at8_keep (c : Dev nD) (b : Ref sig .tc) (hb : b ≠ main_v138) :
    at8 m ρ c (Proc.devRef .tc b) = at7 m ρ c (Proc.devRef .tc b) := by
  by_cases h : ∃ w, Pipeline.arrRef spec2 w = b
  · obtain ⟨w, rfl⟩ := h
    match w with
    | ⟨0, _⟩ => exact (at8_arr m ρ c 0).trans (((data2 (entry2 m ρ) c).arrAt_in 0 rfl _).trans (data2_A (entry2 m ρ) c 0))
    | ⟨1, _⟩ => exact (at8_arr m ρ c 1).trans (((data2 (entry2 m ρ) c).arrAt_in 1 rfl _).trans (data2_A (entry2 m ρ) c 1))
    | ⟨2, _⟩ => exact (at8_arr m ρ c 2).trans (((data2 (entry2 m ρ) c).arrAt_in 2 rfl _).trans (data2_A (entry2 m ρ) c 2))
    | ⟨3, _⟩ => exact (at8_arr m ρ c 3).trans (((data2 (entry2 m ρ) c).arrAt_in 3 rfl _).trans (data2_A (entry2 m ρ) c 3))
    | ⟨4, _⟩ => exact (at8_arr m ρ c 4).trans (((data2 (entry2 m ρ) c).arrAt_in 4 rfl _).trans (data2_A (entry2 m ρ) c 4))
    | ⟨5, _⟩ => exact absurd rfl hb
  · exact at8_of_ne m ρ c b (fun w e => h ⟨w, e⟩)

/-- Launch 3 leaves every buffer but its output array `main_v140` as it found it: an input array is put back as read, a
    buffer that is no operand is untouched. -/
theorem at10_keep (c : Dev nD) (b : Ref sig .tc) (hb : b ≠ main_v140) :
    at10 m ρ c (Proc.devRef .tc b) = at9 m ρ c (Proc.devRef .tc b) := by
  by_cases h : ∃ w, Pipeline.arrRef spec3 w = b
  · obtain ⟨w, rfl⟩ := h
    match w with
    | ⟨0, _⟩ => exact (at10_arr m ρ c 0).trans (((data3 (entry3 m ρ) c).arrAt_in 0 rfl _).trans (data3_A (entry3 m ρ) c 0))
    | ⟨1, _⟩ => exact (at10_arr m ρ c 1).trans (((data3 (entry3 m ρ) c).arrAt_in 1 rfl _).trans (data3_A (entry3 m ρ) c 1))
    | ⟨2, _⟩ => exact (at10_arr m ρ c 2).trans (((data3 (entry3 m ρ) c).arrAt_in 2 rfl _).trans (data3_A (entry3 m ρ) c 2))
    | ⟨3, _⟩ => exact (at10_arr m ρ c 3).trans (((data3 (entry3 m ρ) c).arrAt_in 3 rfl _).trans (data3_A (entry3 m ρ) c 3))
    | ⟨4, _⟩ => exact (at10_arr m ρ c 4).trans (((data3 (entry3 m ρ) c).arrAt_in 4 rfl _).trans (data3_A (entry3 m ρ) c 4))
    | ⟨5, _⟩ => exact (at10_arr m ρ c 5).trans (((data3 (entry3 m ρ) c).arrAt_in 5 rfl _).trans (data3_A (entry3 m ρ) c 5))
    | ⟨6, _⟩ => exact (at10_arr m ρ c 6).trans (((data3 (entry3 m ρ) c).arrAt_in 6 rfl _).trans (data3_A (entry3 m ρ) c 6))
    | ⟨7, _⟩ => exact (at10_arr m ρ c 7).trans (((data3 (entry3 m ρ) c).arrAt_in 7 rfl _).trans (data3_A (entry3 m ρ) c 7))
    | ⟨8, _⟩ => exact (at10_arr m ρ c 8).trans (((data3 (entry3 m ρ) c).arrAt_in 8 rfl _).trans (data3_A (entry3 m ρ) c 8))
    | ⟨9, _⟩ => exact absurd rfl hb
  · exact at10_of_ne m ρ c b (fun w e => h ⟨w, e⟩)

/-! ## An argument read back to the launch -/

/-- A buffer that no stretch writes and that is no launch's output array holds its launch contents at the last boundary. -/
theorem at11_untouched (c : Dev nD) (b : Ref sig .tc)
    (h0 : b ∉ s0_written) (h1 : b ∉ s1_written) (h2 : b ∉ s2_written) (h3 : b ∉ s3_written) (h4 : b ∉ s4_written)
    (h5 : b ∉ s5_written) (h6 : b ∉ s6_written)
    (o0 : b ≠ main_v134) (o1 : b ≠ main_v136) (o2 : b ≠ main_v138) (o3 : b ≠ main_v140) :
    at11 m ρ c (Proc.devRef .tc b) = m ((c : Thread nD τ).loc b) :=
  calc at11 m ρ c (Proc.devRef .tc b)
    _ = at10 m ρ c (Proc.devRef .tc b) := at11_keep m ρ c b h6
    _ = at9 m ρ c (Proc.devRef .tc b) := at10_keep m ρ c b o3
    _ = at8 m ρ c (Proc.devRef .tc b) := at9_keep m ρ c b h5
    _ = at7 m ρ c (Proc.devRef .tc b) := at8_keep m ρ c b o2
    _ = at6 m ρ c (Proc.devRef .tc b) := at7_keep m ρ c b h4
    _ = at5 m ρ c (Proc.devRef .tc b) := at6_keep m ρ c b o1
    _ = at4 m ρ c (Proc.devRef .tc b) := at5_keep m ρ c b h3
    _ = at3 m ρ c (Proc.devRef .tc b) := at4_keep m ρ c b o0
    _ = at2 m ρ c (Proc.devRef .tc b) := at3_keep m ρ c b h2
    _ = at1 m ρ c (Proc.devRef .tc b) := at2_keep m ρ c b h1
    _ = at0 m ρ c (Proc.devRef .tc b) := at1_keep m ρ c b h0
    _ = m ((c : Thread nD τ).loc b) := rfl

theorem at11_main_arg0 (c : Dev nD) : at11 m ρ c (Proc.devRef .tc main_arg0) = m ((c : Thread nD τ).loc main_arg0) :=
  at11_untouched m ρ c main_arg0 (by decide) (by decide) (by decide) (by decide) (by decide) (by decide) (by decide) (by decide) (by decide) (by decide) (by decide)
theorem at11_main_arg1 (c : Dev nD) : at11 m ρ c (Proc.devRef .tc main_arg1) = m ((c : Thread nD τ).loc main_arg1) :=
  at11_untouched m ρ c main_arg1 (by decide) (by decide) (by decide) (by decide) (by decide) (by decide) (by decide) (by decide) (by decide) (by decide) (by decide)
theorem at11_main_arg2 (c : Dev nD) : at11 m ρ c (Proc.devRef .tc main_arg2) = m ((c : Thread nD τ).loc main_arg2) :=
  at11_untouched m ρ c main_arg2 (by decide) (by decide) (by decide) (by decide) (by decide) (by decide) (by decide) (by decide) (by decide) (by decide) (by decide)
theorem at11_main_arg3 (c : Dev nD) : at11 m ρ c (Proc.devRef .tc main_arg3) = m ((c : Thread nD τ).loc main_arg3) :=
  at11_untouched m ρ c main_arg3 (by decide) (by decide) (by decide) (by decide) (by decide) (by decide) (by decide) (by decide) (by decide) (by decide) (by decide)
theorem at11_main_arg4 (c : Dev nD) : at11 m ρ c (Proc.devRef .tc main_arg4) = m ((c : Thread nD τ).loc main_arg4) :=
  at11_untouched m ρ c main_arg4 (by decide) (by decide) (by decide) (by decide) (by decide) (by decide) (by decide) (by decide) (by decide) (by decide) (by decide)
theorem at11_main_arg5 (c : Dev nD) : at11 m ρ c (Proc.devRef .tc main_arg5) = m ((c : Thread nD τ).loc main_arg5) :=
  at11_untouched m ρ c main_arg5 (by decide) (by decide) (by decide) (by decide) (by decide) (by decide) (by decide) (by decide) (by decide) (by decide) (by decide)
theorem at11_main_arg6 (c : Dev nD) : at11 m ρ c (Proc.devRef .tc main_arg6) = m ((c : Thread nD τ).loc main_arg6) :=
  at11_untouched m ρ c main_arg6 (by decide) (by decide) (by decide) (by decide) (by decide) (by decide) (by decide) (by decide) (by decide) (by decide) (by decide)
theorem at11_main_arg7 (c : Dev nD) : at11 m ρ c (Proc.devRef .tc main_arg7) = m ((c : Thread nD τ).loc main_arg7) :=
  at11_untouched m ρ c main_arg7 (by decide) (by decide) (by decide) (by decide) (by decide) (by decide) (by decide) (by decide) (by decide) (by decide) (by decide)
theorem at11_main_arg8 (c : Dev nD) : at11 m ρ c (Proc.devRef .tc main_arg8) = m ((c : Thread nD τ).loc main_arg8) :=
  at11_untouched m ρ c main_arg8 (by decide) (by decide) (by decide) (by decide) (by decide) (by decide) (by decide) (by decide) (by decide) (by decide) (by decide)
theorem at11_main_arg9 (c : Dev nD) : at11 m ρ c (Proc.devRef .tc main_arg9) = m ((c : Thread nD τ).loc main_arg9) :=
  at11_untouched m ρ c main_arg9 (by decide) (by decide) (by decide) (by decide) (by decide) (by decide) (by decide) (by decide) (by decide) (by decide) (by decide)
theorem at11_main_arg10 (c : Dev nD) : at11 m ρ c (Proc.devRef .tc main_arg10) = m ((c : Thread nD τ).loc main_arg10) :=
  at11_untouched m ρ c main_arg10 (by decide) (by decide) (by decide) (by decide) (by decide) (by decide) (by decide) (by decide) (by decide) (by decide) (by decide)
theorem at11_main_arg11 (c : Dev nD) : at11 m ρ c (Proc.devRef .tc main_arg11) = m ((c : Thread nD τ).loc main_arg11) :=
  at11_untouched m ρ c main_arg11 (by decide) (by decide) (by decide) (by decide) (by decide) (by decide) (by decide) (by decide) (by decide) (by decide) (by decide)
theorem at11_main_arg12 (c : Dev nD) : at11 m ρ c (Proc.devRef .tc main_arg12) = m ((c : Thread nD τ).loc main_arg12) :=
  at11_untouched m ρ c main_arg12 (by decide) (by decide) (by decide) (by decide) (by decide) (by decide) (by decide) (by decide) (by decide) (by decide) (by decide)
theorem at11_main_arg13 (c : Dev nD) : at11 m ρ c (Proc.devRef .tc main_arg13) = m ((c : Thread nD τ).loc main_arg13) :=
  at11_untouched m ρ c main_arg13 (by decide) (by decide) (by decide) (by decide) (by decide) (by decide) (by decide) (by decide) (by decide) (by decide) (by decide)
theorem at11_main_arg14 (c : Dev nD) : at11 m ρ c (Proc.devRef .tc main_arg14) = m ((c : Thread nD τ).loc main_arg14) :=
  at11_untouched m ρ c main_arg14 (by decide) (by decide) (by decide) (by decide) (by decide) (by decide) (by decide) (by decide) (by decide) (by decide) (by decide)
theorem at11_main_arg15 (c : Dev nD) : at11 m ρ c (Proc.devRef .tc main_arg15) = m ((c : Thread nD τ).loc main_arg15) :=
  at11_untouched m ρ c main_arg15 (by decide) (by decide) (by decide) (by decide) (by decide) (by decide) (by decide) (by decide) (by decide) (by decide) (by decide)
theorem at11_main_arg16 (c : Dev nD) : at11 m ρ c (Proc.devRef .tc main_arg16) = m ((c : Thread nD τ).loc main_arg16) :=
  at11_untouched m ρ c main_arg16 (by decide) (by decide) (by decide) (by decide) (by decide) (by decide) (by decide) (by decide) (by decide) (by decide) (by decide)
theorem at11_main_arg17 (c : Dev nD) : at11 m ρ c (Proc.devRef .tc main_arg17) = m ((c : Thread nD τ).loc main_arg17) :=
  at11_untouched m ρ c main_arg17 (by decide) (by decide) (by decide) (by decide) (by decide) (by decide) (by decide) (by decide) (by decide) (by decide) (by decide)
theorem at11_main_arg18 (c : Dev nD) : at11 m ρ c (Proc.devRef .tc main_arg18) = m ((c : Thread nD τ).loc main_arg18) :=
  at11_untouched m ρ c main_arg18 (by decide) (by decide) (by decide) (by decide) (by decide) (by decide) (by decide) (by decide) (by decide) (by decide) (by decide)
theorem at11_main_arg19 (c : Dev nD) : at11 m ρ c (Proc.devRef .tc main_arg19) = m ((c : Thread nD τ).loc main_arg19) :=
  at11_untouched m ρ c main_arg19 (by decide) (by decide) (by decide) (by decide) (by decide) (by decide) (by decide) (by decide) (by decide) (by decide) (by decide)
theorem at11_main_arg20 (c : Dev nD) : at11 m ρ c (Proc.devRef .tc main_arg20) = m ((c : Thread nD τ).loc main_arg20) :=
  at11_untouched m ρ c main_arg20 (by decide) (by decide) (by decide) (by decide) (by decide) (by decide) (by decide) (by decide) (by decide) (by decide) (by decide)
theorem at11_main_arg21 (c : Dev nD) : at11 m ρ c (Proc.devRef .tc main_arg21) = m ((c : Thread nD τ).loc main_arg21) :=
  at11_untouched m ρ c main_arg21 (by decide) (by decide) (by decide) (by decide) (by decide) (by decide) (by decide) (by decide) (by decide) (by decide) (by decide)
theorem at11_main_arg22 (c : Dev nD) : at11 m ρ c (Proc.devRef .tc main_arg22) = m ((c : Thread nD τ).loc main_arg22) :=
  at11_untouched m ρ c main_arg22 (by decide) (by decide) (by decide) (by decide) (by decide) (by decide) (by decide) (by decide) (by decide) (by decide) (by decide)
theorem at11_main_arg23 (c : Dev nD) : at11 m ρ c (Proc.devRef .tc main_arg23) = m ((c : Thread nD τ).loc main_arg23) :=
  at11_untouched m ρ c main_arg23 (by decide) (by decide) (by decide) (by decide) (by decide) (by decide) (by decide) (by decide) (by decide) (by decide) (by decide)
theorem at11_main_arg24 (c : Dev nD) : at11 m ρ c (Proc.devRef .tc main_arg24) = m ((c : Thread nD τ).loc main_arg24) :=
  at11_untouched m ρ c main_arg24 (by decide) (by decide) (by decide) (by decide) (by decide) (by decide) (by decide) (by decide) (by decide) (by decide) (by decide)
theorem at11_main_arg25 (c : Dev nD) : at11 m ρ c (Proc.devRef .tc main_arg25) = m ((c : Thread nD τ).loc main_arg25) :=
  at11_untouched m ρ c main_arg25 (by decide) (by decide) (by decide) (by decide) (by decide) (by decide) (by decide) (by decide) (by decide) (by decide) (by decide)
theorem at11_main_arg26 (c : Dev nD) : at11 m ρ c (Proc.devRef .tc main_arg26) = m ((c : Thread nD τ).loc main_arg26) :=
  at11_untouched m ρ c main_arg26 (by decide) (by decide) (by decide) (by decide) (by decide) (by decide) (by decide) (by decide) (by decide) (by decide) (by decide)
theorem at11_main_arg27 (c : Dev nD) : at11 m ρ c (Proc.devRef .tc main_arg27) = m ((c : Thread nD τ).loc main_arg27) :=
  at11_untouched m ρ c main_arg27 (by decide) (by decide) (by decide) (by decide) (by decide) (by decide) (by decide) (by decide) (by decide) (by decide) (by decide)
theorem at11_main_arg28 (c : Dev nD) : at11 m ρ c (Proc.devRef .tc main_arg28) = m ((c : Thread nD τ).loc main_arg28) :=
  at11_untouched m ρ c main_arg28 (by decide) (by decide) (by decide) (by decide) (by decide) (by decide) (by decide) (by decide) (by decide) (by decide) (by decide)
theorem at11_main_arg29 (c : Dev nD) : at11 m ρ c (Proc.devRef .tc main_arg29) = m ((c : Thread nD τ).loc main_arg29) :=
  at11_untouched m ρ c main_arg29 (by decide) (by decide) (by decide) (by decide) (by decide) (by decide) (by decide) (by decide) (by decide) (by decide) (by decide)
theorem at11_main_arg30 (c : Dev nD) : at11 m ρ c (Proc.devRef .tc main_arg30) = m ((c : Thread nD τ).loc main_arg30) :=
  at11_untouched m ρ c main_arg30 (by decide) (by decide) (by decide) (by decide) (by decide) (by decide) (by decide) (by decide) (by decide) (by decide) (by decide)
theorem at11_main_arg31 (c : Dev nD) : at11 m ρ c (Proc.devRef .tc main_arg31) = m ((c : Thread nD τ).loc main_arg31) :=
  at11_untouched m ρ c main_arg31 (by decide) (by decide) (by decide) (by decide) (by decide) (by decide) (by decide) (by decide) (by decide) (by decide) (by decide)
theorem at11_main_arg32 (c : Dev nD) : at11 m ρ c (Proc.devRef .tc main_arg32) = m ((c : Thread nD τ).loc main_arg32) :=
  at11_untouched m ρ c main_arg32 (by decide) (by decide) (by decide) (by decide) (by decide) (by decide) (by decide) (by decide) (by decide) (by decide) (by decide)

/-- The frame: the program runs to its end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun r h c => ⟨(h c _ (mem_uc main_arg0 (by decide))).trans (at11_main_arg0 m ρ c),
    (h c _ (mem_uc main_arg1 (by decide))).trans (at11_main_arg1 m ρ c),
    (h c _ (mem_uc main_arg2 (by decide))).trans (at11_main_arg2 m ρ c),
    (h c _ (mem_uc main_arg3 (by decide))).trans (at11_main_arg3 m ρ c),
    (h c _ (mem_uc main_arg4 (by decide))).trans (at11_main_arg4 m ρ c),
    (h c _ (mem_uc main_arg5 (by decide))).trans (at11_main_arg5 m ρ c),
    (h c _ (mem_uc main_arg6 (by decide))).trans (at11_main_arg6 m ρ c),
    (h c _ (mem_uc main_arg7 (by decide))).trans (at11_main_arg7 m ρ c),
    (h c _ (mem_uc main_arg8 (by decide))).trans (at11_main_arg8 m ρ c),
    (h c _ (mem_uc main_arg9 (by decide))).trans (at11_main_arg9 m ρ c),
    (h c _ (mem_uc main_arg10 (by decide))).trans (at11_main_arg10 m ρ c),
    (h c _ (mem_uc main_arg11 (by decide))).trans (at11_main_arg11 m ρ c),
    (h c _ (mem_uc main_arg12 (by decide))).trans (at11_main_arg12 m ρ c),
    (h c _ (mem_uc main_arg13 (by decide))).trans (at11_main_arg13 m ρ c),
    (h c _ (mem_uc main_arg14 (by decide))).trans (at11_main_arg14 m ρ c),
    (h c _ (mem_uc main_arg15 (by decide))).trans (at11_main_arg15 m ρ c),
    (h c _ (mem_uc main_arg16 (by decide))).trans (at11_main_arg16 m ρ c),
    (h c _ (mem_uc main_arg17 (by decide))).trans (at11_main_arg17 m ρ c),
    (h c _ (mem_uc main_arg18 (by decide))).trans (at11_main_arg18 m ρ c),
    (h c _ (mem_uc main_arg19 (by decide))).trans (at11_main_arg19 m ρ c),
    (h c _ (mem_uc main_arg20 (by decide))).trans (at11_main_arg20 m ρ c),
    (h c _ (mem_uc main_arg21 (by decide))).trans (at11_main_arg21 m ρ c),
    (h c _ (mem_uc main_arg22 (by decide))).trans (at11_main_arg22 m ρ c),
    (h c _ (mem_uc main_arg23 (by decide))).trans (at11_main_arg23 m ρ c),
    (h c _ (mem_uc main_arg24 (by decide))).trans (at11_main_arg24 m ρ c),
    (h c _ (mem_uc main_arg25 (by decide))).trans (at11_main_arg25 m ρ c),
    (h c _ (mem_uc main_arg26 (by decide))).trans (at11_main_arg26 m ρ c),
    (h c _ (mem_uc main_arg27 (by decide))).trans (at11_main_arg27 m ρ c),
    (h c _ (mem_uc main_arg28 (by decide))).trans (at11_main_arg28 m ρ c),
    (h c _ (mem_uc main_arg29 (by decide))).trans (at11_main_arg29 m ρ c),
    (h c _ (mem_uc main_arg30 (by decide))).trans (at11_main_arg30 m ρ c),
    (h c _ (mem_uc main_arg31 (by decide))).trans (at11_main_arg31 m ρ c),
    (h c _ (mem_uc main_arg32 (by decide))).trans (at11_main_arg32 m ρ c)⟩)
    (run_all m ρ)

end Cert.Kernel.Rgn

end
-- ==== Proof.IdealRegion0.lean ====
/-
  Region 0 of the program: one launch of the linear-sum kernel over blocks of 2000 rows. At a grid point the body reads
  3 blocks of 2000 rows, 3 whole 128 x 128 weight matrices and one bias row, and stores one 2000 x 128 tile: the sum of the
  3 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.KernelIdeal.Launch
import proofs.«139170_j4398046511496_1_alg».proof.Proof.Gen.KernelIdeal.Skeleton
import proofs.«139170_j4398046511496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's staging buffer holds its block at every point, whether or not that point fetched it (a block that is
    not fetched again has not moved). -/
theorem held0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- Input operand 1's staging buffer holds its block at every point, whether or not that point fetched it (a block that is
    not fetched again has not moved). -/
theorem held0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-- Input operand 2's staging buffer holds its block at every point, whether or not that point fetched it (a block that is
    not fetched again has not moved). -/
theorem held0_2_of {c : Dev nD} (dat : Dat τ (Elt F) Unit ℕ (UR sig nD τ) ℕ cfg0 c) (hA : dat.A 2 = V c (Pipeline.arrRef spec0 2))
    (hafter : ∀ t, dat.after 2 t = block0 V c 2 t) (t : Fin cfg0.N) (d) : dat.before 2 t d = block0 V c 2 t :=
  (dat.before_in_eq_fetched 2 rfl (fun _ => rfl) (fun _ _ _ => rfl) (fun t => by rw [hafter]; unfold Dat.blockOf block0; rw [hA]; try rfl) t d).trans
    (by unfold Dat.fetched Dat.blockOf block0; rw [hA]; try rfl)

/-- Input operand 3's staging buffer holds its block at every point, whether or not that point fetched it (a block that is
    not fetched again has not moved). -/
theorem held0_3_of {c : Dev nD} (dat : Dat τ (Elt F) Unit ℕ (UR sig nD τ) ℕ cfg0 c) (hA : dat.A 3 = V c (Pipeline.arrRef spec0 3))
    (hafter : ∀ t, dat.after 3 t = block0 V c 3 t) (t : Fin cfg0.N) (d) : dat.before 3 t d = block0 V c 3 t :=
  (dat.before_in_eq_fetched 3 rfl (fun _ => rfl) (fun _ _ _ => rfl) (fun t => by rw [hafter]; unfold Dat.blockOf block0; rw [hA]; try rfl) t d).trans
    (by unfold Dat.fetched Dat.blockOf block0; rw [hA]; try rfl)

/-- Input operand 4's staging buffer holds its block at every point, whether or not that point fetched it (a block that is
    not fetched again has not moved). -/
theorem held0_4_of {c : Dev nD} (dat : Dat τ (Elt F) Unit ℕ (UR sig nD τ) ℕ cfg0 c) (hA : dat.A 4 = V c (Pipeline.arrRef spec0 4))
    (hafter : ∀ t, dat.after 4 t = block0 V c 4 t) (t : Fin cfg0.N) (d) : dat.before 4 t d = block0 V c 4 t :=
  (dat.before_in_eq_fetched 4 rfl (fun _ => rfl) (fun _ _ _ => rfl) (fun t => by rw [hafter]; unfold Dat.blockOf block0; rw [hA]; try rfl) t d).trans
    (by unfold Dat.fetched Dat.blockOf block0; rw [hA]; try rfl)

/-- Input operand 5's staging buffer holds its block at every point, whether or not that point fetched it (a block that is
    not fetched again has not moved). -/
theorem held0_5_of {c : Dev nD} (dat : Dat τ (Elt F) Unit ℕ (UR sig nD τ) ℕ cfg0 c) (hA : dat.A 5 = V c (Pipeline.arrRef spec0 5))
    (hafter : ∀ t, dat.after 5 t = block0 V c 5 t) (t : Fin cfg0.N) (d) : dat.before 5 t d = block0 V c 5 t :=
  (dat.before_in_eq_fetched 5 rfl (fun _ => rfl) (fun _ _ _ => rfl) (fun t => by rw [hafter]; unfold Dat.blockOf block0; rw [hA]; try rfl) t d).trans
    (by unfold Dat.fetched Dat.blockOf block0; rw [hA]; try rfl)

/-- Input operand 6's staging buffer holds its block at every point, whether or not that point fetched it (a block that is
    not fetched again has not moved). -/
theorem held0_6_of {c : Dev nD} (dat : Dat τ (Elt F) Unit ℕ (UR sig nD τ) ℕ cfg0 c) (hA : dat.A 6 = V c (Pipeline.arrRef spec0 6))
    (hafter : ∀ t, dat.after 6 t = block0 V c 6 t) (t : Fin cfg0.N) (d) : dat.before 6 t d = block0 V c 6 t :=
  (dat.before_in_eq_fetched 6 rfl (fun _ => rfl) (fun _ _ _ => rfl) (fun t => by rw [hafter]; unfold Dat.blockOf block0; rw [hA]; try rfl) t d).trans
    (by unfold Dat.fetched Dat.blockOf block0; rw [hA]; try rfl)

/-- The whole 2000 x 128 tile, the whole 128 x 128 matrix and the whole 1 x 128 row: the body's accesses. -/
abbrev tileRect0 : Rect S2000x128 := Rect.unit (s := S2000x128) ![0, 0] S2000x128.size inb_S2000x128_S2000x128_0_0
abbrev weightRect0 : Rect S128x128 := Rect.unit (s := S128x128) ![0, 0] S128x128.size inb_S128x128_S128x128_0_0
abbrev rowRect0 : Rect S1x128 := Rect.unit (s := S1x128) ![0, 0] S1x128.size inb_S1x128_S1x128_0_0

/-- The output tile after the body, from the input blocks: one store of the whole tile, of the sum of the products plus the bias row. -/
def tile0 (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) : Vec F S2000x128 .f32 :=
  View.canon [⟨tileRect0, k0_pay1 (View.ld x0 tileRect0) (View.ld x3 weightRect0) (View.ld x1 tileRect0) (View.ld x4 weightRect0) (View.ld x2 tileRect0) (View.ld x5 weightRect0) (View.ld x6 rowRect0)⟩]

/-- That one store covers the tile. -/
theorem tile0_covered (p0 : Vec F S2000x128 .f32) (y : S2000x128.Idx) :
    ∃ pc ∈ ([⟨tileRect0, p0⟩] : List (View.Piece (Elt F) S2000x128 .f32)), y ∈ pc.1.set :=
  View.cover_of_tiled [⟨tileRect0, p0⟩] S2000x128.size (by rfl) y

set_option maxHeartbeats 4000000 in
/-- The body on whole staging buffers, the inputs' at contents `x` and the output's at anything, runs to its end leaving the
    inputs as they were and the output at `tile0` of them. -/
theorem body0_triple (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S128x128 .f32) (x4 : Vec F S128x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (tile0 x0 x1 x2 x3 x4 x5 x6)) -∗ K ⟨⟩))
      ⊢ wp frame (wpE (defs₀ (F := F)) Variants.none c none) E (cc0_kernel i arg0 harg0 arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tile0_covered _)

/-- The launch's proof data on core `c`: the arrays as the region finds them; after the body at a point each input's buffer
    still at its block and the output's at `tile0` of the blocks; nothing else held, nothing owed. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => block0 V c 4 t
    | ⟨5, _⟩ => block0 V c 5 t
    | ⟨6, _⟩ => block0 V c 6 t
    | ⟨7, _⟩ => tile0 (block0 V c 0 t) (block0 V c 1 t) (block0 V c 2 t) (block0 V c 3 t) (block0 V c 4 t) (block0 V c 5 t) (block0 V c 6 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = block0 V c 0 t := by dsimp only [data0]
theorem data0_after_1 (c : Dev nD) (t : Fin cfg0.N) : (data0 V c).after 1 t = block0 V c 1 t := by dsimp only [data0]
theorem data0_after_2 (c : Dev nD) (t : Fin cfg0.N) : (data0 V c).after 2 t = block0 V c 2 t := by dsimp only [data0]
theorem data0_after_3 (c : Dev nD) (t : Fin cfg0.N) : (data0 V c).after 3 t = block0 V c 3 t := by dsimp only [data0]
theorem data0_after_4 (c : Dev nD) (t : Fin cfg0.N) : (data0 V c).after 4 t = block0 V c 4 t := by dsimp only [data0]
theorem data0_after_5 (c : Dev nD) (t : Fin cfg0.N) : (data0 V c).after 5 t = block0 V c 5 t := by dsimp only [data0]
theorem data0_after_6 (c : Dev nD) (t : Fin cfg0.N) : (data0 V c).after 6 t = block0 V c 6 t := by dsimp only [data0]
theorem data0_after_7 (c : Dev nD) (t : Fin cfg0.N) : (data0 V c).after 7 t = tile0 (block0 V c 0 t) (block0 V c 1 t) (block0 V c 2 t) (block0 V c 3 t) (block0 V c 4 t) (block0 V c 5 t) (block0 V c 6 t) := by dsimp only [data0]

theorem data0_before_0 (c : Dev nD) (t : Fin cfg0.N) (d) : (data0 V c).before 0 t d = block0 V c 0 t :=
  held0_0_of V (data0 V c) (data0_A V c 0) (data0_after_0 V c) t d
theorem data0_before_1 (c : Dev nD) (t : Fin cfg0.N) (d) : (data0 V c).before 1 t d = block0 V c 1 t :=
  held0_1_of V (data0 V c) (data0_A V c 1) (data0_after_1 V c) t d
theorem data0_before_2 (c : Dev nD) (t : Fin cfg0.N) (d) : (data0 V c).before 2 t d = block0 V c 2 t :=
  held0_2_of V (data0 V c) (data0_A V c 2) (data0_after_2 V c) t d
theorem data0_before_3 (c : Dev nD) (t : Fin cfg0.N) (d) : (data0 V c).before 3 t d = block0 V c 3 t :=
  held0_3_of V (data0 V c) (data0_A V c 3) (data0_after_3 V c) t d
theorem data0_before_4 (c : Dev nD) (t : Fin cfg0.N) (d) : (data0 V c).before 4 t d = block0 V c 4 t :=
  held0_4_of V (data0 V c) (data0_A V c 4) (data0_after_4 V c) t d
theorem data0_before_5 (c : Dev nD) (t : Fin cfg0.N) (d) : (data0 V c).before 5 t d = block0 V c 5 t :=
  held0_5_of V (data0 V c) (data0_A V c 5) (data0_after_5 V c) t d
theorem data0_before_6 (c : Dev nD) (t : Fin cfg0.N) (d) : (data0 V c).before 6 t d = block0 V c 6 t :=
  held0_6_of V (data0 V c) (data0_A V c 6) (data0_after_6 V c) t d

/-- What the body is called with at point `t`, operand by operand, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t))

/-- The body at any point: the inputs' buffers hold their blocks, so the triple applies; the rest passes through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [data0_before_0, data0_before_1, data0_before_2, data0_before_3, data0_before_4, data0_before_5, data0_before_6]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5, data0_after_6, data0_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_triple c Set.univ _ _ _ _ _ _ _ _ _ _ _ _ _ _ _ _ _ (block0 V c 0 t) (block0 V c 1 t) (block0 V c 2 t) (block0 V c 3 t) (block0 V c 4 t) (block0 V c 5 t) (block0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's per-point obligation. -/
theorem body0_obligation (c : Dev nD) : BodyObligation (data0 (F := F) V c) (defs₀ (F := F)) Variants.none () Set.univ := fun t => by
  rw [bigSep_W0, bigSep_W0]
  exact body0_at V c t

end Cert.KernelIdeal.Rgn

end
-- ==== Proof.IdealRegion1.lean ====
/-
  Region 1 of the program: one launch of the linear-sum kernel over blocks of 2000 rows. At a grid point the body reads
  2 blocks of 2000 rows, 2 whole 128 x 128 weight matrices and one bias row, and stores one 2000 x 128 tile: the sum of the
  2 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.KernelIdeal.Launch
import proofs.«139170_j4398046511496_1_alg».proof.Proof.Gen.KernelIdeal.Skeleton
import proofs.«139170_j4398046511496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's staging buffer holds its block at every point, whether or not that point fetched it (a block that is
    not fetched again has not moved). -/
theorem held1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- Input operand 1's staging buffer holds its block at every point, whether or not that point fetched it (a block that is
    not fetched again has not moved). -/
theorem held1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-- Input operand 2's staging buffer holds its block at every point, whether or not that point fetched it (a block that is
    not fetched again has not moved). -/
theorem held1_2_of {c : Dev nD} (dat : Dat τ (Elt F) Unit ℕ (UR sig nD τ) ℕ cfg1 c) (hA : dat.A 2 = V c (Pipeline.arrRef spec1 2))
    (hafter : ∀ t, dat.after 2 t = block1 V c 2 t) (t : Fin cfg1.N) (d) : dat.before 2 t d = block1 V c 2 t :=
  (dat.before_in_eq_fetched 2 rfl (fun _ => rfl) (fun _ _ _ => rfl) (fun t => by rw [hafter]; unfold Dat.blockOf block1; rw [hA]; try rfl) t d).trans
    (by unfold Dat.fetched Dat.blockOf block1; rw [hA]; try rfl)

/-- Input operand 3's staging buffer holds its block at every point, whether or not that point fetched it (a block that is
    not fetched again has not moved). -/
theorem held1_3_of {c : Dev nD} (dat : Dat τ (Elt F) Unit ℕ (UR sig nD τ) ℕ cfg1 c) (hA : dat.A 3 = V c (Pipeline.arrRef spec1 3))
    (hafter : ∀ t, dat.after 3 t = block1 V c 3 t) (t : Fin cfg1.N) (d) : dat.before 3 t d = block1 V c 3 t :=
  (dat.before_in_eq_fetched 3 rfl (fun _ => rfl) (fun _ _ _ => rfl) (fun t => by rw [hafter]; unfold Dat.blockOf block1; rw [hA]; try rfl) t d).trans
    (by unfold Dat.fetched Dat.blockOf block1; rw [hA]; try rfl)

/-- Input operand 4's staging buffer holds its block at every point, whether or not that point fetched it (a block that is
    not fetched again has not moved). -/
theorem held1_4_of {c : Dev nD} (dat : Dat τ (Elt F) Unit ℕ (UR sig nD τ) ℕ cfg1 c) (hA : dat.A 4 = V c (Pipeline.arrRef spec1 4))
    (hafter : ∀ t, dat.after 4 t = block1 V c 4 t) (t : Fin cfg1.N) (d) : dat.before 4 t d = block1 V c 4 t :=
  (dat.before_in_eq_fetched 4 rfl (fun _ => rfl) (fun _ _ _ => rfl) (fun t => by rw [hafter]; unfold Dat.blockOf block1; rw [hA]; try rfl) t d).trans
    (by unfold Dat.fetched Dat.blockOf block1; rw [hA]; try rfl)

/-- The whole 2000 x 128 tile, the whole 128 x 128 matrix and the whole 1 x 128 row: the body's accesses. -/
abbrev tileRect1 : Rect S2000x128 := Rect.unit (s := S2000x128) ![0, 0] S2000x128.size inb_S2000x128_S2000x128_0_0
abbrev weightRect1 : Rect S128x128 := Rect.unit (s := S128x128) ![0, 0] S128x128.size inb_S128x128_S128x128_0_0
abbrev rowRect1 : Rect S1x128 := Rect.unit (s := S1x128) ![0, 0] S1x128.size inb_S1x128_S1x128_0_0

/-- The output tile after the body, from the input blocks: one store of the whole tile, of the sum of the products plus the bias row. -/
def tile1 (x0 : Vec F S2000x128 .f32) (x1 : Vec F S2000x128 .f32) (x2 : Vec F S128x128 .f32) (x3 : Vec F S128x128 .f32) (x4 : Vec F S1x128 .f32) : Vec F S2000x128 .f32 :=
  View.canon [⟨tileRect1, k1_pay1 (View.ld x0 tileRect1) (View.ld x2 weightRect1) (View.ld x1 tileRect1) (View.ld x3 weightRect1) (View.ld x4 rowRect1)⟩]

/-- That one store covers the tile. -/
theorem tile1_covered (p0 : Vec F S2000x128 .f32) (y : S2000x128.Idx) :
    ∃ pc ∈ ([⟨tileRect1, p0⟩] : List (View.Piece (Elt F) S2000x128 .f32)), y ∈ pc.1.set :=
  View.cover_of_tiled [⟨tileRect1, p0⟩] S2000x128.size (by rfl) y

set_option maxHeartbeats 4000000 in
/-- The body on whole staging buffers, the inputs' at contents `x` and the output's at anything, runs to its end leaving the
    inputs as they were and the output at `tile1` of them. -/
theorem body1_triple (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (tile1 x0 x1 x2 x3 x4)) -∗ K ⟨⟩))
      ⊢ wp frame (wpE (defs₀ (F := F)) Variants.none c none) E (cc1_kernel i arg0 harg0 arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile1_covered _)

/-- The launch's proof data on core `c`: the arrays as the region finds them; after the body at a point each input's buffer
    still at its block and the output's at `tile1` of the blocks; nothing else held, nothing owed. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => block1 V c 3 t
    | ⟨4, _⟩ => block1 V c 4 t
    | ⟨5, _⟩ => tile1 (block1 V c 0 t) (block1 V c 1 t) (block1 V c 2 t) (block1 V c 3 t) (block1 V c 4 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after_0 (c : Dev nD) (t : Fin cfg1.N) : (data1 V c).after 0 t = block1 V c 0 t := by dsimp only [data1]
theorem data1_after_1 (c : Dev nD) (t : Fin cfg1.N) : (data1 V c).after 1 t = block1 V c 1 t := by dsimp only [data1]
theorem data1_after_2 (c : Dev nD) (t : Fin cfg1.N) : (data1 V c).after 2 t = block1 V c 2 t := by dsimp only [data1]
theorem data1_after_3 (c : Dev nD) (t : Fin cfg1.N) : (data1 V c).after 3 t = block1 V c 3 t := by dsimp only [data1]
theorem data1_after_4 (c : Dev nD) (t : Fin cfg1.N) : (data1 V c).after 4 t = block1 V c 4 t := by dsimp only [data1]
theorem data1_after_5 (c : Dev nD) (t : Fin cfg1.N) : (data1 V c).after 5 t = tile1 (block1 V c 0 t) (block1 V c 1 t) (block1 V c 2 t) (block1 V c 3 t) (block1 V c 4 t) := by dsimp only [data1]

theorem data1_before_0 (c : Dev nD) (t : Fin cfg1.N) (d) : (data1 V c).before 0 t d = block1 V c 0 t :=
  held1_0_of V (data1 V c) (data1_A V c 0) (data1_after_0 V c) t d
theorem data1_before_1 (c : Dev nD) (t : Fin cfg1.N) (d) : (data1 V c).before 1 t d = block1 V c 1 t :=
  held1_1_of V (data1 V c) (data1_A V c 1) (data1_after_1 V c) t d
theorem data1_before_2 (c : Dev nD) (t : Fin cfg1.N) (d) : (data1 V c).before 2 t d = block1 V c 2 t :=
  held1_2_of V (data1 V c) (data1_A V c 2) (data1_after_2 V c) t d
theorem data1_before_3 (c : Dev nD) (t : Fin cfg1.N) (d) : (data1 V c).before 3 t d = block1 V c 3 t :=
  held1_3_of V (data1 V c) (data1_A V c 3) (data1_after_3 V c) t d
theorem data1_before_4 (c : Dev nD) (t : Fin cfg1.N) (d) : (data1 V c).before 4 t d = block1 V c 4 t :=
  held1_4_of V (data1 V c) (data1_A V c 4) (data1_after_4 V c) t d

/-- What the body is called with at point `t`, operand by operand, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d)))

/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t))

/-- The body at any point: the inputs' buffers hold their blocks, so the triple applies; the rest passes through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [data1_before_0, data1_before_1, data1_before_2, data1_before_3, data1_before_4]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5]
  iintro ⟨HΦ, Ho, ⟨%d0, H0⟩, ⟨%d1, H1⟩, ⟨%d2, H2⟩, ⟨%d3, H3⟩, ⟨%d4, H4⟩, ⟨%d5, H5⟩⟩
  iapply (body1_triple c Set.univ _ _ _ _ _ _ _ _ _ _ _ _ _ (block1 V c 0 t) (block1 V c 1 t) (block1 V c 2 t) (block1 V c 3 t) (block1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's per-point obligation. -/
theorem body1_obligation (c : Dev nD) : BodyObligation (data1 (F := F) V c) (defs₀ (F := F)) Variants.none () Set.univ := fun t => by
  rw [bigSep_W1, bigSep_W1]
  exact body1_at V c t

end Cert.KernelIdeal.Rgn

end
-- ==== Proof.IdealRegion2.lean ====
/-
  Region 2 of the program: one launch of the linear-sum kernel over blocks of 2000 rows. At a grid point the body reads
  2 blocks of 2000 rows, 2 whole 128 x 128 weight matrices and one bias row, and stores one 2000 x 128 tile: the sum of the
  2 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.KernelIdeal.Launch
import proofs.«139170_j4398046511496_1_alg».proof.Proof.Gen.KernelIdeal.Skeleton
import proofs.«139170_j4398046511496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input operand 0's staging buffer holds its block at every point, whether or not that point fetched it (a block that is
    not fetched again has not moved). -/
theorem held2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- Input operand 1's staging buffer holds its block at every point, whether or not that point fetched it (a block that is
    not fetched again has not moved). -/
theorem held2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-- Input operand 2's staging buffer holds its block at every point, whether or not that point fetched it (a block that is
    not fetched again has not moved). -/
theorem held2_2_of {c : Dev nD} (dat : Dat τ (Elt F) Unit ℕ (UR sig nD τ) ℕ cfg2 c) (hA : dat.A 2 = V c (Pipeline.arrRef spec2 2))
    (hafter : ∀ t, dat.after 2 t = block2 V c 2 t) (t : Fin cfg2.N) (d) : dat.before 2 t d = block2 V c 2 t :=
  (dat.before_in_eq_fetched 2 rfl (fun _ => rfl) (fun _ _ _ => rfl) (fun t => by rw [hafter]; unfold Dat.blockOf block2; rw [hA]; try rfl) t d).trans
    (by unfold Dat.fetched Dat.blockOf block2; rw [hA]; try rfl)

/-- Input operand 3's staging buffer holds its block at every point, whether or not that point fetched it (a block that is
    not fetched again has not moved). -/
theorem held2_3_of {c : Dev nD} (dat : Dat τ (Elt F) Unit ℕ (UR sig nD τ) ℕ cfg2 c) (hA : dat.A 3 = V c (Pipeline.arrRef spec2 3))
    (hafter : ∀ t, dat.after 3 t = block2 V c 3 t) (t : Fin cfg2.N) (d) : dat.before 3 t d = block2 V c 3 t :=
  (dat.before_in_eq_fetched 3 rfl (fun _ => rfl) (fun _ _ _ => rfl) (fun t => by rw [hafter]; unfold Dat.blockOf block2; rw [hA]; try rfl) t d).trans
    (by unfold Dat.fetched Dat.blockOf block2; rw [hA]; try rfl)

/-- Input operand 4's staging buffer holds its block at every point, whether or not that point fetched it (a block that is
    not fetched again has not moved). -/
theorem held2_4_of {c : Dev nD} (dat : Dat τ (Elt F) Unit ℕ (UR sig nD τ) ℕ cfg2 c) (hA : dat.A 4 = V c (Pipeline.arrRef spec2 4))
    (hafter : ∀ t, dat.after 4 t = block2 V c 4 t) (t : Fin cfg2.N) (d) : dat.before 4 t d = block2 V c 4 t :=
  (dat.before_in_eq_fetched 4 rfl (fun _ => rfl) (fun _ _ _ => rfl) (fun t => by rw [hafter]; unfold Dat.blockOf block2; rw [hA]; try rfl) t d).trans
    (by unfold Dat.fetched Dat.blockOf block2; rw [hA]; try rfl)

/-- The whole 2000 x 128 tile, the whole 128 x 128 matrix and the whole 1 x 128 row: the body's accesses. -/
abbrev tileRect2 : Rect S2000x128 := Rect.unit (s := S2000x128) ![0, 0] S2000x128.size inb_S2000x128_S2000x128_0_0
abbrev weightRect2 : Rect S128x128 := Rect.unit (s := S128x128) ![0, 0] S128x128.size inb_S128x128_S128x128_0_0
abbrev rowRect2 : Rect S1x128 := Rect.unit (s := S1x128) ![0, 0] S1x128.size inb_S1x128_S1x128_0_0

/-- The output tile after the body, from the input blocks: one store of the whole tile, of the sum of the products plus the bias row. -/
def tile2 (x0 : Vec F S2000x128 .f32) (x1 : Vec F S2000x128 .f32) (x2 : Vec F S128x128 .f32) (x3 : Vec F S128x128 .f32) (x4 : Vec F S1x128 .f32) : Vec F S2000x128 .f32 :=
  View.canon [⟨tileRect2, k2_pay1 (View.ld x0 tileRect2) (View.ld x2 weightRect2) (View.ld x1 tileRect2) (View.ld x3 weightRect2) (View.ld x4 rowRect2)⟩]

/-- That one store covers the tile. -/
theorem tile2_covered (p0 : Vec F S2000x128 .f32) (y : S2000x128.Idx) :
    ∃ pc ∈ ([⟨tileRect2, p0⟩] : List (View.Piece (Elt F) S2000x128 .f32)), y ∈ pc.1.set :=
  View.cover_of_tiled [⟨tileRect2, p0⟩] S2000x128.size (by rfl) y

set_option maxHeartbeats 4000000 in
/-- The body on whole staging buffers, the inputs' at contents `x` and the output's at anything, runs to its end leaving the
    inputs as they were and the output at `tile2` of them. -/
theorem body2_triple (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S128x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (tile2 x0 x1 x2 x3 x4)) -∗ K ⟨⟩))
      ⊢ wp frame (wpE (defs₀ (F := F)) Variants.none c none) E (cc2_kernel i arg0 harg0 arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile2_covered _)

/-- The launch's proof data on core `c`: the arrays as the region finds them; after the body at a point each input's buffer
    still at its block and the output's at `tile2` of the blocks; nothing else held, nothing owed. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => block2 V c 3 t
    | ⟨4, _⟩ => block2 V c 4 t
    | ⟨5, _⟩ => tile2 (block2 V c 0 t) (block2 V c 1 t) (block2 V c 2 t) (block2 V c 3 t) (block2 V c 4 t)
  Φ _ := Pipeline.ΦA spec2 c
  q _ := fullShare
  owed _ := 0

theorem data2_A (c : Dev nD) (w : Fin cfg2.W) : (data2 V c).A w = V c (Pipeline.arrRef spec2 w) := by
  dsimp only [data2]

theorem data2_after_0 (c : Dev nD) (t : Fin cfg2.N) : (data2 V c).after 0 t = block2 V c 0 t := by dsimp only [data2]
theorem data2_after_1 (c : Dev nD) (t : Fin cfg2.N) : (data2 V c).after 1 t = block2 V c 1 t := by dsimp only [data2]
theorem data2_after_2 (c : Dev nD) (t : Fin cfg2.N) : (data2 V c).after 2 t = block2 V c 2 t := by dsimp only [data2]
theorem data2_after_3 (c : Dev nD) (t : Fin cfg2.N) : (data2 V c).after 3 t = block2 V c 3 t := by dsimp only [data2]
theorem data2_after_4 (c : Dev nD) (t : Fin cfg2.N) : (data2 V c).after 4 t = block2 V c 4 t := by dsimp only [data2]
theorem data2_after_5 (c : Dev nD) (t : Fin cfg2.N) : (data2 V c).after 5 t = tile2 (block2 V c 0 t) (block2 V c 1 t) (block2 V c 2 t) (block2 V c 3 t) (block2 V c 4 t) := by dsimp only [data2]

theorem data2_before_0 (c : Dev nD) (t : Fin cfg2.N) (d) : (data2 V c).before 0 t d = block2 V c 0 t :=
  held2_0_of V (data2 V c) (data2_A V c 0) (data2_after_0 V c) t d
theorem data2_before_1 (c : Dev nD) (t : Fin cfg2.N) (d) : (data2 V c).before 1 t d = block2 V c 1 t :=
  held2_1_of V (data2 V c) (data2_A V c 1) (data2_after_1 V c) t d
theorem data2_before_2 (c : Dev nD) (t : Fin cfg2.N) (d) : (data2 V c).before 2 t d = block2 V c 2 t :=
  held2_2_of V (data2 V c) (data2_A V c 2) (data2_after_2 V c) t d
theorem data2_before_3 (c : Dev nD) (t : Fin cfg2.N) (d) : (data2 V c).before 3 t d = block2 V c 3 t :=
  held2_3_of V (data2 V c) (data2_A V c 3) (data2_after_3 V c) t d
theorem data2_before_4 (c : Dev nD) (t : Fin cfg2.N) (d) : (data2 V c).before 4 t d = block2 V c 4 t :=
  held2_4_of V (data2 V c) (data2_A V c 4) (data2_after_4 V c) t d

/-- What the body is called with at point `t`, operand by operand, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t))

/-- The body at any point: the inputs' buffers hold their blocks, so the triple applies; the rest passes through unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [data2_before_0, data2_before_1, data2_before_2, data2_before_3, data2_before_4]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5]
  iintro ⟨HΦ, Ho, ⟨%d0, H0⟩, ⟨%d1, H1⟩, ⟨%d2, H2⟩, ⟨%d3, H3⟩, ⟨%d4, H4⟩, ⟨%d5, H5⟩⟩
  iapply (body2_triple c Set.univ _ _ _ _ _ _ _ _ _ _ _ _ _ (block2 V c 0 t) (block2 V c 1 t) (block2 V c 2 t) (block2 V c 3 t) (block2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's per-point obligation. -/
theorem body2_obligation (c : Dev nD) : BodyObligation (data2 (F := F) V c) (defs₀ (F := F)) Variants.none () Set.univ := fun t => by
  rw [bigSep_W2, bigSep_W2]
  exact body2_at V c t

end Cert.KernelIdeal.Rgn

end
-- ==== Proof.IdealRegion3.lean ====
/-
  Region 3 of the program: one launch of the linear-sum kernel over blocks of 2000 rows. At a grid point the body reads
  4 blocks of 2000 rows, 4 whole 128 x 128 weight matrices and one bias row, and stores one 2000 x 128 tile: the sum of the
  4 block-by-matrix products plus the bias row laid along every row. This module states, for any contents `V` of the
  device's buffers at the region's entry: the block of each operand at a point, what the body leaves in the output tile as a
  function of those blocks, the body's triple, and the per-point obligation of the launch.
-/
import proofs.«139170_j4398046511496_1_alg».proof.Proof.Gen.KernelIdeal.Launch
import proofs.«139170_j4398046511496_1_alg».proof.Proof.Gen.KernelIdeal.Skeleton
import proofs.«139170_j4398046511496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, cut out of its array as the region finds it. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input operand 0's staging buffer holds its block at every point, whether or not that point fetched it (a block that is
    not fetched again has not moved). -/
theorem held3_0_of {c : Dev nD} (dat : Dat τ (Elt F) Unit ℕ (UR sig nD τ) ℕ cfg3 c) (hA : dat.A 0 = V c (Pipeline.arrRef spec3 0))
    (hafter : ∀ t, dat.after 0 t = block3 V c 0 t) (t : Fin cfg3.N) (d) : dat.before 0 t d = block3 V c 0 t :=
  (dat.before_in_eq_fetched 0 rfl (fun _ => rfl) (fun _ _ _ => rfl) (fun t => by rw [hafter]; unfold Dat.blockOf block3; rw [hA]; try rfl) t d).trans
    (by unfold Dat.fetched Dat.blockOf block3; rw [hA]; try rfl)

/-- Input operand 1's staging buffer holds its block at every point, whether or not that point fetched it (a block that is
    not fetched again has not moved). -/
theorem held3_1_of {c : Dev nD} (dat : Dat τ (Elt F) Unit ℕ (UR sig nD τ) ℕ cfg3 c) (hA : dat.A 1 = V c (Pipeline.arrRef spec3 1))
    (hafter : ∀ t, dat.after 1 t = block3 V c 1 t) (t : Fin cfg3.N) (d) : dat.before 1 t d = block3 V c 1 t :=
  (dat.before_in_eq_fetched 1 rfl (fun _ => rfl) (fun _ _ _ => rfl) (fun t => by rw [hafter]; unfold Dat.blockOf block3; rw [hA]; try rfl) t d).trans
    (by unfold Dat.fetched Dat.blockOf block3; rw [hA]; try rfl)

/-- Input operand 2's staging buffer holds its block at every point, whether or not that point fetched it (a block that is
    not fetched again has not moved). -/
theorem held3_2_of {c : Dev nD} (dat : Dat τ (Elt F) Unit ℕ (UR sig nD τ) ℕ cfg3 c) (hA : dat.A 2 = V c (Pipeline.arrRef spec3 2))
    (hafter : ∀ t, dat.after 2 t = block3 V c 2 t) (t : Fin cfg3.N) (d) : dat.before 2 t d = block3 V c 2 t :=
  (dat.before_in_eq_fetched 2 rfl (fun _ => rfl) (fun _ _ _ => rfl) (fun t => by rw [hafter]; unfold Dat.blockOf block3; rw [hA]; try rfl) t d).trans
    (by unfold Dat.fetched Dat.blockOf block3; rw [hA]; try rfl)

/-- Input operand 3's staging buffer holds its block at every point, whether or not that point fetched it (a block that is
    not fetched again has not moved). -/
theorem held3_3_of {c : Dev nD} (dat : Dat τ (Elt F) Unit ℕ (UR sig nD τ) ℕ cfg3 c) (hA : dat.A 3 = V c (Pipeline.arrRef spec3 3))
    (hafter : ∀ t, dat.after 3 t = block3 V c 3 t) (t : Fin cfg3.N) (d) : dat.before 3 t d = block3 V c 3 t :=
  (dat.before_in_eq_fetched 3 rfl (fun _ => rfl) (fun _ _ _ => rfl) (fun t => by rw [hafter]; unfold Dat.blockOf block3; rw [hA]; try rfl) t d).trans
    (by unfold Dat.fetched Dat.blockOf block3; rw [hA]; try rfl)

/-- Input operand 4's staging buffer holds its block at every point, whether or not that point fetched it (a block that is
    not fetched again has not moved). -/
theorem held3_4_of {c : Dev nD} (dat : Dat τ (Elt F) Unit ℕ (UR sig nD τ) ℕ cfg3 c) (hA : dat.A 4 = V c (Pipeline.arrRef spec3 4))
    (hafter : ∀ t, dat.after 4 t = block3 V c 4 t) (t : Fin cfg3.N) (d) : dat.before 4 t d = block3 V c 4 t :=
  (dat.before_in_eq_fetched 4 rfl (fun _ => rfl) (fun _ _ _ => rfl) (fun t => by rw [hafter]; unfold Dat.blockOf block3; rw [hA]; try rfl) t d).trans
    (by unfold Dat.fetched Dat.blockOf block3; rw [hA]; try rfl)

/-- Input operand 5's staging buffer holds its block at every point, whether or not that point fetched it (a block that is
    not fetched again has not moved). -/
theorem held3_5_of {c : Dev nD} (dat : Dat τ (Elt F) Unit ℕ (UR sig nD τ) ℕ cfg3 c) (hA : dat.A 5 = V c (Pipeline.arrRef spec3 5))
    (hafter : ∀ t, dat.after 5 t = block3 V c 5 t) (t : Fin cfg3.N) (d) : dat.before 5 t d = block3 V c 5 t :=
  (dat.before_in_eq_fetched 5 rfl (fun _ => rfl) (fun _ _ _ => rfl) (fun t => by rw [hafter]; unfold Dat.blockOf block3; rw [hA]; try rfl) t d).trans
    (by unfold Dat.fetched Dat.blockOf block3; rw [hA]; try rfl)

/-- Input operand 6's staging buffer holds its block at every point, whether or not that point fetched it (a block that is
    not fetched again has not moved). -/
theorem held3_6_of {c : Dev nD} (dat : Dat τ (Elt F) Unit ℕ (UR sig nD τ) ℕ cfg3 c) (hA : dat.A 6 = V c (Pipeline.arrRef spec3 6))
    (hafter : ∀ t, dat.after 6 t = block3 V c 6 t) (t : Fin cfg3.N) (d) : dat.before 6 t d = block3 V c 6 t :=
  (dat.before_in_eq_fetched 6 rfl (fun _ => rfl) (fun _ _ _ => rfl) (fun t => by rw [hafter]; unfold Dat.blockOf block3; rw [hA]; try rfl) t d).trans
    (by unfold Dat.fetched Dat.blockOf block3; rw [hA]; try rfl)

/-- Input operand 7's staging buffer holds its block at every point, whether or not that point fetched it (a block that is
    not fetched again has not moved). -/
theorem held3_7_of {c : Dev nD} (dat : Dat τ (Elt F) Unit ℕ (UR sig nD τ) ℕ cfg3 c) (hA : dat.A 7 = V c (Pipeline.arrRef spec3 7))
    (hafter : ∀ t, dat.after 7 t = block3 V c 7 t) (t : Fin cfg3.N) (d) : dat.before 7 t d = block3 V c 7 t :=
  (dat.before_in_eq_fetched 7 rfl (fun _ => rfl) (fun _ _ _ => rfl) (fun t => by rw [hafter]; unfold Dat.blockOf block3; rw [hA]; try rfl) t d).trans
    (by unfold Dat.fetched Dat.blockOf block3; rw [hA]; try rfl)

/-- Input operand 8's staging buffer holds its block at every point, whether or not that point fetched it (a block that is
    not fetched again has not moved). -/
theorem held3_8_of {c : Dev nD} (dat : Dat τ (Elt F) Unit ℕ (UR sig nD τ) ℕ cfg3 c) (hA : dat.A 8 = V c (Pipeline.arrRef spec3 8))
    (hafter : ∀ t, dat.after 8 t = block3 V c 8 t) (t : Fin cfg3.N) (d) : dat.before 8 t d = block3 V c 8 t :=
  (dat.before_in_eq_fetched 8 rfl (fun _ => rfl) (fun _ _ _ => rfl) (fun t => by rw [hafter]; unfold Dat.blockOf block3; rw [hA]; try rfl) t d).trans
    (by unfold Dat.fetched Dat.blockOf block3; rw [hA]; try rfl)

/-- The whole 2000 x 128 tile, the whole 128 x 128 matrix and the whole 1 x 128 row: the body's accesses. -/
abbrev tileRect3 : Rect S2000x128 := Rect.unit (s := S2000x128) ![0, 0] S2000x128.size inb_S2000x128_S2000x128_0_0
abbrev weightRect3 : Rect S128x128 := Rect.unit (s := S128x128) ![0, 0] S128x128.size inb_S128x128_S128x128_0_0
abbrev rowRect3 : Rect S1x128 := Rect.unit (s := S1x128) ![0, 0] S1x128.size inb_S1x128_S1x128_0_0

/-- The output tile after the body, from the input blocks: one store of the whole tile, of the sum of the products plus the bias row. -/
def tile3 (x0 : Vec F S2000x128 .f32) (x1 : Vec F S2000x128 .f32) (x2 : Vec F S2000x128 .f32) (x3 : Vec F S2000x128 .f32) (x4 : Vec F S128x128 .f32) (x5 : Vec F S128x128 .f32) (x6 : Vec F S128x128 .f32) (x7 : Vec F S128x128 .f32) (x8 : Vec F S1x128 .f32) : Vec F S2000x128 .f32 :=
  View.canon [⟨tileRect3, k3_pay1 (View.ld x0 tileRect3) (View.ld x4 weightRect3) (View.ld x1 tileRect3) (View.ld x5 weightRect3) (View.ld x2 tileRect3) (View.ld x6 weightRect3) (View.ld x3 tileRect3) (View.ld x7 weightRect3) (View.ld x8 rowRect3)⟩]

/-- That one store covers the tile. -/
theorem tile3_covered (p0 : Vec F S2000x128 .f32) (y : S2000x128.Idx) :
    ∃ pc ∈ ([⟨tileRect3, p0⟩] : List (View.Piece (Elt F) S2000x128 .f32)), y ∈ pc.1.set :=
  View.cover_of_tiled [⟨tileRect3, p0⟩] S2000x128.size (by rfl) y

set_option maxHeartbeats 4000000 in
/-- The body on whole staging buffers, the inputs' at contents `x` and the output's at anything, runs to its end leaving the
    inputs as they were and the output at `tile3` of them. -/
theorem body3_triple (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S2000x128 .f32) (x3 : Vec F S2000x128 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (tile3 x0 x1 x2 x3 x4 x5 x6 x7 x8)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8 arg9 harg9) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (tile3_covered _)

/-- The launch's proof data on core `c`: the arrays as the region finds them; after the body at a point each input's buffer
    still at its block and the output's at `tile3` of the blocks; nothing else held, nothing owed. -/
def data3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => block3 V c 3 t
    | ⟨4, _⟩ => block3 V c 4 t
    | ⟨5, _⟩ => block3 V c 5 t
    | ⟨6, _⟩ => block3 V c 6 t
    | ⟨7, _⟩ => block3 V c 7 t
    | ⟨8, _⟩ => block3 V c 8 t
    | ⟨9, _⟩ => tile3 (block3 V c 0 t) (block3 V c 1 t) (block3 V c 2 t) (block3 V c 3 t) (block3 V c 4 t) (block3 V c 5 t) (block3 V c 6 t) (block3 V c 7 t) (block3 V c 8 t)
  Φ _ := Pipeline.ΦA spec3 c
  q _ := fullShare
  owed _ := 0

theorem data3_A (c : Dev nD) (w : Fin cfg3.W) : (data3 V c).A w = V c (Pipeline.arrRef spec3 w) := by
  dsimp only [data3]

theorem data3_after_0 (c : Dev nD) (t : Fin cfg3.N) : (data3 V c).after 0 t = block3 V c 0 t := by dsimp only [data3]
theorem data3_after_1 (c : Dev nD) (t : Fin cfg3.N) : (data3 V c).after 1 t = block3 V c 1 t := by dsimp only [data3]
theorem data3_after_2 (c : Dev nD) (t : Fin cfg3.N) : (data3 V c).after 2 t = block3 V c 2 t := by dsimp only [data3]
theorem data3_after_3 (c : Dev nD) (t : Fin cfg3.N) : (data3 V c).after 3 t = block3 V c 3 t := by dsimp only [data3]
theorem data3_after_4 (c : Dev nD) (t : Fin cfg3.N) : (data3 V c).after 4 t = block3 V c 4 t := by dsimp only [data3]
theorem data3_after_5 (c : Dev nD) (t : Fin cfg3.N) : (data3 V c).after 5 t = block3 V c 5 t := by dsimp only [data3]
theorem data3_after_6 (c : Dev nD) (t : Fin cfg3.N) : (data3 V c).after 6 t = block3 V c 6 t := by dsimp only [data3]
theorem data3_after_7 (c : Dev nD) (t : Fin cfg3.N) : (data3 V c).after 7 t = block3 V c 7 t := by dsimp only [data3]
theorem data3_after_8 (c : Dev nD) (t : Fin cfg3.N) : (data3 V c).after 8 t = block3 V c 8 t := by dsimp only [data3]
theorem data3_after_9 (c : Dev nD) (t : Fin cfg3.N) : (data3 V c).after 9 t = tile3 (block3 V c 0 t) (block3 V c 1 t) (block3 V c 2 t) (block3 V c 3 t) (block3 V c 4 t) (block3 V c 5 t) (block3 V c 6 t) (block3 V c 7 t) (block3 V c 8 t) := by dsimp only [data3]

theorem data3_before_0 (c : Dev nD) (t : Fin cfg3.N) (d) : (data3 V c).before 0 t d = block3 V c 0 t :=
  held3_0_of V (data3 V c) (data3_A V c 0) (data3_after_0 V c) t d
theorem data3_before_1 (c : Dev nD) (t : Fin cfg3.N) (d) : (data3 V c).before 1 t d = block3 V c 1 t :=
  held3_1_of V (data3 V c) (data3_A V c 1) (data3_after_1 V c) t d
theorem data3_before_2 (c : Dev nD) (t : Fin cfg3.N) (d) : (data3 V c).before 2 t d = block3 V c 2 t :=
  held3_2_of V (data3 V c) (data3_A V c 2) (data3_after_2 V c) t d
theorem data3_before_3 (c : Dev nD) (t : Fin cfg3.N) (d) : (data3 V c).before 3 t d = block3 V c 3 t :=
  held3_3_of V (data3 V c) (data3_A V c 3) (data3_after_3 V c) t d
theorem data3_before_4 (c : Dev nD) (t : Fin cfg3.N) (d) : (data3 V c).before 4 t d = block3 V c 4 t :=
  held3_4_of V (data3 V c) (data3_A V c 4) (data3_after_4 V c) t d
theorem data3_before_5 (c : Dev nD) (t : Fin cfg3.N) (d) : (data3 V c).before 5 t d = block3 V c 5 t :=
  held3_5_of V (data3 V c) (data3_A V c 5) (data3_after_5 V c) t d
theorem data3_before_6 (c : Dev nD) (t : Fin cfg3.N) (d) : (data3 V c).before 6 t d = block3 V c 6 t :=
  held3_6_of V (data3 V c) (data3_A V c 6) (data3_after_6 V c) t d
theorem data3_before_7 (c : Dev nD) (t : Fin cfg3.N) (d) : (data3 V c).before 7 t d = block3 V c 7 t :=
  held3_7_of V (data3 V c) (data3_A V c 7) (data3_after_7 V c) t d
theorem data3_before_8 (c : Dev nD) (t : Fin cfg3.N) (d) : (data3 V c).before 8 t d = block3 V c 8 t :=
  held3_8_of V (data3 V c) (data3_A V c 8) (data3_after_8 V c) t d

/-- What the body is called with at point `t`, operand by operand, -/
def pre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d))
    ∗ (∃ d, owns (c : Thread nD τ) (st3_6 t) fullShare ((data3 V c).before 6 t d))
    ∗ (∃ d, owns (c : Thread nD τ) (st3_7 t) fullShare ((data3 V c).before 7 t d))
    ∗ (∃ d, owns (c : Thread nD τ) (st3_8 t) fullShare ((data3 V c).before 8 t d))
    ∗ (∃ d, owns (c : Thread nD τ) (st3_9 t) fullShare ((data3 V c).before 9 t d)))

/-- and what it returns. -/
def post3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t)
    ∗ owns (c : Thread nD τ) (st3_6 t) fullShare ((data3 V c).after 6 t)
    ∗ owns (c : Thread nD τ) (st3_7 t) fullShare ((data3 V c).after 7 t)
    ∗ owns (c : Thread nD τ) (st3_8 t) fullShare ((data3 V c).after 8 t)
    ∗ owns (c : Thread nD τ) (st3_9 t) fullShare ((data3 V c).after 9 t))

/-- The body at any point: the inputs' buffers hold their blocks, so the triple applies; the rest passes through unread. -/
theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [data3_before_0, data3_before_1, data3_before_2, data3_before_3, data3_before_4, data3_before_5, data3_before_6, data3_before_7, data3_before_8]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5, data3_after_6, data3_after_7, data3_after_8, data3_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body3_triple c Set.univ _ _ _ _ _ _ _ _ _ _ _ _ _ _ _ _ _ _ _ _ _ (block3 V c 0 t) (block3 V c 1 t) (block3 V c 2 t) (block3 V c 3 t) (block3 V c 4 t) (block3 V c 5 t) (block3 V c 6 t) (block3 V c 7 t) (block3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's per-point obligation. -/
theorem body3_obligation (c : Dev nD) : BodyObligation (data3 (F := F) V c) (defs₀ (F := F)) Variants.none () Set.univ := fun t => by
  rw [bigSep_W3, bigSep_W3]
  exact body3_at V c t

end Cert.KernelIdeal.Rgn

end
-- ==== Proof.IdealRun.lean ====
/-
  The whole program as a run of segments: stretches of host operations and the four kernel launches, in the program's order.
  The device's buffer contents are followed from the launch through every segment boundary (`at0` … `at11`): a host stretch
  applies its operations; a launch leaves its input arrays as they were and its output array at what the grid's write-backs
  leave. The run ends with every buffer at `at11`; the argument arrays are then read back to their launch contents.
-/
import proofs.«139170_j4398046511496_1_alg».proof.Proof.IdealRegion0
import proofs.«139170_j4398046511496_1_alg».proof.Proof.IdealRegion1
import proofs.«139170_j4398046511496_1_alg».proof.Proof.IdealRegion2
import proofs.«139170_j4398046511496_1_alg».proof.Proof.IdealRegion3

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At the launch. -/
abbrev at0 : Dev nD → Valuation τ sig (Elt F) := fun c b => (s₀ m ρ).mem ((c : Dev nD), b)
/-- After the host stretch `main_part0_ops0`. -/
abbrev at1 : Dev nD → Valuation τ sig (Elt F) := fun c => StableHlo.after main_part0_ops0 (at0 m ρ c)
/-- After the host stretch `main_part1_ops0`. -/
abbrev at2 : Dev nD → Valuation τ sig (Elt F) := fun c => StableHlo.after main_part1_ops0 (at1 m ρ c)
/-- After the host stretch `main_part2_ops0`. -/
abbrev at3 : Dev nD → Valuation τ sig (Elt F) := fun c => StableHlo.after main_part2_ops0 (at2 m ρ c)
/-- The same, read at the TensorCore's references: what launch 0 finds. -/
abbrev entry0 : (c : Dev nD) → (b : Ref sig .tc) → Buf (Elt F) ((c : Thread nD τ).loc b) := fun c b => at3 m ρ c b
/-- After launch 0: its arrays at what the pipeline leaves, every other buffer as before. -/
def at4 (c : Dev nD) : Valuation τ sig (Elt F) :=
  Pipeline.withArrays spec0 c (at3 m ρ c) fun w => (data0 (entry0 m ρ) c).arrAt w cfg0.N
theorem at4_arr (c : Dev nD) (w : Fin cfg0.W) :
    at4 m ρ c (Proc.devRef .tc (Pipeline.arrRef spec0 w)) = (data0 (entry0 m ρ) c).arrAt w cfg0.N := by
  unfold at4; exact Pipeline.withArrays_arr spec0 launch0.win.arr_inj c _ _ w
theorem at4_of_ne (c : Dev nD) (b : Ref sig .tc) (hb : ∀ w, Pipeline.arrRef spec0 w ≠ b) :
    at4 m ρ c (Proc.devRef .tc b) = at3 m ρ c (Proc.devRef .tc b) := by
  unfold at4; exact Pipeline.withArrays_of_ne spec0 c _ _ b hb
abbrev exit0 : (c : Dev nD) → (b : Ref sig .tc) → Buf (Elt F) ((c : Thread nD τ).loc b) := fun c b => at4 m ρ c b
theorem left0 (c : Dev nD) (w : Fin cfg0.W) : (data0 (entry0 m ρ) c).arrAt w cfg0.N = exit0 m ρ c (Pipeline.arrRef spec0 w) :=
  (at4_arr m ρ c w).symm
theorem kept0 (c : Dev nD) : ∀ b, b ∉ Finset.univ.image (Pipeline.arrRef spec0) → exit0 m ρ c b = entry0 m ρ c b :=
  fun b hb => at4_of_ne m ρ c b fun w e => hb (Finset.mem_image.mpr ⟨w, Finset.mem_univ _, e⟩)
/-- After the host stretch `main_part2_ops1`. -/
abbrev at5 : Dev nD → Valuation τ sig (Elt F) := fun c => StableHlo.after main_part2_ops1 (at4 m ρ c)
/-- The same, read at the TensorCore's references: what launch 1 finds. -/
abbrev entry1 : (c : Dev nD) → (b : Ref sig .tc) → Buf (Elt F) ((c : Thread nD τ).loc b) := fun c b => at5 m ρ c b
/-- After launch 1: its arrays at what the pipeline leaves, every other buffer as before. -/
def at6 (c : Dev nD) : Valuation τ sig (Elt F) :=
  Pipeline.withArrays spec1 c (at5 m ρ c) fun w => (data1 (entry1 m ρ) c).arrAt w cfg1.N
theorem at6_arr (c : Dev nD) (w : Fin cfg1.W) :
    at6 m ρ c (Proc.devRef .tc (Pipeline.arrRef spec1 w)) = (data1 (entry1 m ρ) c).arrAt w cfg1.N := by
  unfold at6; exact Pipeline.withArrays_arr spec1 launch1.win.arr_inj c _ _ w
theorem at6_of_ne (c : Dev nD) (b : Ref sig .tc) (hb : ∀ w, Pipeline.arrRef spec1 w ≠ b) :
    at6 m ρ c (Proc.devRef .tc b) = at5 m ρ c (Proc.devRef .tc b) := by
  unfold at6; exact Pipeline.withArrays_of_ne spec1 c _ _ b hb
abbrev exit1 : (c : Dev nD) → (b : Ref sig .tc) → Buf (Elt F) ((c : Thread nD τ).loc b) := fun c b => at6 m ρ c b
theorem left1 (c : Dev nD) (w : Fin cfg1.W) : (data1 (entry1 m ρ) c).arrAt w cfg1.N = exit1 m ρ c (Pipeline.arrRef spec1 w) :=
  (at6_arr m ρ c w).symm
theorem kept1 (c : Dev nD) : ∀ b, b ∉ Finset.univ.image (Pipeline.arrRef spec1) → exit1 m ρ c b = entry1 m ρ c b :=
  fun b hb => at6_of_ne m ρ c b fun w e => hb (Finset.mem_image.mpr ⟨w, Finset.mem_univ _, e⟩)
/-- After the host stretch `main_part2_ops2`. -/
abbrev at7 : Dev nD → Valuation τ sig (Elt F) := fun c => StableHlo.after main_part2_ops2 (at6 m ρ c)
/-- The same, read at the TensorCore's references: what launch 2 finds. -/
abbrev entry2 : (c : Dev nD) → (b : Ref sig .tc) → Buf (Elt F) ((c : Thread nD τ).loc b) := fun c b => at7 m ρ c b
/-- After launch 2: its arrays at what the pipeline leaves, every other buffer as before. -/
def at8 (c : Dev nD) : Valuation τ sig (Elt F) :=
  Pipeline.withArrays spec2 c (at7 m ρ c) fun w => (data2 (entry2 m ρ) c).arrAt w cfg2.N
theorem at8_arr (c : Dev nD) (w : Fin cfg2.W) :
    at8 m ρ c (Proc.devRef .tc (Pipeline.arrRef spec2 w)) = (data2 (entry2 m ρ) c).arrAt w cfg2.N := by
  unfold at8; exact Pipeline.withArrays_arr spec2 launch2.win.arr_inj c _ _ w
theorem at8_of_ne (c : Dev nD) (b : Ref sig .tc) (hb : ∀ w, Pipeline.arrRef spec2 w ≠ b) :
    at8 m ρ c (Proc.devRef .tc b) = at7 m ρ c (Proc.devRef .tc b) := by
  unfold at8; exact Pipeline.withArrays_of_ne spec2 c _ _ b hb
abbrev exit2 : (c : Dev nD) → (b : Ref sig .tc) → Buf (Elt F) ((c : Thread nD τ).loc b) := fun c b => at8 m ρ c b
theorem left2 (c : Dev nD) (w : Fin cfg2.W) : (data2 (entry2 m ρ) c).arrAt w cfg2.N = exit2 m ρ c (Pipeline.arrRef spec2 w) :=
  (at8_arr m ρ c w).symm
theorem kept2 (c : Dev nD) : ∀ b, b ∉ Finset.univ.image (Pipeline.arrRef spec2) → exit2 m ρ c b = entry2 m ρ c b :=
  fun b hb => at8_of_ne m ρ c b fun w e => hb (Finset.mem_image.mpr ⟨w, Finset.mem_univ _, e⟩)
/-- After the host stretch `main_part3_ops0`. -/
abbrev at9 : Dev nD → Valuation τ sig (Elt F) := fun c => StableHlo.after main_part3_ops0 (at8 m ρ c)
/-- The same, read at the TensorCore's references: what launch 3 finds. -/
abbrev entry3 : (c : Dev nD) → (b : Ref sig .tc) → Buf (Elt F) ((c : Thread nD τ).loc b) := fun c b => at9 m ρ c b
/-- After launch 3: its arrays at what the pipeline leaves, every other buffer as before. -/
def at10 (c : Dev nD) : Valuation τ sig (Elt F) :=
  Pipeline.withArrays spec3 c (at9 m ρ c) fun w => (data3 (entry3 m ρ) c).arrAt w cfg3.N
theorem at10_arr (c : Dev nD) (w : Fin cfg3.W) :
    at10 m ρ c (Proc.devRef .tc (Pipeline.arrRef spec3 w)) = (data3 (entry3 m ρ) c).arrAt w cfg3.N := by
  unfold at10; exact Pipeline.withArrays_arr spec3 launch3.win.arr_inj c _ _ w
theorem at10_of_ne (c : Dev nD) (b : Ref sig .tc) (hb : ∀ w, Pipeline.arrRef spec3 w ≠ b) :
    at10 m ρ c (Proc.devRef .tc b) = at9 m ρ c (Proc.devRef .tc b) := by
  unfold at10; exact Pipeline.withArrays_of_ne spec3 c _ _ b hb
abbrev exit3 : (c : Dev nD) → (b : Ref sig .tc) → Buf (Elt F) ((c : Thread nD τ).loc b) := fun c b => at10 m ρ c b
theorem left3 (c : Dev nD) (w : Fin cfg3.W) : (data3 (entry3 m ρ) c).arrAt w cfg3.N = exit3 m ρ c (Pipeline.arrRef spec3 w) :=
  (at10_arr m ρ c w).symm
theorem kept3 (c : Dev nD) : ∀ b, b ∉ Finset.univ.image (Pipeline.arrRef spec3) → exit3 m ρ c b = entry3 m ρ c b :=
  fun b hb => at10_of_ne m ρ c b fun w e => hb (Finset.mem_image.mpr ⟨w, Finset.mem_univ _, e⟩)
/-- After the host stretch `main_part3_ops1`. -/
abbrev at11 : Dev nD → Valuation τ sig (Elt F) := fun c => StableHlo.after main_part3_ops1 (at10 m ρ c)

/-! ## The proof data of the four launches, and what rides beside the buffers -/

abbrev adm : (p : Fin 4) → (pcfgs (F := F) p).Adm := fun p => (cfgs p).toPCfg_adm
/-- Every launch's proof data at its entry contents. -/
def pdats : (p : Fin 4) → (c : Dev nD) → Dat τ (Elt F) Unit ℕ (UR sig nD τ) ℕ (Pipeline.pin (pcfgs (F := F)) adm p) c
  | ⟨0, _⟩ => fun c => data0 (entry0 m ρ) c
  | ⟨1, _⟩ => fun c => data1 (entry1 m ρ) c
  | ⟨2, _⟩ => fun c => data2 (entry2 m ρ) c
  | ⟨3, _⟩ => fun c => data3 (entry3 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A host stretch as a segment over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0: entered with every unscoped buffer at `at3`, left with them at `at4`. Its arrays are split out of the
    unscoped buffers and put back at the exit contents; the generator register goes into the launch's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (entry0 m ρ) c).loose
  hwaits := Pipeline.hwaits_of_owed_zero _ _ _ _ L lv 0 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (exit0 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered with every unscoped buffer at `at5`, left with them at `at6`. Its arrays are split out of the
    unscoped buffers and put back at the exit contents; the generator register goes into the launch's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (entry1 m ρ) c).loose
  hwaits := Pipeline.hwaits_of_owed_zero _ _ _ _ L lv 1 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered with every unscoped buffer at `at7`, left with them at `at8`. Its arrays are split out of the
    unscoped buffers and put back at the exit contents; the generator register goes into the launch's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (entry2 m ρ) c).loose
  hwaits := Pipeline.hwaits_of_owed_zero _ _ _ _ L lv 2 fun _ _ => rfl
  pre c := iprop(StableHlo.held (c : Thread nD τ) (Pipeline.ucRefs τ sig) (at7 m ρ c) ∗ R c)
  post c := iprop(StableHlo.held (c : Thread nD τ) (Pipeline.ucRefs τ sig) (at8 m ρ c) ∗ R c)
  X c := iprop(∃ r, prngReg c r)
  Y c := iprop(∃ r, prngReg c r)
  Z c := Pipeline.unscopedRest (Ix := Unit) (Name := ℕ) (U := UR sig nD τ) (Lvl := ℕ) spec2 c (entry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (entry2 m ρ c) (exit2 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered with every unscoped buffer at `at9`, left with them at `at10`. Its arrays are split out of the
    unscoped buffers and put back at the exit contents; the generator register goes into the launch's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body3_obligation (entry3 m ρ) c).loose
  hwaits := Pipeline.hwaits_of_owed_zero _ _ _ _ L lv 3 fun _ _ => rfl
  pre c := iprop(StableHlo.held (c : Thread nD τ) (Pipeline.ucRefs τ sig) (at9 m ρ c) ∗ R c)
  post c := iprop(StableHlo.held (c : Thread nD τ) (Pipeline.ucRefs τ sig) (at10 m ρ c) ∗ R c)
  X c := iprop(∃ r, prngReg c r)
  Y c := iprop(∃ r, prngReg c r)
  Z c := Pipeline.unscopedRest (Ix := Unit) (Name := ℕ) (U := UR sig nD τ) (Lvl := ℕ) spec3 c (entry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (entry3 m ρ c) (exit3 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg main_part0_ops0 main_part0_ops0_sub main_part0_ops0_fresh (at0 m ρ)),
    .host (hseg main_part1_ops0 main_part1_ops0_sub main_part1_ops0_fresh (at1 m ρ)),
    .host (hseg main_part2_ops0 main_part2_ops0_sub main_part2_ops0_fresh (at2 m ρ)),
    .region (reg0 m ρ),
    .host (hseg main_part2_ops1 main_part2_ops1_sub main_part2_ops1_fresh (at4 m ρ)),
    .region (reg1 m ρ),
    .host (hseg main_part2_ops2 main_part2_ops2_sub main_part2_ops2_fresh (at6 m ρ)),
    .region (reg2 m ρ),
    .host (hseg main_part3_ops0 main_part3_ops0_sub main_part3_ops0_fresh (at8 m ρ)),
    .region (reg3 m ρ),
    .host (hseg main_part3_ops1 main_part3_ops1_sub main_part3_ops1_fresh (at10 m ρ)) ]

theorem main_run (c : Dev nD) : main (F := F) c = Pipeline.Seg.run (segs m ρ) := (main_chain_windows c).trans (by chain_rfl)

/-- The last thread state without what the core owes: every unscoped buffer at `at11`, the generator register at some state. -/
abbrev Tlast (c : Dev nD) : sProp 𝕄 := iprop(StableHlo.held (c : Thread nD τ) (Pipeline.ucRefs τ sig) (at11 m ρ c) ∗ ∃ r, prngReg c r)

set_option backward.isDefEq.respectTransparency.types false in
/-- From any memory with zero counters, every weakly fair execution of the program terminates, nothing faulting, and in every
    final state each unscoped buffer holds its contents at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tlast m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (at11 m ρ c) ∗ R c)
          ⊢ iprop(Tlast m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at11 m ρ c b)
    (hfin := fun c s' => by
      iintro ⟨⟨Hh, -⟩, HSI⟩
      unfold StableHlo.held
      imodintro
      iapply (pointsTo_read_all (Pipeline.ucRefs τ sig) (fun b => (((c : Thread nD τ)).1, b)) (at11 m ρ c) s')
      isplitl [Hh] <;> iassumption)
    (hQ := fun s h => h)

end Cert.KernelIdeal.Rgn

end
-- ==== Proof.IdealArgs.lean ====
/-
  No segment changes an argument array. A host stretch changes only the buffers its operations write (listed here, stretch by
  stretch); a launch changes only its output array. So each argument's buffer at the last boundary is read back, boundary by
  boundary, to the launch memory: the frame.
-/
import proofs.«139170_j4398046511496_1_alg».proof.Proof.IdealRun

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

abbrev s0_written : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_c_4, main_v19, main_v20, main_c_5, main_v21, main_v22, main_v23, main_v24, main_v25, main_cst_6, main_v26, main_v27, main_v28, main_cst_7, main_v29, main_cst_8, main_v30, main_v31, main_v32, main_cst_9, main_v33, main_v34, main_v35, main_v36, main_v37, main_c_10, main_v38, main_v39, main_c_11, main_v40, main_v41, main_v42, main_v43, main_v44, main_cst_12]
set_option maxRecDepth 8192 in
set_option maxHeartbeats 4000000 in
theorem s0_writes : (main_part0_ops0 : List (HloOp τ sig (Elt F))).Forall fun op => op.writes ⊆ (s0_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at1_keep (c : Dev nD) (r : Ref sig .tc) (h : r ∉ s0_written) :
    at1 m ρ c (Proc.devRef .tc r) = at0 m ρ c (Proc.devRef .tc r) :=
  StableHlo.after_of_writes_sub main_part0_ops0 _ s0_writes h

abbrev s1_written : List (Ref sig .tc) := [main_v45, main_v46, main_v47, main_cst_13, main_v48, main_cst_14, main_v49, main_v50, main_v51, main_cst_15, main_v52, main_v53, main_v54, main_v55, main_v56, main_c_16, main_v57, main_v58, main_c_17, main_v59, main_v60, main_v61, main_v62, main_v63, main_cst_18, main_v64, main_v65, main_v66, main_cst_19, main_v67, main_cst_20, main_v68, main_v69, main_v70, main_cst_21, main_v71, main_v72, main_v73, main_v74, main_v75, main_c_22, main_v76, main_v77, main_c_23, main_v78, main_v79, main_v80, main_v81, main_v82, main_cst_24, main_v83, main_v84, main_v85, main_cst_25, main_v86, main_cst_26, main_v87, main_v88, main_v89, main_cst_27]
set_option maxRecDepth 8192 in
set_option maxHeartbeats 4000000 in
theorem s1_writes : (main_part1_ops0 : List (HloOp τ sig (Elt F))).Forall fun op => op.writes ⊆ (s1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at2_keep (c : Dev nD) (r : Ref sig .tc) (h : r ∉ s1_written) :
    at2 m ρ c (Proc.devRef .tc r) = at1 m ρ c (Proc.devRef .tc r) :=
  StableHlo.after_of_writes_sub main_part1_ops0 _ s1_writes h

abbrev s2_written : List (Ref sig .tc) := [main_v90, main_v91, main_v92, main_v93, main_v94, main_c_28, main_v95, main_v96, main_c_29, main_v97, main_v98, main_v99, main_v100, main_v101, main_cst_30, main_v102, main_v103, main_v104, main_cst_31, main_v105, main_cst_32, main_v106, main_v107, main_v108, main_cst_33, main_v109, main_v110, main_v111, main_v112, main_v113, main_c_34, main_v114, main_v115, main_c_35, main_v116, main_v117, main_v118, main_v119, main_v120, main_cst_36, main_v121, main_v122, main_v123, main_cst_37, main_v124, main_cst_38, main_v125, main_v126, main_v127, main_cst_39, main_v128, main_v129, main_v130, main_v131, main_v132, main_v133]
set_option maxRecDepth 8192 in
set_option maxHeartbeats 4000000 in
theorem s2_writes : (main_part2_ops0 : List (HloOp τ sig (Elt F))).Forall fun op => op.writes ⊆ (s2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at3_keep (c : Dev nD) (r : Ref sig .tc) (h : r ∉ s2_written) :
    at3 m ρ c (Proc.devRef .tc r) = at2 m ρ c (Proc.devRef .tc r) :=
  StableHlo.after_of_writes_sub main_part2_ops0 _ s2_writes h

abbrev s3_written : List (Ref sig .tc) := [main_v135]
set_option maxRecDepth 8192 in
set_option maxHeartbeats 4000000 in
theorem s3_writes : (main_part2_ops1 : List (HloOp τ sig (Elt F))).Forall fun op => op.writes ⊆ (s3_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at5_keep (c : Dev nD) (r : Ref sig .tc) (h : r ∉ s3_written) :
    at5 m ρ c (Proc.devRef .tc r) = at4 m ρ c (Proc.devRef .tc r) :=
  StableHlo.after_of_writes_sub main_part2_ops1 _ s3_writes h

abbrev s4_written : List (Ref sig .tc) := [main_v137]
set_option maxRecDepth 8192 in
set_option maxHeartbeats 4000000 in
theorem s4_writes : (main_part2_ops2 : List (HloOp τ sig (Elt F))).Forall fun op => op.writes ⊆ (s4_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at7_keep (c : Dev nD) (r : Ref sig .tc) (h : r ∉ s4_written) :
    at7 m ρ c (Proc.devRef .tc r) = at6 m ρ c (Proc.devRef .tc r) :=
  StableHlo.after_of_writes_sub main_part2_ops2 _ s4_writes h

abbrev s5_written : List (Ref sig .tc) := [main_v139]
set_option maxRecDepth 8192 in
set_option maxHeartbeats 4000000 in
theorem s5_writes : (main_part3_ops0 : List (HloOp τ sig (Elt F))).Forall fun op => op.writes ⊆ (s5_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at9_keep (c : Dev nD) (r : Ref sig .tc) (h : r ∉ s5_written) :
    at9 m ρ c (Proc.devRef .tc r) = at8 m ρ c (Proc.devRef .tc r) :=
  StableHlo.after_of_writes_sub main_part3_ops0 _ s5_writes h

abbrev s6_written : List (Ref sig .tc) := [main_v141]
set_option maxRecDepth 8192 in
set_option maxHeartbeats 4000000 in
theorem s6_writes : (main_part3_ops1 : List (HloOp τ sig (Elt F))).Forall fun op => op.writes ⊆ (s6_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem at11_keep (c : Dev nD) (r : Ref sig .tc) (h : r ∉ s6_written) :
    at11 m ρ c (Proc.devRef .tc r) = at10 m ρ c (Proc.devRef .tc r) :=
  StableHlo.after_of_writes_sub main_part3_ops1 _ s6_writes h

/-! ## What each launch changes: its output array only -/

/-- Launch 0 leaves every buffer but its output array `main_v134` as it found it: an input array is put back as read, a
    buffer that is no operand is untouched. -/
theorem at4_keep (c : Dev nD) (b : Ref sig .tc) (hb : b ≠ main_v134) :
    at4 m ρ c (Proc.devRef .tc b) = at3 m ρ c (Proc.devRef .tc b) := by
  by_cases h : ∃ w, Pipeline.arrRef spec0 w = b
  · obtain ⟨w, rfl⟩ := h
    match w with
    | ⟨0, _⟩ => exact (at4_arr m ρ c 0).trans (((data0 (entry0 m ρ) c).arrAt_in 0 rfl _).trans (data0_A (entry0 m ρ) c 0))
    | ⟨1, _⟩ => exact (at4_arr m ρ c 1).trans (((data0 (entry0 m ρ) c).arrAt_in 1 rfl _).trans (data0_A (entry0 m ρ) c 1))
    | ⟨2, _⟩ => exact (at4_arr m ρ c 2).trans (((data0 (entry0 m ρ) c).arrAt_in 2 rfl _).trans (data0_A (entry0 m ρ) c 2))
    | ⟨3, _⟩ => exact (at4_arr m ρ c 3).trans (((data0 (entry0 m ρ) c).arrAt_in 3 rfl _).trans (data0_A (entry0 m ρ) c 3))
    | ⟨4, _⟩ => exact (at4_arr m ρ c 4).trans (((data0 (entry0 m ρ) c).arrAt_in 4 rfl _).trans (data0_A (entry0 m ρ) c 4))
    | ⟨5, _⟩ => exact (at4_arr m ρ c 5).trans (((data0 (entry0 m ρ) c).arrAt_in 5 rfl _).trans (data0_A (entry0 m ρ) c 5))
    | ⟨6, _⟩ => exact (at4_arr m ρ c 6).trans (((data0 (entry0 m ρ) c).arrAt_in 6 rfl _).trans (data0_A (entry0 m ρ) c 6))
    | ⟨7, _⟩ => exact absurd rfl hb
  · exact at4_of_ne m ρ c b (fun w e => h ⟨w, e⟩)

/-- Launch 1 leaves every buffer but its output array `main_v136` as it found it: an input array is put back as read, a
    buffer that is no operand is untouched. -/
theorem at6_keep (c : Dev nD) (b : Ref sig .tc) (hb : b ≠ main_v136) :
    at6 m ρ c (Proc.devRef .tc b) = at5 m ρ c (Proc.devRef .tc b) := by
  by_cases h : ∃ w, Pipeline.arrRef spec1 w = b
  · obtain ⟨w, rfl⟩ := h
    match w with
    | ⟨0, _⟩ => exact (at6_arr m ρ c 0).trans (((data1 (entry1 m ρ) c).arrAt_in 0 rfl _).trans (data1_A (entry1 m ρ) c 0))
    | ⟨1, _⟩ => exact (at6_arr m ρ c 1).trans (((data1 (entry1 m ρ) c).arrAt_in 1 rfl _).trans (data1_A (entry1 m ρ) c 1))
    | ⟨2, _⟩ => exact (at6_arr m ρ c 2).trans (((data1 (entry1 m ρ) c).arrAt_in 2 rfl _).trans (data1_A (entry1 m ρ) c 2))
    | ⟨3, _⟩ => exact (at6_arr m ρ c 3).trans (((data1 (entry1 m ρ) c).arrAt_in 3 rfl _).trans (data1_A (entry1 m ρ) c 3))
    | ⟨4, _⟩ => exact (at6_arr m ρ c 4).trans (((data1 (entry1 m ρ) c).arrAt_in 4 rfl _).trans (data1_A (entry1 m ρ) c 4))
    | ⟨5, _⟩ => exact absurd rfl hb
  · exact at6_of_ne m ρ c b (fun w e => h ⟨w, e⟩)

/-- Launch 2 leaves every buffer but its output array `main_v138` as it found it: an input array is put back as read, a
    buffer that is no operand is untouched. -/
theorem at8_keep (c : Dev nD) (b : Ref sig .tc) (hb : b ≠ main_v138) :
    at8 m ρ c (Proc.devRef .tc b) = at7 m ρ c (Proc.devRef .tc b) := by
  by_cases h : ∃ w, Pipeline.arrRef spec2 w = b
  · obtain ⟨w, rfl⟩ := h
    match w with
    | ⟨0, _⟩ => exact (at8_arr m ρ c 0).trans (((data2 (entry2 m ρ) c).arrAt_in 0 rfl _).trans (data2_A (entry2 m ρ) c 0))
    | ⟨1, _⟩ => exact (at8_arr m ρ c 1).trans (((data2 (entry2 m ρ) c).arrAt_in 1 rfl _).trans (data2_A (entry2 m ρ) c 1))
    | ⟨2, _⟩ => exact (at8_arr m ρ c 2).trans (((data2 (entry2 m ρ) c).arrAt_in 2 rfl _).trans (data2_A (entry2 m ρ) c 2))
    | ⟨3, _⟩ => exact (at8_arr m ρ c 3).trans (((data2 (entry2 m ρ) c).arrAt_in 3 rfl _).trans (data2_A (entry2 m ρ) c 3))
    | ⟨4, _⟩ => exact (at8_arr m ρ c 4).trans (((data2 (entry2 m ρ) c).arrAt_in 4 rfl _).trans (data2_A (entry2 m ρ) c 4))
    | ⟨5, _⟩ => exact absurd rfl hb
  · exact at8_of_ne m ρ c b (fun w e => h ⟨w, e⟩)

/-- Launch 3 leaves every buffer but its output array `main_v140` as it found it: an input array is put back as read, a
    buffer that is no operand is untouched. -/
theorem at10_keep (c : Dev nD) (b : Ref sig .tc) (hb : b ≠ main_v140) :
    at10 m ρ c (Proc.devRef .tc b) = at9 m ρ c (Proc.devRef .tc b) := by
  by_cases h : ∃ w, Pipeline.arrRef spec3 w = b
  · obtain ⟨w, rfl⟩ := h
    match w with
    | ⟨0, _⟩ => exact (at10_arr m ρ c 0).trans (((data3 (entry3 m ρ) c).arrAt_in 0 rfl _).trans (data3_A (entry3 m ρ) c 0))
    | ⟨1, _⟩ => exact (at10_arr m ρ c 1).trans (((data3 (entry3 m ρ) c).arrAt_in 1 rfl _).trans (data3_A (entry3 m ρ) c 1))
    | ⟨2, _⟩ => exact (at10_arr m ρ c 2).trans (((data3 (entry3 m ρ) c).arrAt_in 2 rfl _).trans (data3_A (entry3 m ρ) c 2))
    | ⟨3, _⟩ => exact (at10_arr m ρ c 3).trans (((data3 (entry3 m ρ) c).arrAt_in 3 rfl _).trans (data3_A (entry3 m ρ) c 3))
    | ⟨4, _⟩ => exact (at10_arr m ρ c 4).trans (((data3 (entry3 m ρ) c).arrAt_in 4 rfl _).trans (data3_A (entry3 m ρ) c 4))
    | ⟨5, _⟩ => exact (at10_arr m ρ c 5).trans (((data3 (entry3 m ρ) c).arrAt_in 5 rfl _).trans (data3_A (entry3 m ρ) c 5))
    | ⟨6, _⟩ => exact (at10_arr m ρ c 6).trans (((data3 (entry3 m ρ) c).arrAt_in 6 rfl _).trans (data3_A (entry3 m ρ) c 6))
    | ⟨7, _⟩ => exact (at10_arr m ρ c 7).trans (((data3 (entry3 m ρ) c).arrAt_in 7 rfl _).trans (data3_A (entry3 m ρ) c 7))
    | ⟨8, _⟩ => exact (at10_arr m ρ c 8).trans (((data3 (entry3 m ρ) c).arrAt_in 8 rfl _).trans (data3_A (entry3 m ρ) c 8))
    | ⟨9, _⟩ => exact absurd rfl hb
  · exact at10_of_ne m ρ c b (fun w e => h ⟨w, e⟩)

/-! ## An argument read back to the launch -/

/-- A buffer that no stretch writes and that is no launch's output array holds its launch contents at the last boundary. -/
theorem at11_untouched (c : Dev nD) (b : Ref sig .tc)
    (h0 : b ∉ s0_written) (h1 : b ∉ s1_written) (h2 : b ∉ s2_written) (h3 : b ∉ s3_written) (h4 : b ∉ s4_written)
    (h5 : b ∉ s5_written) (h6 : b ∉ s6_written)
    (o0 : b ≠ main_v134) (o1 : b ≠ main_v136) (o2 : b ≠ main_v138) (o3 : b ≠ main_v140) :
    at11 m ρ c (Proc.devRef .tc b) = m ((c : Thread nD τ).loc b) :=
  calc at11 m ρ c (Proc.devRef .tc b)
    _ = at10 m ρ c (Proc.devRef .tc b) := at11_keep m ρ c b h6
    _ = at9 m ρ c (Proc.devRef .tc b) := at10_keep m ρ c b o3
    _ = at8 m ρ c (Proc.devRef .tc b) := at9_keep m ρ c b h5
    _ = at7 m ρ c (Proc.devRef .tc b) := at8_keep m ρ c b o2
    _ = at6 m ρ c (Proc.devRef .tc b) := at7_keep m ρ c b h4
    _ = at5 m ρ c (Proc.devRef .tc b) := at6_keep m ρ c b o1
    _ = at4 m ρ c (Proc.devRef .tc b) := at5_keep m ρ c b h3
    _ = at3 m ρ c (Proc.devRef .tc b) := at4_keep m ρ c b o0
    _ = at2 m ρ c (Proc.devRef .tc b) := at3_keep m ρ c b h2
    _ = at1 m ρ c (Proc.devRef .tc b) := at2_keep m ρ c b h1
    _ = at0 m ρ c (Proc.devRef .tc b) := at1_keep m ρ c b h0
    _ = m ((c : Thread nD τ).loc b) := rfl

theorem at11_main_arg0 (c : Dev nD) : at11 m ρ c (Proc.devRef .tc main_arg0) = m ((c : Thread nD τ).loc main_arg0) :=
  at11_untouched m ρ c main_arg0 (by decide) (by decide) (by decide) (by decide) (by decide) (by decide) (by decide) (by decide) (by decide) (by decide) (by decide)
theorem at11_main_arg1 (c : Dev nD) : at11 m ρ c (Proc.devRef .tc main_arg1) = m ((c : Thread nD τ).loc main_arg1) :=
  at11_untouched m ρ c main_arg1 (by decide) (by decide) (by decide) (by decide) (by decide) (by decide) (by decide) (by decide) (by decide) (by decide) (by decide)
theorem at11_main_arg2 (c : Dev nD) : at11 m ρ c (Proc.devRef .tc main_arg2) = m ((c : Thread nD τ).loc main_arg2) :=
  at11_untouched m ρ c main_arg2 (by decide) (by decide) (by decide) (by decide) (by decide) (by decide) (by decide) (by decide) (by decide) (by decide) (by decide)
theorem at11_main_arg3 (c : Dev nD) : at11 m ρ c (Proc.devRef .tc main_arg3) = m ((c : Thread nD τ).loc main_arg3) :=
  at11_untouched m ρ c main_arg3 (by decide) (by decide) (by decide) (by decide) (by decide) (by decide) (by decide) (by decide) (by decide) (by decide) (by decide)
theorem at11_main_arg4 (c : Dev nD) : at11 m ρ c (Proc.devRef .tc main_arg4) = m ((c : Thread nD τ).loc main_arg4) :=
  at11_untouched m ρ c main_arg4 (by decide) (by decide) (by decide) (by decide) (by decide) (by decide) (by decide) (by decide) (by decide) (by decide) (by decide)
theorem at11_main_arg5 (c : Dev nD) : at11 m ρ c (Proc.devRef .tc main_arg5) = m ((c : Thread nD τ).loc main_arg5) :=
  at11_untouched m ρ c main_arg5 (by decide) (by decide) (by decide) (by decide) (by decide) (by decide) (by decide) (by decide) (by decide) (by decide) (by decide)
theorem at11_main_arg6 (c : Dev nD) : at11 m ρ c (Proc.devRef .tc main_arg6) = m ((c : Thread nD τ).loc main_arg6) :=
  at11_untouched m ρ c main_arg6 (by decide) (by decide) (by decide) (by decide) (by decide) (by decide) (by decide) (by decide) (by decide) (by decide) (by decide)
theorem at11_main_arg7 (c : Dev nD) : at11 m ρ c (Proc.devRef .tc main_arg7) = m ((c : Thread nD τ).loc main_arg7) :=
  at11_untouched m ρ c main_arg7 (by decide) (by decide) (by decide) (by decide) (by decide) (by decide) (by decide) (by decide) (by decide) (by decide) (by decide)
theorem at11_main_arg8 (c : Dev nD) : at11 m ρ c (Proc.devRef .tc main_arg8) = m ((c : Thread nD τ).loc main_arg8) :=
  at11_untouched m ρ c main_arg8 (by decide) (by decide) (by decide) (by decide) (by decide) (by decide) (by decide) (by decide) (by decide) (by decide) (by decide)
theorem at11_main_arg9 (c : Dev nD) : at11 m ρ c (Proc.devRef .tc main_arg9) = m ((c : Thread nD τ).loc main_arg9) :=
  at11_untouched m ρ c main_arg9 (by decide) (by decide) (by decide) (by decide) (by decide) (by decide) (by decide) (by decide) (by decide) (by decide) (by decide)
theorem at11_main_arg10 (c : Dev nD) : at11 m ρ c (Proc.devRef .tc main_arg10) = m ((c : Thread nD τ).loc main_arg10) :=
  at11_untouched m ρ c main_arg10 (by decide) (by decide) (by decide) (by decide) (by decide) (by decide) (by decide) (by decide) (by decide) (by decide) (by decide)
theorem at11_main_arg11 (c : Dev nD) : at11 m ρ c (Proc.devRef .tc main_arg11) = m ((c : Thread nD τ).loc main_arg11) :=
  at11_untouched m ρ c main_arg11 (by decide) (by decide) (by decide) (by decide) (by decide) (by decide) (by decide) (by decide) (by decide) (by decide) (by decide)
theorem at11_main_arg12 (c : Dev nD) : at11 m ρ c (Proc.devRef .tc main_arg12) = m ((c : Thread nD τ).loc main_arg12) :=
  at11_untouched m ρ c main_arg12 (by decide) (by decide) (by decide) (by decide) (by decide) (by decide) (by decide) (by decide) (by decide) (by decide) (by decide)
theorem at11_main_arg13 (c : Dev nD) : at11 m ρ c (Proc.devRef .tc main_arg13) = m ((c : Thread nD τ).loc main_arg13) :=
  at11_untouched m ρ c main_arg13 (by decide) (by decide) (by decide) (by decide) (by decide) (by decide) (by decide) (by decide) (by decide) (by decide) (by decide)
theorem at11_main_arg14 (c : Dev nD) : at11 m ρ c (Proc.devRef .tc main_arg14) = m ((c : Thread nD τ).loc main_arg14) :=
  at11_untouched m ρ c main_arg14 (by decide) (by decide) (by decide) (by decide) (by decide) (by decide) (by decide) (by decide) (by decide) (by decide) (by decide)
theorem at11_main_arg15 (c : Dev nD) : at11 m ρ c (Proc.devRef .tc main_arg15) = m ((c : Thread nD τ).loc main_arg15) :=
  at11_untouched m ρ c main_arg15 (by decide) (by decide) (by decide) (by decide) (by decide) (by decide) (by decide) (by decide) (by decide) (by decide) (by decide)
theorem at11_main_arg16 (c : Dev nD) : at11 m ρ c (Proc.devRef .tc main_arg16) = m ((c : Thread nD τ).loc main_arg16) :=
  at11_untouched m ρ c main_arg16 (by decide) (by decide) (by decide) (by decide) (by decide) (by decide) (by decide) (by decide) (by decide) (by decide) (by decide)
theorem at11_main_arg17 (c : Dev nD) : at11 m ρ c (Proc.devRef .tc main_arg17) = m ((c : Thread nD τ).loc main_arg17) :=
  at11_untouched m ρ c main_arg17 (by decide) (by decide) (by decide) (by decide) (by decide) (by decide) (by decide) (by decide) (by decide) (by decide) (by decide)
theorem at11_main_arg18 (c : Dev nD) : at11 m ρ c (Proc.devRef .tc main_arg18) = m ((c : Thread nD τ).loc main_arg18) :=
  at11_untouched m ρ c main_arg18 (by decide) (by decide) (by decide) (by decide) (by decide) (by decide) (by decide) (by decide) (by decide) (by decide) (by decide)
theorem at11_main_arg19 (c : Dev nD) : at11 m ρ c (Proc.devRef .tc main_arg19) = m ((c : Thread nD τ).loc main_arg19) :=
  at11_untouched m ρ c main_arg19 (by decide) (by decide) (by decide) (by decide) (by decide) (by decide) (by decide) (by decide) (by decide) (by decide) (by decide)
theorem at11_main_arg20 (c : Dev nD) : at11 m ρ c (Proc.devRef .tc main_arg20) = m ((c : Thread nD τ).loc main_arg20) :=
  at11_untouched m ρ c main_arg20 (by decide) (by decide) (by decide) (by decide) (by decide) (by decide) (by decide) (by decide) (by decide) (by decide) (by decide)
theorem at11_main_arg21 (c : Dev nD) : at11 m ρ c (Proc.devRef .tc main_arg21) = m ((c : Thread nD τ).loc main_arg21) :=
  at11_untouched m ρ c main_arg21 (by decide) (by decide) (by decide) (by decide) (by decide) (by decide) (by decide) (by decide) (by decide) (by decide) (by decide)
theorem at11_main_arg22 (c : Dev nD) : at11 m ρ c (Proc.devRef .tc main_arg22) = m ((c : Thread nD τ).loc main_arg22) :=
  at11_untouched m ρ c main_arg22 (by decide) (by decide) (by decide) (by decide) (by decide) (by decide) (by decide) (by decide) (by decide) (by decide) (by decide)
theorem at11_main_arg23 (c : Dev nD) : at11 m ρ c (Proc.devRef .tc main_arg23) = m ((c : Thread nD τ).loc main_arg23) :=
  at11_untouched m ρ c main_arg23 (by decide) (by decide) (by decide) (by decide) (by decide) (by decide) (by decide) (by decide) (by decide) (by decide) (by decide)
theorem at11_main_arg24 (c : Dev nD) : at11 m ρ c (Proc.devRef .tc main_arg24) = m ((c : Thread nD τ).loc main_arg24) :=
  at11_untouched m ρ c main_arg24 (by decide) (by decide) (by decide) (by decide) (by decide) (by decide) (by decide) (by decide) (by decide) (by decide) (by decide)
theorem at11_main_arg25 (c : Dev nD) : at11 m ρ c (Proc.devRef .tc main_arg25) = m ((c : Thread nD τ).loc main_arg25) :=
  at11_untouched m ρ c main_arg25 (by decide) (by decide) (by decide) (by decide) (by decide) (by decide) (by decide) (by decide) (by decide) (by decide) (by decide)
theorem at11_main_arg26 (c : Dev nD) : at11 m ρ c (Proc.devRef .tc main_arg26) = m ((c : Thread nD τ).loc main_arg26) :=
  at11_untouched m ρ c main_arg26 (by decide) (by decide) (by decide) (by decide) (by decide) (by decide) (by decide) (by decide) (by decide) (by decide) (by decide)
theorem at11_main_arg27 (c : Dev nD) : at11 m ρ c (Proc.devRef .tc main_arg27) = m ((c : Thread nD τ).loc main_arg27) :=
  at11_untouched m ρ c main_arg27 (by decide) (by decide) (by decide) (by decide) (by decide) (by decide) (by decide) (by decide) (by decide) (by decide) (by decide)
theorem at11_main_arg28 (c : Dev nD) : at11 m ρ c (Proc.devRef .tc main_arg28) = m ((c : Thread nD τ).loc main_arg28) :=
  at11_untouched m ρ c main_arg28 (by decide) (by decide) (by decide) (by decide) (by decide) (by decide) (by decide) (by decide) (by decide) (by decide) (by decide)
theorem at11_main_arg29 (c : Dev nD) : at11 m ρ c (Proc.devRef .tc main_arg29) = m ((c : Thread nD τ).loc main_arg29) :=
  at11_untouched m ρ c main_arg29 (by decide) (by decide) (by decide) (by decide) (by decide) (by decide) (by decide) (by decide) (by decide) (by decide) (by decide)
theorem at11_main_arg30 (c : Dev nD) : at11 m ρ c (Proc.devRef .tc main_arg30) = m ((c : Thread nD τ).loc main_arg30) :=
  at11_untouched m ρ c main_arg30 (by decide) (by decide) (by decide) (by decide) (by decide) (by decide) (by decide) (by decide) (by decide) (by decide) (by decide)
theorem at11_main_arg31 (c : Dev nD) : at11 m ρ c (Proc.devRef .tc main_arg31) = m ((c : Thread nD τ).loc main_arg31) :=
  at11_untouched m ρ c main_arg31 (by decide) (by decide) (by decide) (by decide) (by decide) (by decide) (by decide) (by decide) (by decide) (by decide) (by decide)
theorem at11_main_arg32 (c : Dev nD) : at11 m ρ c (Proc.devRef .tc main_arg32) = m ((c : Thread nD τ).loc main_arg32) :=
  at11_untouched m ρ c main_arg32 (by decide) (by decide) (by decide) (by decide) (by decide) (by decide) (by decide) (by decide) (by decide) (by decide) (by decide)

/-- The frame: the program runs to its end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun r h c => ⟨(h c _ (mem_uc main_arg0 (by decide))).trans (at11_main_arg0 m ρ c),
    (h c _ (mem_uc main_arg1 (by decide))).trans (at11_main_arg1 m ρ c),
    (h c _ (mem_uc main_arg2 (by decide))).trans (at11_main_arg2 m ρ c),
    (h c _ (mem_uc main_arg3 (by decide))).trans (at11_main_arg3 m ρ c),
    (h c _ (mem_uc main_arg4 (by decide))).trans (at11_main_arg4 m ρ c),
    (h c _ (mem_uc main_arg5 (by decide))).trans (at11_main_arg5 m ρ c),
    (h c _ (mem_uc main_arg6 (by decide))).trans (at11_main_arg6 m ρ c),
    (h c _ (mem_uc main_arg7 (by decide))).trans (at11_main_arg7 m ρ c),
    (h c _ (mem_uc main_arg8 (by decide))).trans (at11_main_arg8 m ρ c),
    (h c _ (mem_uc main_arg9 (by decide))).trans (at11_main_arg9 m ρ c),
    (h c _ (mem_uc main_arg10 (by decide))).trans (at11_main_arg10 m ρ c),
    (h c _ (mem_uc main_arg11 (by decide))).trans (at11_main_arg11 m ρ c),
    (h c _ (mem_uc main_arg12 (by decide))).trans (at11_main_arg12 m ρ c),
    (h c _ (mem_uc main_arg13 (by decide))).trans (at11_main_arg13 m ρ c),
    (h c _ (mem_uc main_arg14 (by decide))).trans (at11_main_arg14 m ρ c),
    (h c _ (mem_uc main_arg15 (by decide))).trans (at11_main_arg15 m ρ c),
    (h c _ (mem_uc main_arg16 (by decide))).trans (at11_main_arg16 m ρ c),
    (h c _ (mem_uc main_arg17 (by decide))).trans (at11_main_arg17 m ρ c),
    (h c _ (mem_uc main_arg18 (by decide))).trans (at11_main_arg18 m ρ c),
    (h c _ (mem_uc main_arg19 (by decide))).trans (at11_main_arg19 m ρ c),
    (h c _ (mem_uc main_arg20 (by decide))).trans (at11_main_arg20 m ρ c),
    (h c _ (mem_uc main_arg21 (by decide))).trans (at11_main_arg21 m ρ c),
    (h c _ (mem_uc main_arg22 (by decide))).trans (at11_main_arg22 m ρ c),
    (h c _ (mem_uc main_arg23 (by decide))).trans (at11_main_arg23 m ρ c),
    (h c _ (mem_uc main_arg24 (by decide))).trans (at11_main_arg24 m ρ c),
    (h c _ (mem_uc main_arg25 (by decide))).trans (at11_main_arg25 m ρ c),
    (h c _ (mem_uc main_arg26 (by decide))).trans (at11_main_arg26 m ρ c),
    (h c _ (mem_uc main_arg27 (by decide))).trans (at11_main_arg27 m ρ c),
    (h c _ (mem_uc main_arg28 (by decide))).trans (at11_main_arg28 m ρ c),
    (h c _ (mem_uc main_arg29 (by decide))).trans (at11_main_arg29 m ρ c),
    (h c _ (mem_uc main_arg30 (by decide))).trans (at11_main_arg30 m ρ c),
    (h c _ (mem_uc main_arg31 (by decide))).trans (at11_main_arg31 m ρ c),
    (h c _ (mem_uc main_arg32 (by decide))).trans (at11_main_arg32 m ρ c)⟩)
    (run_all m ρ)

end Cert.KernelIdeal.Rgn

end
-- ==== Proof.MeanAgg.lean ====
/-
  The seven mean aggregations of the graph layer, as functions of a source feature table and an edge list (source and
  destination index per edge): gather the source rows along the edges, sum them into the destination rows, count the edges
  into each destination, and divide the sum by the count clamped below at one (a destination with no in-edge gets zero).
  Both programs compute exactly these, by the same host operations; they are stated here once, over the host operations'
  own dimension records, for any float instance. Also the final stacking of the four node types' results along the rows.
-/
import proofs.«139170_j4398046511496_1_alg».proof.Proof.Gen.KernelIdeal

noncomputable section

namespace Cert.KernelIdeal.Agg

open Cert.KernelIdeal Cert.KernelIdeal.Gen Idealize.ShloMosaic

variable {F : FTy → Type} [FloatOps F]

/-- Relation aff: the rows of the source table gathered along the edges (a negative source index counted from the end). -/
def msgAff (x : (⟨S100000x128, .f32⟩ : BufTy).Contents (Elt F)) (src : (⟨S150000, .i32⟩ : BufTy).Contents (Elt F)) : (⟨S150000x128, .f32⟩ : BufTy).Contents (Elt F) :=
  Host.gather gather_S100000x128_S150000x1_S150000x128_1_0_n_n_0_1_1128 x
    (broadcastInDim S150000x1 ![0] bcast_S150000_S150000x1_0
      (select (cmpi .slt src (broadcastInDim S150000 ![] bcast_S_S150000 (constantI S_ 32 0#32)))
        (addi src (broadcastInDim S150000 ![] bcast_S_S150000 (constantI S_ 32 100000#32))) src))
/-- The gathered rows summed into their destination rows, from zeros. -/
def sumAff (x : (⟨S100000x128, .f32⟩ : BufTy).Contents (Elt F)) (src dst : (⟨S150000, .i32⟩ : BufTy).Contents (Elt F)) : (⟨S8000x128, .f32⟩ : BufTy).Contents (Elt F) :=
  Host.scatterAdd scatter_S8000x128_S150000x1_S150000x128_1_0_0_1 (broadcastInDim S8000x128 ![] bcast_S_S8000x128 (constant S_ .f32 0x00000000#32))
    (broadcastInDim S150000x1 ![0] bcast_S150000_S150000x1_0 dst) (msgAff x src)
/-- The number of edges into each destination: ones summed the same way. -/
def cntAff (dst : (⟨S150000, .i32⟩ : BufTy).Contents (Elt F)) : (⟨S8000, .f32⟩ : BufTy).Contents (Elt F) :=
  Host.scatterAdd scatter_S8000_S150000x1_S150000_n_0_0_1 (broadcastInDim S8000 ![] bcast_S_S8000 (constant S_ .f32 0x00000000#32))
    (broadcastInDim S150000x1 ![0] bcast_S150000_S150000x1_0 dst) (broadcastInDim S150000 ![] bcast_S_S150000 (constant S_ .f32 0x3F800000#32))
/-- The mean over in-edges: the sum divided, row by row, by the count clamped below at one. -/
def meanAff (x : (⟨S100000x128, .f32⟩ : BufTy).Contents (Elt F)) (src dst : (⟨S150000, .i32⟩ : BufTy).Contents (Elt F)) : (⟨S8000x128, .f32⟩ : BufTy).Contents (Elt F) :=
  Host.divf (sumAff x src dst)
    (broadcastInDim S8000x128 ![0, 1] bcast_S8000x1_S8000x128_0_1 (broadcastInDim S8000x1 ![0] bcast_S8000_S8000x1_0
      (maximumf (cntAff dst) (broadcastInDim S8000 ![] bcast_S_S8000 (constant S_ .f32 0x3F800000#32)))))

/-- Relation ita: the rows of the source table gathered along the edges (a negative source index counted from the end). -/
def msgIta (x : (⟨S8000x128, .f32⟩ : BufTy).Contents (Elt F)) (src : (⟨S150000, .i32⟩ : BufTy).Contents (Elt F)) : (⟨S150000x128, .f32⟩ : BufTy).Contents (Elt F) :=
  Host.gather gather_S8000x128_S150000x1_S150000x128_1_0_n_n_0_1_1128 x
    (broadcastInDim S150000x1 ![0] bcast_S150000_S150000x1_0
      (select (cmpi .slt src (broadcastInDim S150000 ![] bcast_S_S150000 (constantI S_ 32 0#32)))
        (addi src (broadcastInDim S150000 ![] bcast_S_S150000 (constantI S_ 32 8000#32))) src))
/-- The gathered rows summed into their destination rows, from zeros. -/
def sumIta (x : (⟨S8000x128, .f32⟩ : BufTy).Contents (Elt F)) (src dst : (⟨S150000, .i32⟩ : BufTy).Contents (Elt F)) : (⟨S100000x128, .f32⟩ : BufTy).Contents (Elt F) :=
  Host.scatterAdd scatter_S100000x128_S150000x1_S150000x128_1_0_0_1 (broadcastInDim S100000x128 ![] bcast_S_S100000x128 (constant S_ .f32 0x00000000#32))
    (broadcastInDim S150000x1 ![0] bcast_S150000_S150000x1_0 dst) (msgIta x src)
/-- The number of edges into each destination: ones summed the same way. -/
def cntIta (dst : (⟨S150000, .i32⟩ : BufTy).Contents (Elt F)) : (⟨S100000, .f32⟩ : BufTy).Contents (Elt F) :=
  Host.scatterAdd scatter_S100000_S150000x1_S150000_n_0_0_1 (broadcastInDim S100000 ![] bcast_S_S100000 (constant S_ .f32 0x00000000#32))
    (broadcastInDim S150000x1 ![0] bcast_S150000_S150000x1_0 dst) (broadcastInDim S150000 ![] bcast_S_S150000 (constant S_ .f32 0x3F800000#32))
/-- The mean over in-edges: the sum divided, row by row, by the count clamped below at one. -/
def meanIta (x : (⟨S8000x128, .f32⟩ : BufTy).Contents (Elt F)) (src dst : (⟨S150000, .i32⟩ : BufTy).Contents (Elt F)) : (⟨S100000x128, .f32⟩ : BufTy).Contents (Elt F) :=
  Host.divf (sumIta x src dst)
    (broadcastInDim S100000x128 ![0, 1] bcast_S100000x1_S100000x128_0_1 (broadcastInDim S100000x1 ![0] bcast_S100000_S100000x1_0
      (maximumf (cntIta dst) (broadcastInDim S100000 ![] bcast_S_S100000 (constant S_ .f32 0x3F800000#32)))))

/-- Relation writes: the rows of the source table gathered along the edges (a negative source index counted from the end). -/
def msgWrites (x : (⟨S100000x128, .f32⟩ : BufTy).Contents (Elt F)) (src : (⟨S500000, .i32⟩ : BufTy).Contents (Elt F)) : (⟨S500000x128, .f32⟩ : BufTy).Contents (Elt F) :=
  Host.gather gather_S100000x128_S500000x1_S500000x128_1_0_n_n_0_1_1128 x
    (broadcastInDim S500000x1 ![0] bcast_S500000_S500000x1_0
      (select (cmpi .slt src (broadcastInDim S500000 ![] bcast_S_S500000 (constantI S_ 32 0#32)))
        (addi src (broadcastInDim S500000 ![] bcast_S_S500000 (constantI S_ 32 100000#32))) src))
/-- The gathered rows summed into their destination rows, from zeros. -/
def sumWrites (x : (⟨S100000x128, .f32⟩ : BufTy).Contents (Elt F)) (src dst : (⟨S500000, .i32⟩ : BufTy).Contents (Elt F)) : (⟨S200000x128, .f32⟩ : BufTy).Contents (Elt F) :=
  Host.scatterAdd scatter_S200000x128_S500000x1_S500000x128_1_0_0_1 (broadcastInDim S200000x128 ![] bcast_S_S200000x128 (constant S_ .f32 0x00000000#32))
    (broadcastInDim S500000x1 ![0] bcast_S500000_S500000x1_0 dst) (msgWrites x src)
/-- The number of edges into each destination: ones summed the same way. -/
def cntWrites (dst : (⟨S500000, .i32⟩ : BufTy).Contents (Elt F)) : (⟨S200000, .f32⟩ : BufTy).Contents (Elt F) :=
  Host.scatterAdd scatter_S200000_S500000x1_S500000_n_0_0_1 (broadcastInDim S200000 ![] bcast_S_S200000 (constant S_ .f32 0x00000000#32))
    (broadcastInDim S500000x1 ![0] bcast_S500000_S500000x1_0 dst) (broadcastInDim S500000 ![] bcast_S_S500000 (constant S_ .f32 0x3F800000#32))
/-- The mean over in-edges: the sum divided, row by row, by the count clamped below at one. -/
def meanWrites (x : (⟨S100000x128, .f32⟩ : BufTy).Contents (Elt F)) (src dst : (⟨S500000, .i32⟩ : BufTy).Contents (Elt F)) : (⟨S200000x128, .f32⟩ : BufTy).Contents (Elt F) :=
  Host.divf (sumWrites x src dst)
    (broadcastInDim S200000x128 ![0, 1] bcast_S200000x1_S200000x128_0_1 (broadcastInDim S200000x1 ![0] bcast_S200000_S200000x1_0
      (maximumf (cntWrites dst) (broadcastInDim S200000 ![] bcast_S_S200000 (constant S_ .f32 0x3F800000#32)))))

/-- Relation pta: the rows of the source table gathered along the edges (a negative source index counted from the end). -/
def msgPta (x : (⟨S200000x128, .f32⟩ : BufTy).Contents (Elt F)) (src : (⟨S500000, .i32⟩ : BufTy).Contents (Elt F)) : (⟨S500000x128, .f32⟩ : BufTy).Contents (Elt F) :=
  Host.gather gather_S200000x128_S500000x1_S500000x128_1_0_n_n_0_1_1128 x
    (broadcastInDim S500000x1 ![0] bcast_S500000_S500000x1_0
      (select (cmpi .slt src (broadcastInDim S500000 ![] bcast_S_S500000 (constantI S_ 32 0#32)))
        (addi src (broadcastInDim S500000 ![] bcast_S_S500000 (constantI S_ 32 200000#32))) src))
/-- The gathered rows summed into their destination rows, from zeros. -/
def sumPta (x : (⟨S200000x128, .f32⟩ : BufTy).Contents (Elt F)) (src dst : (⟨S500000, .i32⟩ : BufTy).Contents (Elt F)) : (⟨S100000x128, .f32⟩ : BufTy).Contents (Elt F) :=
  Host.scatterAdd scatter_S100000x128_S500000x1_S500000x128_1_0_0_1 (broadcastInDim S100000x128 ![] bcast_S_S100000x128 (constant S_ .f32 0x00000000#32))
    (broadcastInDim S500000x1 ![0] bcast_S500000_S500000x1_0 dst) (msgPta x src)
/-- The number of edges into each destination: ones summed the same way. -/
def cntPta (dst : (⟨S500000, .i32⟩ : BufTy).Contents (Elt F)) : (⟨S100000, .f32⟩ : BufTy).Contents (Elt F) :=
  Host.scatterAdd scatter_S100000_S500000x1_S500000_n_0_0_1 (broadcastInDim S100000 ![] bcast_S_S100000 (constant S_ .f32 0x00000000#32))
    (broadcastInDim S500000x1 ![0] bcast_S500000_S500000x1_0 dst) (broadcastInDim S500000 ![] bcast_S_S500000 (constant S_ .f32 0x3F800000#32))
/-- The mean over in-edges: the sum divided, row by row, by the count clamped below at one. -/
def meanPta (x : (⟨S200000x128, .f32⟩ : BufTy).Contents (Elt F)) (src dst : (⟨S500000, .i32⟩ : BufTy).Contents (Elt F)) : (⟨S100000x128, .f32⟩ : BufTy).Contents (Elt F) :=
  Host.divf (sumPta x src dst)
    (broadcastInDim S100000x128 ![0, 1] bcast_S100000x1_S100000x128_0_1 (broadcastInDim S100000x1 ![0] bcast_S100000_S100000x1_0
      (maximumf (cntPta dst) (broadcastInDim S100000 ![] bcast_S_S100000 (constant S_ .f32 0x3F800000#32)))))

/-- Relation cites: the rows of the source table gathered along the edges (a negative source index counted from the end). -/
def msgCites (x : (⟨S200000x128, .f32⟩ : BufTy).Contents (Elt F)) (src : (⟨S1000000, .i32⟩ : BufTy).Contents (Elt F)) : (⟨S1000000x128, .f32⟩ : BufTy).Contents (Elt F) :=
  Host.gather gather_S200000x128_S1000000x1_S1000000x128_1_0_n_n_0_1_1128 x
    (broadcastInDim S1000000x1 ![0] bcast_S1000000_S1000000x1_0
      (select (cmpi .slt src (broadcastInDim S1000000 ![] bcast_S_S1000000 (constantI S_ 32 0#32)))
        (addi src (broadcastInDim S1000000 ![] bcast_S_S1000000 (constantI S_ 32 200000#32))) src))
/-- The gathered rows summed into their destination rows, from zeros. -/
def sumCites (x : (⟨S200000x128, .f32⟩ : BufTy).Contents (Elt F)) (src dst : (⟨S1000000, .i32⟩ : BufTy).Contents (Elt F)) : (⟨S200000x128, .f32⟩ : BufTy).Contents (Elt F) :=
  Host.scatterAdd scatter_S200000x128_S1000000x1_S1000000x128_1_0_0_1 (broadcastInDim S200000x128 ![] bcast_S_S200000x128 (constant S_ .f32 0x00000000#32))
    (broadcastInDim S1000000x1 ![0] bcast_S1000000_S1000000x1_0 dst) (msgCites x src)
/-- The number of edges into each destination: ones summed the same way. -/
def cntCites (dst : (⟨S1000000, .i32⟩ : BufTy).Contents (Elt F)) : (⟨S200000, .f32⟩ : BufTy).Contents (Elt F) :=
  Host.scatterAdd scatter_S200000_S1000000x1_S1000000_n_0_0_1 (broadcastInDim S200000 ![] bcast_S_S200000 (constant S_ .f32 0x00000000#32))
    (broadcastInDim S1000000x1 ![0] bcast_S1000000_S1000000x1_0 dst) (broadcastInDim S1000000 ![] bcast_S_S1000000 (constant S_ .f32 0x3F800000#32))
/-- The mean over in-edges: the sum divided, row by row, by the count clamped below at one. -/
def meanCites (x : (⟨S200000x128, .f32⟩ : BufTy).Contents (Elt F)) (src dst : (⟨S1000000, .i32⟩ : BufTy).Contents (Elt F)) : (⟨S200000x128, .f32⟩ : BufTy).Contents (Elt F) :=
  Host.divf (sumCites x src dst)
    (broadcastInDim S200000x128 ![0, 1] bcast_S200000x1_S200000x128_0_1 (broadcastInDim S200000x1 ![0] bcast_S200000_S200000x1_0
      (maximumf (cntCites dst) (broadcastInDim S200000 ![] bcast_S_S200000 (constant S_ .f32 0x3F800000#32)))))

/-- Relation topic: the rows of the source table gathered along the edges (a negative source index counted from the end). -/
def msgTopic (x : (⟨S200000x128, .f32⟩ : BufTy).Contents (Elt F)) (src : (⟨S500000, .i32⟩ : BufTy).Contents (Elt F)) : (⟨S500000x128, .f32⟩ : BufTy).Contents (Elt F) :=
  Host.gather gather_S200000x128_S500000x1_S500000x128_1_0_n_n_0_1_1128 x
    (broadcastInDim S500000x1 ![0] bcast_S500000_S500000x1_0
      (select (cmpi .slt src (broadcastInDim S500000 ![] bcast_S_S500000 (constantI S_ 32 0#32)))
        (addi src (broadcastInDim S500000 ![] bcast_S_S500000 (constantI S_ 32 200000#32))) src))
/-- The gathered rows summed into their destination rows, from zeros. -/
def sumTopic (x : (⟨S200000x128, .f32⟩ : BufTy).Contents (Elt F)) (src dst : (⟨S500000, .i32⟩ : BufTy).Contents (Elt F)) : (⟨S30000x128, .f32⟩ : BufTy).Contents (Elt F) :=
  Host.scatterAdd scatter_S30000x128_S500000x1_S500000x128_1_0_0_1 (broadcastInDim S30000x128 ![] bcast_S_S30000x128 (constant S_ .f32 0x00000000#32))
    (broadcastInDim S500000x1 ![0] bcast_S500000_S500000x1_0 dst) (msgTopic x src)
/-- The number of edges into each destination: ones summed the same way. -/
def cntTopic (dst : (⟨S500000, .i32⟩ : BufTy).Contents (Elt F)) : (⟨S30000, .f32⟩ : BufTy).Contents (Elt F) :=
  Host.scatterAdd scatter_S30000_S500000x1_S500000_n_0_0_1 (broadcastInDim S30000 ![] bcast_S_S30000 (constant S_ .f32 0x00000000#32))
    (broadcastInDim S500000x1 ![0] bcast_S500000_S500000x1_0 dst) (broadcastInDim S500000 ![] bcast_S_S500000 (constant S_ .f32 0x3F800000#32))
/-- The mean over in-edges: the sum divided, row by row, by the count clamped below at one. -/
def meanTopic (x : (⟨S200000x128, .f32⟩ : BufTy).Contents (Elt F)) (src dst : (⟨S500000, .i32⟩ : BufTy).Contents (Elt F)) : (⟨S30000x128, .f32⟩ : BufTy).Contents (Elt F) :=
  Host.divf (sumTopic x src dst)
    (broadcastInDim S30000x128 ![0, 1] bcast_S30000x1_S30000x128_0_1 (broadcastInDim S30000x1 ![0] bcast_S30000_S30000x1_0
      (maximumf (cntTopic dst) (broadcastInDim S30000 ![] bcast_S_S30000 (constant S_ .f32 0x3F800000#32)))))

/-- Relation ftp: the rows of the source table gathered along the edges (a negative source index counted from the end). -/
def msgFtp (x : (⟨S30000x128, .f32⟩ : BufTy).Contents (Elt F)) (src : (⟨S500000, .i32⟩ : BufTy).Contents (Elt F)) : (⟨S500000x128, .f32⟩ : BufTy).Contents (Elt F) :=
  Host.gather gather_S30000x128_S500000x1_S500000x128_1_0_n_n_0_1_1128 x
    (broadcastInDim S500000x1 ![0] bcast_S500000_S500000x1_0
      (select (cmpi .slt src (broadcastInDim S500000 ![] bcast_S_S500000 (constantI S_ 32 0#32)))
        (addi src (broadcastInDim S500000 ![] bcast_S_S500000 (constantI S_ 32 30000#32))) src))
/-- The gathered rows summed into their destination rows, from zeros. -/
def sumFtp (x : (⟨S30000x128, .f32⟩ : BufTy).Contents (Elt F)) (src dst : (⟨S500000, .i32⟩ : BufTy).Contents (Elt F)) : (⟨S200000x128, .f32⟩ : BufTy).Contents (Elt F) :=
  Host.scatterAdd scatter_S200000x128_S500000x1_S500000x128_1_0_0_1 (broadcastInDim S200000x128 ![] bcast_S_S200000x128 (constant S_ .f32 0x00000000#32))
    (broadcastInDim S500000x1 ![0] bcast_S500000_S500000x1_0 dst) (msgFtp x src)
/-- The number of edges into each destination: ones summed the same way. -/
def cntFtp (dst : (⟨S500000, .i32⟩ : BufTy).Contents (Elt F)) : (⟨S200000, .f32⟩ : BufTy).Contents (Elt F) :=
  Host.scatterAdd scatter_S200000_S500000x1_S500000_n_0_0_1 (broadcastInDim S200000 ![] bcast_S_S200000 (constant S_ .f32 0x00000000#32))
    (broadcastInDim S500000x1 ![0] bcast_S500000_S500000x1_0 dst) (broadcastInDim S500000 ![] bcast_S_S500000 (constant S_ .f32 0x3F800000#32))
/-- The mean over in-edges: the sum divided, row by row, by the count clamped below at one. -/
def meanFtp (x : (⟨S30000x128, .f32⟩ : BufTy).Contents (Elt F)) (src dst : (⟨S500000, .i32⟩ : BufTy).Contents (Elt F)) : (⟨S200000x128, .f32⟩ : BufTy).Contents (Elt F) :=
  Host.divf (sumFtp x src dst)
    (broadcastInDim S200000x128 ![0, 1] bcast_S200000x1_S200000x128_0_1 (broadcastInDim S200000x1 ![0] bcast_S200000_S200000x1_0
      (maximumf (cntFtp dst) (broadcastInDim S200000 ![] bcast_S_S200000 (constant S_ .f32 0x3F800000#32)))))

/-- The four node types' results stacked along the rows: authors, fields, institutions, papers. -/
def stack4 (a : (⟨S100000x128, .f32⟩ : BufTy).Contents (Elt F)) (f : (⟨S30000x128, .f32⟩ : BufTy).Contents (Elt F))
    (i : (⟨S8000x128, .f32⟩ : BufTy).Contents (Elt F)) (p : (⟨S200000x128, .f32⟩ : BufTy).Contents (Elt F)) :
    (⟨S338000x128, .f32⟩ : BufTy).Contents (Elt F) :=
  concatenate S338000x128 0 [⟨S100000x128, a⟩, ⟨S30000x128, f⟩, ⟨S8000x128, i⟩, ⟨S200000x128, p⟩] concatenates_S100000x128_S30000x128_S8000x128_S200000x128_S338000x128_d0

end Cert.KernelIdeal.Agg

end
-- ==== Proof.IdealHost.lean ====
/-
  What the host stretches before each launch leave in the buffers the launches read: the seven mean aggregates (each the
  gather / scatter-add / count / clamp / divide chain of its relation, applied to the argument arrays) and the four bias
  vectors stood up as rows. Read window by window; a chain that a window boundary cuts is read in two steps.
-/
import proofs.«139170_j4398046511496_1_alg».proof.Proof.IdealArgs
import proofs.«139170_j4398046511496_1_alg».proof.Proof.MeanAgg

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Agg

variable (m : (ℓ : Loc nD τ sig) → Buf (Elt F) ℓ) (ρ : Dev nD → PrngReg)

/-! ## After the first window -/

set_option maxRecDepth 8192 in
set_option maxHeartbeats 4000000 in
theorem at1_v18 (c : Dev nD) : at1 m ρ c (Proc.devRef .tc main_v18) = meanAff (m ((c : Thread nD τ).loc main_arg0)) (m ((c : Thread nD τ).loc main_arg19)) (m ((c : Thread nD τ).loc main_arg20)) := by
  show StableHlo.after main_part0_ops0 (at0 m ρ c) (Proc.devRef .tc main_v18) = _
  simp only [main_part0_ops0]
  after_results_simp
  rfl
set_option maxRecDepth 8192 in
set_option maxHeartbeats 4000000 in
theorem at1_v37 (c : Dev nD) : at1 m ρ c (Proc.devRef .tc main_v37) = meanIta (m ((c : Thread nD τ).loc main_arg2)) (m ((c : Thread nD τ).loc main_arg21)) (m ((c : Thread nD τ).loc main_arg22)) := by
  show StableHlo.after main_part0_ops0 (at0 m ρ c) (Proc.devRef .tc main_v37) = _
  simp only [main_part0_ops0]
  after_results_simp
  rfl
set_option maxRecDepth 8192 in
set_option maxHeartbeats 4000000 in
theorem at1_v44 (c : Dev nD) : at1 m ρ c (Proc.devRef .tc main_v44) = msgWrites (m ((c : Thread nD τ).loc main_arg0)) (m ((c : Thread nD τ).loc main_arg23)) := by
  show StableHlo.after main_part0_ops0 (at0 m ρ c) (Proc.devRef .tc main_v44) = _
  simp only [main_part0_ops0]
  after_results_simp
  rfl
set_option maxRecDepth 8192 in
set_option maxHeartbeats 4000000 in
theorem at1_cst12 (c : Dev nD) : at1 m ρ c (Proc.devRef .tc main_cst_12) = (constant S_ .f32 0x00000000#32 : (⟨S_, .f32⟩ : BufTy).Contents (Elt F)) := by
  show StableHlo.after main_part0_ops0 (at0 m ρ c) (Proc.devRef .tc main_cst_12) = _
  simp only [main_part0_ops0]
  after_results_simp

/-! ## After the second window -/

set_option maxRecDepth 8192 in
set_option maxHeartbeats 4000000 in
theorem at2_v56 (c : Dev nD) : at2 m ρ c (Proc.devRef .tc main_v56) = meanWrites (m ((c : Thread nD τ).loc main_arg0)) (m ((c : Thread nD τ).loc main_arg23)) (m ((c : Thread nD τ).loc main_arg24)) := by
  show StableHlo.after main_part1_ops0 (at1 m ρ c) (Proc.devRef .tc main_v56) = _
  generalize hV : at1 m ρ c = V₁
  simp only [main_part1_ops0]
  after_results_simp
  subst hV
  simp only [at1_v44 m ρ c, at1_cst12 m ρ c, at1_keep m ρ c main_arg24 (by decide)]
  rfl
set_option maxRecDepth 8192 in
set_option maxHeartbeats 4000000 in
theorem at2_v75 (c : Dev nD) : at2 m ρ c (Proc.devRef .tc main_v75) = meanPta (m ((c : Thread nD τ).loc main_arg3)) (m ((c : Thread nD τ).loc main_arg25)) (m ((c : Thread nD τ).loc main_arg26)) := by
  show StableHlo.after main_part1_ops0 (at1 m ρ c) (Proc.devRef .tc main_v75) = _
  generalize hV : at1 m ρ c = V₁
  simp only [main_part1_ops0]
  after_results_simp
  subst hV
  simp only [at1_keep m ρ c main_arg3 (by decide), at1_keep m ρ c main_arg25 (by decide), at1_keep m ρ c main_arg26 (by decide)]
  rfl
set_option maxRecDepth 8192 in
set_option maxHeartbeats 4000000 in
theorem at2_v85 (c : Dev nD) : at2 m ρ c (Proc.devRef .tc main_v85) = sumCites (m ((c : Thread nD τ).loc main_arg3)) (m ((c : Thread nD τ).loc main_arg27)) (m ((c : Thread nD τ).loc main_arg28)) := by
  show StableHlo.after main_part1_ops0 (at1 m ρ c) (Proc.devRef .tc main_v85) = _
  generalize hV : at1 m ρ c = V₁
  simp only [main_part1_ops0]
  after_results_simp
  subst hV
  simp only [at1_keep m ρ c main_arg3 (by decide), at1_keep m ρ c main_arg27 (by decide), at1_keep m ρ c main_arg28 (by decide)]
  rfl
set_option maxRecDepth 8192 in
set_option maxHeartbeats 4000000 in
theorem at2_v89 (c : Dev nD) : at2 m ρ c (Proc.devRef .tc main_v89) = cntCites (m ((c : Thread nD τ).loc main_arg28)) := by
  show StableHlo.after main_part1_ops0 (at1 m ρ c) (Proc.devRef .tc main_v89) = _
  generalize hV : at1 m ρ c = V₁
  simp only [main_part1_ops0]
  after_results_simp
  subst hV
  simp only [at1_keep m ρ c main_arg28 (by decide)]
  rfl
set_option maxRecDepth 8192 in
set_option maxHeartbeats 4000000 in
theorem at2_cst27 (c : Dev nD) : at2 m ρ c (Proc.devRef .tc main_cst_27) = (constant S_ .f32 0x3F800000#32 : (⟨S_, .f32⟩ : BufTy).Contents (Elt F)) := by
  show StableHlo.after main_part1_ops0 (at1 m ρ c) (Proc.devRef .tc main_cst_27) = _
  generalize hV : at1 m ρ c = V₁
  simp only [main_part1_ops0]
  after_results_simp

/-- An argument's buffer after the second window. -/
theorem at2_arg (c : Dev nD) (b : Ref sig .tc) (h0 : b ∉ s0_written) (h1 : b ∉ s1_written) :
    at2 m ρ c (Proc.devRef .tc b) = m ((c : Thread nD τ).loc b) :=
  (at2_keep m ρ c b h1).trans ((at1_keep m ρ c b h0).trans rfl)

/-! ## After the third window: what launch 0 finds -/

set_option maxRecDepth 8192 in
set_option maxHeartbeats 4000000 in
theorem at3_v94 (c : Dev nD) : at3 m ρ c (Proc.devRef .tc main_v94) = meanCites (m ((c : Thread nD τ).loc main_arg3)) (m ((c : Thread nD τ).loc main_arg27)) (m ((c : Thread nD τ).loc main_arg28)) := by
  show StableHlo.after main_part2_ops0 (at2 m ρ c) (Proc.devRef .tc main_v94) = _
  generalize hV : at2 m ρ c = V₁
  simp only [main_part2_ops0]
  after_results_simp
  subst hV
  simp only [at2_v85 m ρ c, at2_v89 m ρ c, at2_cst27 m ρ c]
  rfl
set_option maxRecDepth 8192 in
set_option maxHeartbeats 4000000 in
theorem at3_v113 (c : Dev nD) : at3 m ρ c (Proc.devRef .tc main_v113) = meanTopic (m ((c : Thread nD τ).loc main_arg3)) (m ((c : Thread nD τ).loc main_arg29)) (m ((c : Thread nD τ).loc main_arg30)) := by
  show StableHlo.after main_part2_ops0 (at2 m ρ c) (Proc.devRef .tc main_v113) = _
  generalize hV : at2 m ρ c = V₁
  simp only [main_part2_ops0]
  after_results_simp
  subst hV
  simp only [at2_arg m ρ c main_arg3 (by decide) (by decide), at2_arg m ρ c main_arg29 (by decide) (by decide), at2_arg m ρ c main_arg30 (by decide) (by decide)]
  rfl
set_option maxRecDepth 8192 in
set_option maxHeartbeats 4000000 in
theorem at3_v132 (c : Dev nD) : at3 m ρ c (Proc.devRef .tc main_v132) = meanFtp (m ((c : Thread nD τ).loc main_arg1)) (m ((c : Thread nD τ).loc main_arg31)) (m ((c : Thread nD τ).loc main_arg32)) := by
  show StableHlo.after main_part2_ops0 (at2 m ρ c) (Proc.devRef .tc main_v132) = _
  generalize hV : at2 m ρ c = V₁
  simp only [main_part2_ops0]
  after_results_simp
  subst hV
  simp only [at2_arg m ρ c main_arg1 (by decide) (by decide), at2_arg m ρ c main_arg31 (by decide) (by decide), at2_arg m ρ c main_arg32 (by decide) (by decide)]
  rfl
set_option maxRecDepth 8192 in
set_option maxHeartbeats 4000000 in
theorem at3_v133 (c : Dev nD) : at3 m ρ c (Proc.devRef .tc main_v133) = shapeCast S1x128 (m ((c : Thread nD τ).loc main_arg5)) shapeCasts_S128_S1x128 := by
  show StableHlo.after main_part2_ops0 (at2 m ρ c) (Proc.devRef .tc main_v133) = _
  generalize hV : at2 m ρ c = V₁
  simp only [main_part2_ops0]
  after_results_simp
  subst hV
  simp only [at2_arg m ρ c main_arg5 (by decide) (by decide)]
  rfl

/-- A buffer that none of the first three windows writes holds its launch contents when launch 0 starts. -/
theorem at3_arg (c : Dev nD) (b : Ref sig .tc) (h0 : b ∉ s0_written) (h1 : b ∉ s1_written) (h2 : b ∉ s2_written) :
    at3 m ρ c (Proc.devRef .tc b) = m ((c : Thread nD τ).loc b) :=
  (at3_keep m ρ c b h2).trans (at2_arg m ρ c b h0 h1)
theorem at3_v37 (c : Dev nD) : at3 m ρ c (Proc.devRef .tc main_v37) = meanIta (m ((c : Thread nD τ).loc main_arg2)) (m ((c : Thread nD τ).loc main_arg21)) (m ((c : Thread nD τ).loc main_arg22)) :=
  (at3_keep m ρ c main_v37 (by decide)).trans ((at2_keep m ρ c main_v37 (by decide)).trans (at1_v37 m ρ c))
theorem at3_v18 (c : Dev nD) : at3 m ρ c (Proc.devRef .tc main_v18) = meanAff (m ((c : Thread nD τ).loc main_arg0)) (m ((c : Thread nD τ).loc main_arg19)) (m ((c : Thread nD τ).loc main_arg20)) :=
  (at3_keep m ρ c main_v18 (by decide)).trans ((at2_keep m ρ c main_v18 (by decide)).trans (at1_v18 m ρ c))
theorem at3_v75 (c : Dev nD) : at3 m ρ c (Proc.devRef .tc main_v75) = meanPta (m ((c : Thread nD τ).loc main_arg3)) (m ((c : Thread nD τ).loc main_arg25)) (m ((c : Thread nD τ).loc main_arg26)) :=
  (at3_keep m ρ c main_v75 (by decide)).trans (at2_v75 m ρ c)
theorem at3_v56 (c : Dev nD) : at3 m ρ c (Proc.devRef .tc main_v56) = meanWrites (m ((c : Thread nD τ).loc main_arg0)) (m ((c : Thread nD τ).loc main_arg23)) (m ((c : Thread nD τ).loc main_arg24)) :=
  (at3_keep m ρ c main_v56 (by decide)).trans (at2_v56 m ρ c)

/-! ## Later boundaries: a buffer no later stretch writes and no launch outputs is carried along -/

theorem at5_of_at3 (c : Dev nD) (b : Ref sig .tc) (o0 : b ≠ main_v134) (h3 : b ∉ s3_written) :
    at5 m ρ c (Proc.devRef .tc b) = at3 m ρ c (Proc.devRef .tc b) :=
  (at5_keep m ρ c b h3).trans (at4_keep m ρ c b o0)
theorem at7_of_at5 (c : Dev nD) (b : Ref sig .tc) (o1 : b ≠ main_v136) (h4 : b ∉ s4_written) :
    at7 m ρ c (Proc.devRef .tc b) = at5 m ρ c (Proc.devRef .tc b) :=
  (at7_keep m ρ c b h4).trans (at6_keep m ρ c b o1)
theorem at9_of_at7 (c : Dev nD) (b : Ref sig .tc) (o2 : b ≠ main_v138) (h5 : b ∉ s5_written) :
    at9 m ρ c (Proc.devRef .tc b) = at7 m ρ c (Proc.devRef .tc b) :=
  (at9_keep m ρ c b h5).trans (at8_keep m ρ c b o2)

/-! ## The bias rows of launches 1, 2 and 3 -/

theorem at4_arg (c : Dev nD) (b : Ref sig .tc) (h0 : b ∉ s0_written) (h1 : b ∉ s1_written) (h2 : b ∉ s2_written) (o0 : b ≠ main_v134) :
    at4 m ρ c (Proc.devRef .tc b) = m ((c : Thread nD τ).loc b) :=
  (at4_keep m ρ c b o0).trans (at3_arg m ρ c b h0 h1 h2)
theorem at5_arg (c : Dev nD) (b : Ref sig .tc) (h0 : b ∉ s0_written) (h1 : b ∉ s1_written) (h2 : b ∉ s2_written) (o0 : b ≠ main_v134) (h3 : b ∉ s3_written) :
    at5 m ρ c (Proc.devRef .tc b) = m ((c : Thread nD τ).loc b) :=
  (at5_keep m ρ c b h3).trans (at4_arg m ρ c b h0 h1 h2 o0)
theorem at6_arg (c : Dev nD) (b : Ref sig .tc) (h0 : b ∉ s0_written) (h1 : b ∉ s1_written) (h2 : b ∉ s2_written) (o0 : b ≠ main_v134) (h3 : b ∉ s3_written) (o1 : b ≠ main_v136) :
    at6 m ρ c (Proc.devRef .tc b) = m ((c : Thread nD τ).loc b) :=
  (at6_keep m ρ c b o1).trans (at5_arg m ρ c b h0 h1 h2 o0 h3)
theorem at7_arg (c : Dev nD) (b : Ref sig .tc) (h0 : b ∉ s0_written) (h1 : b ∉ s1_written) (h2 : b ∉ s2_written) (o0 : b ≠ main_v134) (h3 : b ∉ s3_written) (o1 : b ≠ main_v136) (h4 : b ∉ s4_written) :
    at7 m ρ c (Proc.devRef .tc b) = m ((c : Thread nD τ).loc b) :=
  (at7_keep m ρ c b h4).trans (at6_arg m ρ c b h0 h1 h2 o0 h3 o1)
theorem at8_arg (c : Dev nD) (b : Ref sig .tc) (h0 : b ∉ s0_written) (h1 : b ∉ s1_written) (h2 : b ∉ s2_written) (o0 : b ≠ main_v134) (h3 : b ∉ s3_written) (o1 : b ≠ main_v136) (h4 : b ∉ s4_written) (o2 : b ≠ main_v138) :
    at8 m ρ c (Proc.devRef .tc b) = m ((c : Thread nD τ).loc b) :=
  (at8_keep m ρ c b o2).trans (at7_arg m ρ c b h0 h1 h2 o0 h3 o1 h4)
theorem at9_arg (c : Dev nD) (b : Ref sig .tc) (h0 : b ∉ s0_written) (h1 : b ∉ s1_written) (h2 : b ∉ s2_written) (o0 : b ≠ main_v134) (h3 : b ∉ s3_written) (o1 : b ≠ main_v136) (h4 : b ∉ s4_written) (o2 : b ≠ main_v138) (h5 : b ∉ s5_written) :
    at9 m ρ c (Proc.devRef .tc b) = m ((c : Thread nD τ).loc b) :=
  (at9_keep m ρ c b h5).trans (at8_arg m ρ c b h0 h1 h2 o0 h3 o1 h4 o2)

set_option maxRecDepth 8192 in
theorem at5_v135 (c : Dev nD) : at5 m ρ c (Proc.devRef .tc main_v135) = shapeCast S1x128 (m ((c : Thread nD τ).loc main_arg7)) shapeCasts_S128_S1x128 := by
  show StableHlo.after main_part2_ops1 (at4 m ρ c) (Proc.devRef .tc main_v135) = _
  generalize hV : at4 m ρ c = V₁
  simp only [main_part2_ops1]
  after_results_simp
  subst hV
  simp only [at4_arg m ρ c main_arg7 (by decide) (by decide) (by decide) (by decide)]
  rfl
set_option maxRecDepth 8192 in
theorem at7_v137 (c : Dev nD) : at7 m ρ c (Proc.devRef .tc main_v137) = shapeCast S1x128 (m ((c : Thread nD τ).loc main_arg9)) shapeCasts_S128_S1x128 := by
  show StableHlo.after main_part2_ops2 (at6 m ρ c) (Proc.devRef .tc main_v137) = _
  generalize hV : at6 m ρ c = V₁
  simp only [main_part2_ops2]
  after_results_simp
  subst hV
  simp only [at6_arg m ρ c main_arg9 (by decide) (by decide) (by decide) (by decide) (by decide) (by decide)]
  rfl
set_option maxRecDepth 8192 in
theorem at9_v139 (c : Dev nD) : at9 m ρ c (Proc.devRef .tc main_v139) = shapeCast S1x128 (m ((c : Thread nD τ).loc main_arg11)) shapeCasts_S128_S1x128 := by
  show StableHlo.after main_part3_ops0 (at8 m ρ c) (Proc.devRef .tc main_v139) = _
  generalize hV : at8 m ρ c = V₁
  simp only [main_part3_ops0]
  after_results_simp
  subst hV
  simp only [at8_arg m ρ c main_arg11 (by decide) (by decide) (by decide) (by decide) (by decide) (by decide) (by decide) (by decide)]
  rfl

end Cert.KernelIdeal.Rgn

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.LibRowBlocks.lean ====
/-
  Three bodies of row-blocked kernels read at an entry, on the extended reals, for any extents.
  A block of R rows of a matrix times a whole matrix, each rounded to a shorter format first (a change of format is the
  identity on the extended reals) and accumulated into zeros: entry (p, q) is the sum over the contracted coordinate of the
  products of the entries. A block plus a row laid along every row of it, then the maximum with a constant: entry (p, q)
  is max(x(p, q) + b(0, q), z). And the composite of the two — a product, a row added, the maximum with a constant, a second
  product, a second row added — entry by entry. Nothing of real arithmetic is used: each side is the same expression.
-/
import Idealize.ShloMosaic.Lib.Pipeline.Value
import Idealize.ShloMosaic.Lib.ValueIdx
import Idealize.ShloMosaic.PureOps.Ideal.Laws
import Idealize.ShloMosaic.Lib.KernelVsHost
import proofs.«139170_j4398046511496_1_alg».proof.Proof.LibRowOps
import proofs.«139170_j4398046511496_1_alg».proof.Proof.LibSoftLayout

noncomputable section

open scoped BigOperators

namespace RowBlocks

open Idealize.ShloMosaic Idealize.ShloMosaic.ValueIdx

/-- The product of an [M, K] matrix by a [K, N] matrix, entry by entry. -/
def prod {M K N : Nat} (A : FVec Ideal ⟨2, ![M, K]⟩ .f32) (B : FVec Ideal ⟨2, ![K, N]⟩ .f32) : FVec Ideal ⟨2, ![M, N]⟩ .f32 :=
  fun i => ∑ k : Fin K, A (ix2 (i 0) k) * B (ix2 k (i 1))

theorem prod_apply {M K N : Nat} (A : FVec Ideal ⟨2, ![M, K]⟩ .f32) (B : FVec Ideal ⟨2, ![K, N]⟩ .f32) (p : Fin M) (q : Fin N) :
    prod A B (ix2 p q) = ∑ k : Fin K, A (ix2 p k) * B (ix2 k q) := rfl

/-- A row added to every row of a matrix. -/
def addRow {M N : Nat} (A : FVec Ideal ⟨2, ![M, N]⟩ .f32) (b : FVec Ideal ⟨2, ![1, N]⟩ .f32) : FVec Ideal ⟨2, ![M, N]⟩ .f32 :=
  fun i => A i + b (ix2 (0 : Fin 1) (i 1))

theorem addRow_apply {M N : Nat} (A : FVec Ideal ⟨2, ![M, N]⟩ .f32) (b : FVec Ideal ⟨2, ![1, N]⟩ .f32) (p : Fin M) (q : Fin N) :
    addRow A b (ix2 p q) = A (ix2 p q) + b (ix2 (0 : Fin 1) q) := rfl

/-- The maximum of every entry with the value of a 32-bit word. -/
def maxWord {M N : Nat} (A : FVec Ideal ⟨2, ![M, N]⟩ .f32) (z : BitVec 32) : FVec Ideal ⟨2, ![M, N]⟩ .f32 :=
  fun i => max (A i) (Ideal.ofBits .f32 z)

theorem maxWord_apply {M N : Nat} (A : FVec Ideal ⟨2, ![M, N]⟩ .f32) (z : BitVec 32) (p : Fin M) (q : Fin N) :
    maxWord A z (ix2 p q) = max (A (ix2 p q)) (Ideal.ofBits .f32 z) := rfl

/-- A kernel's product of a block by a matrix, both rounded to a shorter format first, into a zero accumulator. -/
theorem matmul_trunc_apply {R K N : Nat} {ψ : FTy} (D : DotDims ⟨2, ![R, K]⟩ ⟨2, ![K, N]⟩ ⟨2, ![R, N]⟩) (hD : D = DotDims.plain R K N)
    (h : ψ.bits < FTy.f32.bits) (x : FVec Ideal ⟨2, ![R, K]⟩ .f32) (w : FVec Ideal ⟨2, ![K, N]⟩ .f32) (p : Fin R) (q : Fin N) :
    matmul D none (truncf ψ x h) (truncf ψ w h) (constant ⟨2, ![R, N]⟩ .f32 0x00000000#32) (ix2 p q)
      = ∑ k : Fin K, x (ix2 p k) * w (ix2 k q) :=
  (RowOps.matmul_apply D hD none (truncf ψ x h) (truncf ψ w h) p q).trans (Finset.sum_congr rfl fun _ _ => rfl)

/-- A kernel's `max(x + row, z)` on a block: the row is cast to itself, laid along every row, added, and the maximum with a splat taken. -/
theorem addRow_max_apply {R N : Nat} (z : BitVec 32) (hc1 : (⟨2, ![R, N]⟩ : Shape).ShapeCasts ⟨2, ![R, N]⟩)
    (hc2 : (⟨2, ![1, N]⟩ : Shape).ShapeCasts ⟨2, ![1, N]⟩) (hb : (⟨2, ![1, N]⟩ : Shape).Broadcasts ⟨2, ![R, N]⟩)
    (x : FVec Ideal ⟨2, ![R, N]⟩ .f32) (b : FVec Ideal ⟨2, ![1, N]⟩ .f32) (p : Fin R) (q : Fin N) :
    maximumf (addf (shapeCast ⟨2, ![R, N]⟩ x hc1) (broadcastTo ⟨2, ![R, N]⟩ (shapeCast ⟨2, ![1, N]⟩ b hc2) hb))
        (broadcast ⟨2, ![R, N]⟩ (Scalar.ofBits (F := Ideal) .f32 z)) (ix2 p q)
      = max (x (ix2 p q) + b (ix2 (0 : Fin 1) q)) (Ideal.ofBits .f32 z) := by
  show max (shapeCast ⟨2, ![R, N]⟩ x hc1 (ix2 p q) + broadcastTo ⟨2, ![R, N]⟩ (shapeCast ⟨2, ![1, N]⟩ b hc2) hb (ix2 p q)) _ = _
  rw [shapeCast_self, SoftLayout.row_to_apply, shapeCast_self]
  rfl

/-- A row laid along every row of a block and added, with no cast of the block: `y + row`. -/
theorem addRow_apply_kernel {R N : Nat} (hc2 : (⟨2, ![1, N]⟩ : Shape).ShapeCasts ⟨2, ![1, N]⟩)
    (hb : (⟨2, ![1, N]⟩ : Shape).Broadcasts ⟨2, ![R, N]⟩)
    (y : FVec Ideal ⟨2, ![R, N]⟩ .f32) (b : FVec Ideal ⟨2, ![1, N]⟩ .f32) (p : Fin R) (q : Fin N) :
    addf y (broadcastTo ⟨2, ![R, N]⟩ (shapeCast ⟨2, ![1, N]⟩ b hc2) hb) (ix2 p q) = y (ix2 p q) + b (ix2 (0 : Fin 1) q) := by
  show y (ix2 p q) + broadcastTo ⟨2, ![R, N]⟩ (shapeCast ⟨2, ![1, N]⟩ b hc2) hb (ix2 p q) = _
  rw [SoftLayout.row_to_apply, shapeCast_self]

/-- The same product when the block is first cast to its own shape. -/
theorem matmul_cast_trunc_apply {R K N : Nat} {ψ : FTy} (D : DotDims ⟨2, ![R, K]⟩ ⟨2, ![K, N]⟩ ⟨2, ![R, N]⟩) (hD : D = DotDims.plain R K N)
    (h : ψ.bits < FTy.f32.bits) (hc : (⟨2, ![R, K]⟩ : Shape).ShapeCasts ⟨2, ![R, K]⟩)
    (x : FVec Ideal ⟨2, ![R, K]⟩ .f32) (w : FVec Ideal ⟨2, ![K, N]⟩ .f32) (p : Fin R) (q : Fin N) :
    matmul D none (truncf ψ (shapeCast ⟨2, ![R, K]⟩ x hc) h) (truncf ψ w h) (constant ⟨2, ![R, N]⟩ .f32 0x00000000#32) (ix2 p q)
      = ∑ k : Fin K, x (ix2 p k) * w (ix2 k q) := by
  rw [shapeCast_self]
  exact matmul_trunc_apply D hD h x w p q

/-- The edge network's body on a block of rows: a product, a row added, the maximum with a word's value, a second
    product, a second row added — entry (p, q). -/
theorem edge_apply {R K1 K2 N : Nat} {ψ : FTy}
    (D1 : DotDims ⟨2, ![R, K1]⟩ ⟨2, ![K1, K2]⟩ ⟨2, ![R, K2]⟩) (hD1 : D1 = DotDims.plain R K1 K2)
    (D2 : DotDims ⟨2, ![R, K2]⟩ ⟨2, ![K2, N]⟩ ⟨2, ![R, N]⟩) (hD2 : D2 = DotDims.plain R K2 N)
    (h : ψ.bits < FTy.f32.bits) (z : BitVec 32)
    (hc0 : (⟨2, ![R, K1]⟩ : Shape).ShapeCasts ⟨2, ![R, K1]⟩)
    (hcb1 : (⟨2, ![1, K2]⟩ : Shape).ShapeCasts ⟨2, ![1, K2]⟩) (hbb1 : (⟨2, ![1, K2]⟩ : Shape).Broadcasts ⟨2, ![R, K2]⟩)
    (hcb2 : (⟨2, ![1, N]⟩ : Shape).ShapeCasts ⟨2, ![1, N]⟩) (hbb2 : (⟨2, ![1, N]⟩ : Shape).Broadcasts ⟨2, ![R, N]⟩)
    (x : FVec Ideal ⟨2, ![R, K1]⟩ .f32) (w1 : FVec Ideal ⟨2, ![K1, K2]⟩ .f32) (b1 : FVec Ideal ⟨2, ![1, K2]⟩ .f32)
    (w2 : FVec Ideal ⟨2, ![K2, N]⟩ .f32) (b2 : FVec Ideal ⟨2, ![1, N]⟩ .f32) (p : Fin R) (q : Fin N) :
    addf (matmul D2 none
          (truncf ψ (maximumf (addf (matmul D1 none (truncf ψ (shapeCast ⟨2, ![R, K1]⟩ x hc0) h) (truncf ψ w1 h) (constant ⟨2, ![R, K2]⟩ .f32 0x00000000#32))
              (broadcastTo ⟨2, ![R, K2]⟩ (shapeCast ⟨2, ![1, K2]⟩ b1 hcb1) hbb1))
            (broadcast ⟨2, ![R, K2]⟩ (Scalar.ofBits (F := Ideal) .f32 z))) h)
          (truncf ψ w2 h) (constant ⟨2, ![R, N]⟩ .f32 0x00000000#32))
        (broadcastTo ⟨2, ![R, N]⟩ (shapeCast ⟨2, ![1, N]⟩ b2 hcb2) hbb2) (ix2 p q)
      = (∑ k2 : Fin K2, max ((∑ k1 : Fin K1, x (ix2 p k1) * w1 (ix2 k1 k2)) + b1 (ix2 (0 : Fin 1) k2)) (Ideal.ofBits .f32 z) * w2 (ix2 k2 q))
          + b2 (ix2 (0 : Fin 1) q) := by
  rw [addRow_apply_kernel]
  refine congrArg (· + b2 (ix2 (0 : Fin 1) q)) ?_
  rw [matmul_trunc_apply D2 hD2 h _ w2 p q]
  refine Finset.sum_congr rfl fun k2 _ => congrArg (· * w2 (ix2 k2 q)) ?_
  show max (matmul D1 none (truncf ψ (shapeCast ⟨2, ![R, K1]⟩ x hc0) h) (truncf ψ w1 h) (constant ⟨2, ![R, K2]⟩ .f32 0x00000000#32) (ix2 p k2)
      + broadcastTo ⟨2, ![R, K2]⟩ (shapeCast ⟨2, ![1, K2]⟩ b1 hcb1) hbb1 (ix2 p k2)) _ = _
  rw [matmul_cast_trunc_apply D1 hD1 h hc0 x w1 p k2, SoftLayout.row_to_apply, shapeCast_self]
  rfl

/-! ## The same three on the host: whole-array operations as the entry-by-entry functions above -/

/-- The host's product of an [M, K] by a [K, N] matrix is `prod`. -/
theorem dotGeneral_eq_prod {M K N : Nat} (D : DotDims ⟨2, ![M, K]⟩ ⟨2, ![K, N]⟩ ⟨2, ![M, N]⟩) (hD : D = DotDims.plain M K N)
    (A : FVec Ideal ⟨2, ![M, K]⟩ .f32) (B : FVec Ideal ⟨2, ![K, N]⟩ .f32) : Host.dotGeneral D none A B = prod A B := by
  funext i
  obtain ⟨p, q, rfl⟩ : ∃ (p : Fin M) (q : Fin N), i = ix2 p q := ⟨i 0, i 1, eq_ix2 i⟩
  exact RowOps.dotGeneral_apply D hD none A B p q

/-- The host's sum of a matrix and a one-row matrix broadcast down its rows is `addRow`. -/
theorem addf_oneRow_eq_addRow {M N : Nat} (hbc : (⟨2, ![1, N]⟩ : Shape).BroadcastsInDim ⟨2, ![M, N]⟩ ![0, 1])
    (A : FVec Ideal ⟨2, ![M, N]⟩ .f32) (b : FVec Ideal ⟨2, ![1, N]⟩ .f32) :
    addf A (broadcastInDim ⟨2, ![M, N]⟩ ![0, 1] hbc b) = addRow A b := by
  funext i
  obtain ⟨p, q, rfl⟩ : ∃ (p : Fin M) (q : Fin N), i = ix2 p q := ⟨i 0, i 1, eq_ix2 i⟩
  show A (ix2 p q) + broadcastInDim ⟨2, ![M, N]⟩ ![0, 1] hbc b (ix2 p q) = _
  rw [broadcastInDim_oneRow_apply]
  rfl

/-- The host's maximum of a matrix with a scalar constant broadcast over it is `maxWord`. -/
theorem maximumf_const_eq_maxWord {M N : Nat} (z : BitVec 32)
    (h0 : (⟨0, ![]⟩ : Shape).BroadcastsInDim ⟨2, ![M, N]⟩ (![] : Fin 0 → Fin 2))
    (A : FVec Ideal ⟨2, ![M, N]⟩ .f32) :
    maximumf A (broadcastInDim ⟨2, ![M, N]⟩ ![] h0 (constant ⟨0, ![]⟩ .f32 z)) = maxWord A z := by
  funext i
  rfl

/-- A vector stood up as one row by a cast is the same vector broadcast along axis 1 of a one-row matrix. -/
theorem vecRow_cast_eq_broadcast {N : Nat} {α : Type} (h : (⟨1, ![N]⟩ : Shape).ShapeCasts ⟨2, ![1, N]⟩)
    (h' : (⟨1, ![N]⟩ : Shape).BroadcastsInDim ⟨2, ![1, N]⟩ (![1] : Fin 1 → Fin 2)) (v : (⟨1, ![N]⟩ : Shape).Idx → α) :
    shapeCast ⟨2, ![1, N]⟩ v h = broadcastInDim ⟨2, ![1, N]⟩ ![1] h' v := by
  funext i
  obtain ⟨z, q, rfl⟩ : ∃ (z : Fin 1) (q : Fin N), i = ix2 z q := ⟨i 0, i 1, eq_ix2 i⟩
  rw [SoftLayout.vec_row_cast_apply]
  refine (broadcastInDim_apply ![1] h' v (ix2 z q) (ix1 q) fun a => ?_).symm
  match a with
  | ⟨0, _⟩ =>
    show q.val = if N = 1 then 0 else q.val
    split
    · have := q.isLt; omega
    · rfl

end RowBlocks

end
-- ==== Proof.LinSum.lean ====
/-
  A sum of matrix products plus a row, three ways, on the extended reals.
  For blocks X_0 … X_{n-1} of N rows and 128 columns, square matrices W_0 … W_{n-1} of order 128 and a row b of
  128 entries, the specification is the matrix whose entry (p, q) is
      Σ_k X_0(p,k)·W_0(k,q) + … + Σ_k X_{n-1}(p,k)·W_{n-1}(k,q) + b(0,q),
  for n = 2, 3, 4. A kernel computes it starting from a zero block, adding the products one after another (each factor
  first rounded to a shorter format, which is the identity on the extended reals) and the row last; a host program adds
  the row to the first product and then the remaining products. Addition of extended reals is commutative and
  associative and 0 + x = x, so all three are the same matrix; nothing about finiteness is used.
-/
import Idealize.ShloMosaic.Lib.Pipeline.Value
import Idealize.ShloMosaic.Lib.ValueIdx
import Idealize.ShloMosaic.PureOps.Ideal.Laws
import Idealize.ShloMosaic.Lib.KernelVsHost
import proofs.«139170_j4398046511496_1_alg».proof.Proof.Gen.KernelIdeal.Skeleton
import proofs.«139170_j4398046511496_1_alg».proof.Proof.LibRowBlocks

noncomputable section

open scoped BigOperators

namespace LinSum

open Idealize.ShloMosaic Idealize.ShloMosaic.ValueIdx Cert.KernelIdeal Cert.KernelIdeal.Gen

/-! ## The specification -/

/-- Two products and a row: entry (p, q) is Σ_k x0(p,k)·w0(k,q) + Σ_k x1(p,k)·w1(k,q) + b(0,q). -/
def lin2 {N : Nat} (x0 x1 : FVec Ideal ⟨2, ![N, 128]⟩ .f32) (w0 w1 : FVec Ideal ⟨2, ![128, 128]⟩ .f32)
    (b : FVec Ideal ⟨2, ![1, 128]⟩ .f32) : FVec Ideal ⟨2, ![N, 128]⟩ .f32 :=
  RowBlocks.addRow (addf (RowBlocks.prod x0 w0) (RowBlocks.prod x1 w1)) b

/-- Three products and a row. -/
def lin3 {N : Nat} (x0 x1 x2 : FVec Ideal ⟨2, ![N, 128]⟩ .f32) (w0 w1 w2 : FVec Ideal ⟨2, ![128, 128]⟩ .f32)
    (b : FVec Ideal ⟨2, ![1, 128]⟩ .f32) : FVec Ideal ⟨2, ![N, 128]⟩ .f32 :=
  RowBlocks.addRow (addf (addf (RowBlocks.prod x0 w0) (RowBlocks.prod x1 w1)) (RowBlocks.prod x2 w2)) b

/-- Four products and a row. -/
def lin4 {N : Nat} (x0 x1 x2 x3 : FVec Ideal ⟨2, ![N, 128]⟩ .f32) (w0 w1 w2 w3 : FVec Ideal ⟨2, ![128, 128]⟩ .f32)
    (b : FVec Ideal ⟨2, ![1, 128]⟩ .f32) : FVec Ideal ⟨2, ![N, 128]⟩ .f32 :=
  RowBlocks.addRow (addf (addf (addf (RowBlocks.prod x0 w0) (RowBlocks.prod x1 w1)) (RowBlocks.prod x2 w2)) (RowBlocks.prod x3 w3)) b

theorem lin2_apply {N : Nat} (x0 x1 : FVec Ideal ⟨2, ![N, 128]⟩ .f32) (w0 w1 : FVec Ideal ⟨2, ![128, 128]⟩ .f32)
    (b : FVec Ideal ⟨2, ![1, 128]⟩ .f32) (p : Fin N) (q : Fin 128) :
    lin2 x0 x1 w0 w1 b (ix2 p q)
      = (∑ k : Fin 128, x0 (ix2 p k) * w0 (ix2 k q)) + (∑ k : Fin 128, x1 (ix2 p k) * w1 (ix2 k q))
          + b (ix2 (0 : Fin 1) q) := rfl

theorem lin3_apply {N : Nat} (x0 x1 x2 : FVec Ideal ⟨2, ![N, 128]⟩ .f32) (w0 w1 w2 : FVec Ideal ⟨2, ![128, 128]⟩ .f32)
    (b : FVec Ideal ⟨2, ![1, 128]⟩ .f32) (p : Fin N) (q : Fin 128) :
    lin3 x0 x1 x2 w0 w1 w2 b (ix2 p q)
      = (∑ k : Fin 128, x0 (ix2 p k) * w0 (ix2 k q)) + (∑ k : Fin 128, x1 (ix2 p k) * w1 (ix2 k q))
          + (∑ k : Fin 128, x2 (ix2 p k) * w2 (ix2 k q)) + b (ix2 (0 : Fin 1) q) := rfl

theorem lin4_apply {N : Nat} (x0 x1 x2 x3 : FVec Ideal ⟨2, ![N, 128]⟩ .f32) (w0 w1 w2 w3 : FVec Ideal ⟨2, ![128, 128]⟩ .f32)
    (b : FVec Ideal ⟨2, ![1, 128]⟩ .f32) (p : Fin N) (q : Fin 128) :
    lin4 x0 x1 x2 x3 w0 w1 w2 w3 b (ix2 p q)
      = (∑ k : Fin 128, x0 (ix2 p k) * w0 (ix2 k q)) + (∑ k : Fin 128, x1 (ix2 p k) * w1 (ix2 k q))
          + (∑ k : Fin 128, x2 (ix2 p k) * w2 (ix2 k q)) + (∑ k : Fin 128, x3 (ix2 p k) * w3 (ix2 k q))
          + b (ix2 (0 : Fin 1) q) := rfl

/-! ## A kernel's body on a block of R rows, at an entry

  The body starts from a splat of the zero word, adds the products one after another (the first block as it is, each
  later block cast to its own shape first), casts the row to its own shape twice, lays it along every row and adds it. -/

/-- The first accumulation: a zero splat plus a product is the product. -/
theorem zero_add_matmul_apply {R : Nat} (D : DotDims ⟨2, ![R, 128]⟩ ⟨2, ![128, 128]⟩ ⟨2, ![R, 128]⟩)
    (hD : D = DotDims.plain R 128 128) (h : FTy.bf16.bits < FTy.f32.bits)
    (x : FVec Ideal ⟨2, ![R, 128]⟩ .f32) (w : FVec Ideal ⟨2, ![128, 128]⟩ .f32) (p : Fin R) (q : Fin 128) :
    addf (broadcast ⟨2, ![R, 128]⟩ (Scalar.ofBits (F := Ideal) .f32 0x00000000#32))
        (matmul D none (truncf .bf16 x h) (truncf .bf16 w h) (constant ⟨2, ![R, 128]⟩ .f32 0x00000000#32)) (ix2 p q)
      = ∑ k : Fin 128, x (ix2 p k) * w (ix2 k q) := by
  show Ideal.ofBits .f32 0x00000000#32
      + matmul D none (truncf .bf16 x h) (truncf .bf16 w h) (constant ⟨2, ![R, 128]⟩ .f32 0x00000000#32) (ix2 p q) = _
  rw [Ideal.ofBits_zero_f32, zero_add]
  exact RowBlocks.matmul_trunc_apply D hD h x w p q

/-- One more accumulation: a block plus the product of a block cast to its own shape. -/
theorem add_matmul_cast_apply {R : Nat} (D : DotDims ⟨2, ![R, 128]⟩ ⟨2, ![128, 128]⟩ ⟨2, ![R, 128]⟩)
    (hD : D = DotDims.plain R 128 128) (h : FTy.bf16.bits < FTy.f32.bits)
    (hc : (⟨2, ![R, 128]⟩ : Shape).ShapeCasts ⟨2, ![R, 128]⟩)
    (y : FVec Ideal ⟨2, ![R, 128]⟩ .f32)
    (x : FVec Ideal ⟨2, ![R, 128]⟩ .f32) (w : FVec Ideal ⟨2, ![128, 128]⟩ .f32) (p : Fin R) (q : Fin 128) :
    addf y (matmul D none (truncf .bf16 (shapeCast ⟨2, ![R, 128]⟩ x hc) h) (truncf .bf16 w h)
        (constant ⟨2, ![R, 128]⟩ .f32 0x00000000#32)) (ix2 p q)
      = y (ix2 p q) + ∑ k : Fin 128, x (ix2 p k) * w (ix2 k q) :=
  congrArg (y (ix2 p q) + ·) (RowBlocks.matmul_cast_trunc_apply D hD h hc x w p q)

/-- The last step: a row cast to its own shape twice, laid along every row and added. -/
theorem add_row_cast2_apply {R : Nat} (hcb : (⟨2, ![1, 128]⟩ : Shape).ShapeCasts ⟨2, ![1, 128]⟩)
    (hb : (⟨2, ![1, 128]⟩ : Shape).Broadcasts ⟨2, ![R, 128]⟩)
    (y : FVec Ideal ⟨2, ![R, 128]⟩ .f32) (b : FVec Ideal ⟨2, ![1, 128]⟩ .f32) (p : Fin R) (q : Fin 128) :
    addf y (broadcastTo ⟨2, ![R, 128]⟩ (shapeCast ⟨2, ![1, 128]⟩ (shapeCast ⟨2, ![1, 128]⟩ b hcb) hcb) hb) (ix2 p q)
      = y (ix2 p q) + b (ix2 (0 : Fin 1) q) := by
  rw [RowBlocks.addRow_apply_kernel hcb hb y (shapeCast ⟨2, ![1, 128]⟩ b hcb) p q, shapeCast_self]

/-- The generated dimension record of the products is the plain one. -/
theorem dims_plain : dot_S2000x128_S128x128_S2000x128_1_0_0_1_n_n = DotDims.plain 2000 128 128 := rfl

/-! ## The four payloads at an entry -/

/-- The body with two products, on a block of R rows. -/
theorem ker2_apply {R : Nat} (D : DotDims ⟨2, ![R, 128]⟩ ⟨2, ![128, 128]⟩ ⟨2, ![R, 128]⟩)
    (hD : D = DotDims.plain R 128 128) (h : FTy.bf16.bits < FTy.f32.bits)
    (hc : (⟨2, ![R, 128]⟩ : Shape).ShapeCasts ⟨2, ![R, 128]⟩)
    (hcb : (⟨2, ![1, 128]⟩ : Shape).ShapeCasts ⟨2, ![1, 128]⟩)
    (hb : (⟨2, ![1, 128]⟩ : Shape).Broadcasts ⟨2, ![R, 128]⟩)
    (x0 x1 : FVec Ideal ⟨2, ![R, 128]⟩ .f32) (w0 w1 : FVec Ideal ⟨2, ![128, 128]⟩ .f32)
    (b : FVec Ideal ⟨2, ![1, 128]⟩ .f32) (p : Fin R) (q : Fin 128) :
    addf (addf (addf (broadcast ⟨2, ![R, 128]⟩ (Scalar.ofBits (F := Ideal) .f32 0x00000000#32))
            (matmul D none (truncf .bf16 x0 h) (truncf .bf16 w0 h) (constant ⟨2, ![R, 128]⟩ .f32 0x00000000#32)))
          (matmul D none (truncf .bf16 (shapeCast ⟨2, ![R, 128]⟩ x1 hc) h) (truncf .bf16 w1 h)
            (constant ⟨2, ![R, 128]⟩ .f32 0x00000000#32)))
        (broadcastTo ⟨2, ![R, 128]⟩ (shapeCast ⟨2, ![1, 128]⟩ (shapeCast ⟨2, ![1, 128]⟩ b hcb) hcb) hb) (ix2 p q)
      = lin2 x0 x1 w0 w1 b (ix2 p q) := by
  rw [add_row_cast2_apply, add_matmul_cast_apply D hD, zero_add_matmul_apply D hD]
  rfl

/-- The body with three products. -/
theorem ker3_apply {R : Nat} (D : DotDims ⟨2, ![R, 128]⟩ ⟨2, ![128, 128]⟩ ⟨2, ![R, 128]⟩)
    (hD : D = DotDims.plain R 128 128) (h : FTy.bf16.bits < FTy.f32.bits)
    (hc : (⟨2, ![R, 128]⟩ : Shape).ShapeCasts ⟨2, ![R, 128]⟩)
    (hcb : (⟨2, ![1, 128]⟩ : Shape).ShapeCasts ⟨2, ![1, 128]⟩)
    (hb : (⟨2, ![1, 128]⟩ : Shape).Broadcasts ⟨2, ![R, 128]⟩)
    (x0 x1 x2 : FVec Ideal ⟨2, ![R, 128]⟩ .f32) (w0 w1 w2 : FVec Ideal ⟨2, ![128, 128]⟩ .f32)
    (b : FVec Ideal ⟨2, ![1, 128]⟩ .f32) (p : Fin R) (q : Fin 128) :
    addf (addf (addf (addf (broadcast ⟨2, ![R, 128]⟩ (Scalar.ofBits (F := Ideal) .f32 0x00000000#32))
              (matmul D none (truncf .bf16 x0 h) (truncf .bf16 w0 h) (constant ⟨2, ![R, 128]⟩ .f32 0x00000000#32)))
            (matmul D none (truncf .bf16 (shapeCast ⟨2, ![R, 128]⟩ x1 hc) h) (truncf .bf16 w1 h)
              (constant ⟨2, ![R, 128]⟩ .f32 0x00000000#32)))
          (matmul D none (truncf .bf16 (shapeCast ⟨2, ![R, 128]⟩ x2 hc) h) (truncf .bf16 w2 h)
            (constant ⟨2, ![R, 128]⟩ .f32 0x00000000#32)))
        (broadcastTo ⟨2, ![R, 128]⟩ (shapeCast ⟨2, ![1, 128]⟩ (shapeCast ⟨2, ![1, 128]⟩ b hcb) hcb) hb) (ix2 p q)
      = lin3 x0 x1 x2 w0 w1 w2 b (ix2 p q) := by
  rw [add_row_cast2_apply, add_matmul_cast_apply D hD, add_matmul_cast_apply D hD, zero_add_matmul_apply D hD]
  rfl

/-- The body with four products. -/
theorem ker4_apply {R : Nat} (D : DotDims ⟨2, ![R, 128]⟩ ⟨2, ![128, 128]⟩ ⟨2, ![R, 128]⟩)
    (hD : D = DotDims.plain R 128 128) (h : FTy.bf16.bits < FTy.f32.bits)
    (hc : (⟨2, ![R, 128]⟩ : Shape).ShapeCasts ⟨2, ![R, 128]⟩)
    (hcb : (⟨2, ![1, 128]⟩ : Shape).ShapeCasts ⟨2, ![1, 128]⟩)
    (hb : (⟨2, ![1, 128]⟩ : Shape).Broadcasts ⟨2, ![R, 128]⟩)
    (x0 x1 x2 x3 : FVec Ideal ⟨2, ![R, 128]⟩ .f32) (w0 w1 w2 w3 : FVec Ideal ⟨2, ![128, 128]⟩ .f32)
    (b : FVec Ideal ⟨2, ![1, 128]⟩ .f32) (p : Fin R) (q : Fin 128) :
    addf (addf (addf (addf (addf (broadcast ⟨2, ![R, 128]⟩ (Scalar.ofBits (F := Ideal) .f32 0x00000000#32))
                (matmul D none (truncf .bf16 x0 h) (truncf .bf16 w0 h) (constant ⟨2, ![R, 128]⟩ .f32 0x00000000#32)))
              (matmul D none (truncf .bf16 (shapeCast ⟨2, ![R, 128]⟩ x1 hc) h) (truncf .bf16 w1 h)
                (constant ⟨2, ![R, 128]⟩ .f32 0x00000000#32)))
            (matmul D none (truncf .bf16 (shapeCast ⟨2, ![R, 128]⟩ x2 hc) h) (truncf .bf16 w2 h)
              (constant ⟨2, ![R, 128]⟩ .f32 0x00000000#32)))
          (matmul D none (truncf .bf16 (shapeCast ⟨2, ![R, 128]⟩ x3 hc) h) (truncf .bf16 w3 h)
            (constant ⟨2, ![R, 128]⟩ .f32 0x00000000#32)))
        (broadcastTo ⟨2, ![R, 128]⟩ (shapeCast ⟨2, ![1, 128]⟩ (shapeCast ⟨2, ![1, 128]⟩ b hcb) hcb) hb) (ix2 p q)
      = lin4 x0 x1 x2 x3 w0 w1 w2 w3 b (ix2 p q) := by
  rw [add_row_cast2_apply, add_matmul_cast_apply D hD, add_matmul_cast_apply D hD, add_matmul_cast_apply D hD,
    zero_add_matmul_apply D hD]
  rfl

/-- The first launch's stored value: three products and the row. -/
theorem pay0_at (v1 : FVec Ideal S2000x128 .f32) (v3 : FVec Ideal S128x128 .f32) (v7 : FVec Ideal S2000x128 .f32)
    (v10 : FVec Ideal S128x128 .f32) (v14 : FVec Ideal S2000x128 .f32) (v17 : FVec Ideal S128x128 .f32)
    (v21 : FVec Ideal S1x128 .f32) (p : Fin 2000) (q : Fin 128) :
    k0_pay1 (F := Ideal) v1 v3 v7 v10 v14 v17 v21 (ix2 p q) = lin3 (N := 2000) v1 v7 v14 v3 v10 v17 v21 (ix2 p q) :=
  ker3_apply dot_S2000x128_S128x128_S2000x128_1_0_0_1_n_n dims_plain bitsLt_bf16_f32 shapeCasts_S2000x128_S2000x128
    shapeCasts_S1x128_S1x128 broadcasts_S1x128_S2000x128 v1 v7 v14 v3 v10 v17 v21 p q

/-- The second launch's stored value: two products and the row. -/
theorem pay1_at (v1 : FVec Ideal S2000x128 .f32) (v3 : FVec Ideal S128x128 .f32) (v7 : FVec Ideal S2000x128 .f32)
    (v10 : FVec Ideal S128x128 .f32) (v14 : FVec Ideal S1x128 .f32) (p : Fin 2000) (q : Fin 128) :
    k1_pay1 (F := Ideal) v1 v3 v7 v10 v14 (ix2 p q) = lin2 (N := 2000) v1 v7 v3 v10 v14 (ix2 p q) :=
  ker2_apply dot_S2000x128_S128x128_S2000x128_1_0_0_1_n_n dims_plain bitsLt_bf16_f32 shapeCasts_S2000x128_S2000x128
    shapeCasts_S1x128_S1x128 broadcasts_S1x128_S2000x128 v1 v7 v3 v10 v14 p q

/-- The third launch's stored value: two products and the row. -/
theorem pay2_at (v1 : FVec Ideal S2000x128 .f32) (v3 : FVec Ideal S128x128 .f32) (v7 : FVec Ideal S2000x128 .f32)
    (v10 : FVec Ideal S128x128 .f32) (v14 : FVec Ideal S1x128 .f32) (p : Fin 2000) (q : Fin 128) :
    k2_pay1 (F := Ideal) v1 v3 v7 v10 v14 (ix2 p q) = lin2 (N := 2000) v1 v7 v3 v10 v14 (ix2 p q) :=
  ker2_apply dot_S2000x128_S128x128_S2000x128_1_0_0_1_n_n dims_plain bitsLt_bf16_f32 shapeCasts_S2000x128_S2000x128
    shapeCasts_S1x128_S1x128 broadcasts_S1x128_S2000x128 v1 v7 v3 v10 v14 p q

/-- The fourth launch's value: four products and the row. -/
theorem pay3_at (v1 : FVec Ideal S2000x128 .f32) (v3 : FVec Ideal S128x128 .f32) (v7 : FVec Ideal S2000x128 .f32)
    (v10 : FVec Ideal S128x128 .f32) (v14 : FVec Ideal S2000x128 .f32) (v17 : FVec Ideal S128x128 .f32)
    (v21 : FVec Ideal S2000x128 .f32) (v24 : FVec Ideal S128x128 .f32) (v28 : FVec Ideal S1x128 .f32)
    (p : Fin 2000) (q : Fin 128) :
    k3_pay1 (F := Ideal) v1 v3 v7 v10 v14 v17 v21 v24 v28 (ix2 p q)
      = lin4 (N := 2000) v1 v7 v14 v21 v3 v10 v17 v24 v28 (ix2 p q) :=
  ker4_apply dot_S2000x128_S128x128_S2000x128_1_0_0_1_n_n dims_plain bitsLt_bf16_f32 shapeCasts_S2000x128_S2000x128
    shapeCasts_S1x128_S1x128 broadcasts_S1x128_S2000x128 v1 v7 v14 v21 v3 v10 v17 v24 v28 p q

/-! ## The host's sums as whole arrays

  The host adds the row (a vector stood up as one row and laid along every row) to the first product and then the other
  products; moving the row to the end is commutativity and associativity of addition. -/

theorem ref2_eq {N : Nat} (D : DotDims ⟨2, ![N, 128]⟩ ⟨2, ![128, 128]⟩ ⟨2, ![N, 128]⟩) (hD : D = DotDims.plain N 128 128)
    (h1 : (⟨1, ![128]⟩ : Shape).BroadcastsInDim ⟨2, ![1, 128]⟩ (![1] : Fin 1 → Fin 2))
    (h2 : (⟨2, ![1, 128]⟩ : Shape).BroadcastsInDim ⟨2, ![N, 128]⟩ ![0, 1])
    (hc : (⟨1, ![128]⟩ : Shape).ShapeCasts ⟨2, ![1, 128]⟩)
    (x0 x1 : FVec Ideal ⟨2, ![N, 128]⟩ .f32) (w0 w1 : FVec Ideal ⟨2, ![128, 128]⟩ .f32)
    (bv : FVec Ideal ⟨1, ![128]⟩ .f32) :
    addf (addf (Host.dotGeneral D none x0 w0)
          (broadcastInDim ⟨2, ![N, 128]⟩ ![0, 1] h2 (broadcastInDim ⟨2, ![1, 128]⟩ ![1] h1 bv)))
        (Host.dotGeneral D none x1 w1)
      = lin2 x0 x1 w0 w1 (shapeCast ⟨2, ![1, 128]⟩ bv hc) := by
  rw [RowBlocks.dotGeneral_eq_prod D hD, RowBlocks.dotGeneral_eq_prod D hD, ← RowBlocks.vecRow_cast_eq_broadcast hc h1 bv,
    RowBlocks.addf_oneRow_eq_addRow h2]
  funext i
  obtain ⟨p, q, rfl⟩ : ∃ (p : Fin N) (q : Fin 128), i = ix2 p q := ⟨i 0, i 1, eq_ix2 i⟩
  rw [lin2_apply]
  exact add_right_comm _ _ _

theorem ref3_eq {N : Nat} (D : DotDims ⟨2, ![N, 128]⟩ ⟨2, ![128, 128]⟩ ⟨2, ![N, 128]⟩) (hD : D = DotDims.plain N 128 128)
    (h1 : (⟨1, ![128]⟩ : Shape).BroadcastsInDim ⟨2, ![1, 128]⟩ (![1] : Fin 1 → Fin 2))
    (h2 : (⟨2, ![1, 128]⟩ : Shape).BroadcastsInDim ⟨2, ![N, 128]⟩ ![0, 1])
    (hc : (⟨1, ![128]⟩ : Shape).ShapeCasts ⟨2, ![1, 128]⟩)
    (x0 x1 x2 : FVec Ideal ⟨2, ![N, 128]⟩ .f32) (w0 w1 w2 : FVec Ideal ⟨2, ![128, 128]⟩ .f32)
    (bv : FVec Ideal ⟨1, ![128]⟩ .f32) :
    addf (addf (addf (Host.dotGeneral D none x0 w0)
            (broadcastInDim ⟨2, ![N, 128]⟩ ![0, 1] h2 (broadcastInDim ⟨2, ![1, 128]⟩ ![1] h1 bv)))
          (Host.dotGeneral D none x1 w1))
        (Host.dotGeneral D none x2 w2)
      = lin3 x0 x1 x2 w0 w1 w2 (shapeCast ⟨2, ![1, 128]⟩ bv hc) := by
  rw [RowBlocks.dotGeneral_eq_prod D hD, RowBlocks.dotGeneral_eq_prod D hD, RowBlocks.dotGeneral_eq_prod D hD,
    ← RowBlocks.vecRow_cast_eq_broadcast hc h1 bv, RowBlocks.addf_oneRow_eq_addRow h2]
  funext i
  obtain ⟨p, q, rfl⟩ : ∃ (p : Fin N) (q : Fin 128), i = ix2 p q := ⟨i 0, i 1, eq_ix2 i⟩
  rw [lin3_apply]
  show ((RowBlocks.prod x0 w0 (ix2 p q) + shapeCast ⟨2, ![1, 128]⟩ bv hc (ix2 (0 : Fin 1) q)) + RowBlocks.prod x1 w1 (ix2 p q))
      + RowBlocks.prod x2 w2 (ix2 p q) = _
  rw [add_right_comm (RowBlocks.prod x0 w0 (ix2 p q)), add_right_comm (_ + _) _ (RowBlocks.prod x2 w2 (ix2 p q))]
  rfl

theorem ref4_eq {N : Nat} (D : DotDims ⟨2, ![N, 128]⟩ ⟨2, ![128, 128]⟩ ⟨2, ![N, 128]⟩) (hD : D = DotDims.plain N 128 128)
    (h1 : (⟨1, ![128]⟩ : Shape).BroadcastsInDim ⟨2, ![1, 128]⟩ (![1] : Fin 1 → Fin 2))
    (h2 : (⟨2, ![1, 128]⟩ : Shape).BroadcastsInDim ⟨2, ![N, 128]⟩ ![0, 1])
    (hc : (⟨1, ![128]⟩ : Shape).ShapeCasts ⟨2, ![1, 128]⟩)
    (x0 x1 x2 x3 : FVec Ideal ⟨2, ![N, 128]⟩ .f32) (w0 w1 w2 w3 : FVec Ideal ⟨2, ![128, 128]⟩ .f32)
    (bv : FVec Ideal ⟨1, ![128]⟩ .f32) :
    addf (addf (addf (addf (Host.dotGeneral D none x0 w0)
              (broadcastInDim ⟨2, ![N, 128]⟩ ![0, 1] h2 (broadcastInDim ⟨2, ![1, 128]⟩ ![1] h1 bv)))
            (Host.dotGeneral D none x1 w1))
          (Host.dotGeneral D none x2 w2))
        (Host.dotGeneral D none x3 w3)
      = lin4 x0 x1 x2 x3 w0 w1 w2 w3 (shapeCast ⟨2, ![1, 128]⟩ bv hc) := by
  rw [RowBlocks.dotGeneral_eq_prod D hD, RowBlocks.dotGeneral_eq_prod D hD, RowBlocks.dotGeneral_eq_prod D hD,
    RowBlocks.dotGeneral_eq_prod D hD, ← RowBlocks.vecRow_cast_eq_broadcast hc h1 bv, RowBlocks.addf_oneRow_eq_addRow h2]
  funext i
  obtain ⟨p, q, rfl⟩ : ∃ (p : Fin N) (q : Fin 128), i = ix2 p q := ⟨i 0, i 1, eq_ix2 i⟩
  rw [lin4_apply]
  show (((RowBlocks.prod x0 w0 (ix2 p q) + shapeCast ⟨2, ![1, 128]⟩ bv hc (ix2 (0 : Fin 1) q)) + RowBlocks.prod x1 w1 (ix2 p q))
      + RowBlocks.prod x2 w2 (ix2 p q)) + RowBlocks.prod x3 w3 (ix2 p q) = _
  rw [add_right_comm (RowBlocks.prod x0 w0 (ix2 p q)), add_right_comm (_ + _) _ (RowBlocks.prod x2 w2 (ix2 p q)),
    add_right_comm (_ + _) _ (RowBlocks.prod x3 w3 (ix2 p q))]
  rfl

end LinSum

end
-- ==== Proof.IdealWhole0.lean ====
/-
  Launch 0, on the extended reals: the output array after the launch is one function of the launch's input arrays. A grid
  point's block of the output is rows 2000·t … 2000·t + 1999; its entry (p, q) is the sum over the 3 terms of row 2000·t + p of
  the term's table times column q of its weights, plus the bias row's entry q — the same expression as entry (2000·t + p, q) of
  the whole-array sum. The 50 blocks tile the 100000 rows, so the array ends holding that whole-array sum.
-/
import proofs.«139170_j4398046511496_1_alg».proof.Proof.IdealRegion0
import proofs.«139170_j4398046511496_1_alg».proof.Proof.LinSum

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open LinSum

variable (V : (c : Dev nD) → (b : Ref sig .tc) → Buf (Elt Ideal) ((c : Thread nD τ).loc b))

theorem origin0 : (![0, 0] : Fin 2 → Nat) = fun _ => 0 := funext fun a => by fin_cases a <;> rfl

/-- The index maps over the grid: a row-blocked operand's block at point `t` is block `t` along the rows; the weights and the
    bias row are whole at every point. -/
theorem index0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_7.index t (0 : Fin 2) = t.val ∧ win0_7.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem rows0 (t : Fin cfg0.N) (p : Fin 2000) : t.val * 2000 + p.val < 100000 := by
  have h : t.val < grid0.N := t.isLt
  have hN : grid0.N = 50 := N_0
  have hp := p.isLt; omega

/-- Row-blocked operand 0's block at point `t`, entry (p, k), is its array's entry (2000·t + p, k). -/
theorem block0_0_at (c : Dev nD) (t : Fin cfg0.N) (p : Fin 2000) (k : Fin 128) :
    block0 V c 0 t (ix2 p k) = V c main_arg0 (ix2 (⟨t.val * 2000 + p.val, rows0 t p⟩ : Fin 100000) k) := by
  unfold block0
  show V c main_arg0 (((cfg0.win 0).blk t).view.emb (ix2 p k)) = _
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row-blocked operand 1's block at point `t`, entry (p, k), is its array's entry (2000·t + p, k). -/
theorem block0_1_at (c : Dev nD) (t : Fin cfg0.N) (p : Fin 2000) (k : Fin 128) :
    block0 V c 1 t (ix2 p k) = V c main_v37 (ix2 (⟨t.val * 2000 + p.val, rows0 t p⟩ : Fin 100000) k) := by
  unfold block0
  show V c main_v37 (((cfg0.win 1).blk t).view.emb (ix2 p k)) = _
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_1.index t (0 : Fin 2) * 2000 + 1 * p.val = t.val * 2000 + p.val; omega
  | ⟨1, _⟩ => show win0_1.index t (1 : Fin 2) * 128 + 1 * k.val = k.val; omega

/-- Row-blocked operand 2's block at point `t`, entry (p, k), is its array's entry (2000·t + p, k). -/
theorem block0_2_at (c : Dev nD) (t : Fin cfg0.N) (p : Fin 2000) (k : Fin 128) :
    block0 V c 2 t (ix2 p k) = V c main_v75 (ix2 (⟨t.val * 2000 + p.val, rows0 t p⟩ : Fin 100000) k) := by
  unfold block0
  show V c main_v75 (((cfg0.win 2).blk t).view.emb (ix2 p k)) = _
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_2.index t (0 : Fin 2) * 2000 + 1 * p.val = t.val * 2000 + p.val; omega
  | ⟨1, _⟩ => show win0_2.index t (1 : Fin 2) * 128 + 1 * k.val = k.val; omega

/-- Operand 3 is whole at every point: its block is its array. -/
theorem block0_3_eq (c : Dev nD) (t : Fin cfg0.N) : block0 V c 3 t = V c main_arg4 := by
  unfold block0
  funext y
  show V c main_arg4 (((cfg0.win 3).blk t).view.emb y) = V c main_arg4 y
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Operand 4 is whole at every point: its block is its array. -/
theorem block0_4_eq (c : Dev nD) (t : Fin cfg0.N) : block0 V c 4 t = V c main_arg13 := by
  unfold block0
  funext y
  show V c main_arg13 (((cfg0.win 4).blk t).view.emb y) = V c main_arg13 y
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Operand 5 is whole at every point: its block is its array. -/
theorem block0_5_eq (c : Dev nD) (t : Fin cfg0.N) : block0 V c 5 t = V c main_arg15 := by
  unfold block0
  funext y
  show V c main_arg15 (((cfg0.win 5).blk t).view.emb y) = V c main_arg15 y
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Operand 6 is whole at every point: its block is its array. -/
theorem block0_6_eq (c : Dev nD) (t : Fin cfg0.N) : block0 V c 6 t = V c main_v133 := by
  unfold block0
  funext y
  show V c main_v133 (((cfg0.win 6).blk t).view.emb y) = V c main_v133 y
  refine congrArg _ (funext fun a => Fin.ext ?_)
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Entry (p, q) of the body's result on blocks that are rows r of the tables, the whole weights and the whole bias row is
    entry (r, q) of the whole-array sum. -/
theorem tile0_entry (X0 X1 X2 : FVec Ideal ⟨2, ![100000, 128]⟩ .f32) (W0 W1 W2 : FVec Ideal S128x128 .f32) (B : FVec Ideal S1x128 .f32)
    (x0 x1 x2 : FVec Ideal S2000x128 .f32) (w0 w1 w2 : FVec Ideal S128x128 .f32) (b : FVec Ideal S1x128 .f32)
    (r : Fin 100000) (p : Fin 2000) (q : Fin 128)
    (h0 : ∀ k : Fin 128, x0 (ix2 p k) = X0 (ix2 r k)) (h1 : ∀ k : Fin 128, x1 (ix2 p k) = X1 (ix2 r k)) (h2 : ∀ k : Fin 128, x2 (ix2 p k) = X2 (ix2 r k))
    (g0 : w0 = W0) (g1 : w1 = W1) (g2 : w2 = W2) (gb : b = B) :
    k0_pay1 (F := Ideal) x0 w0 x1 w1 x2 w2 b (ix2 p q) = lin3 (N := 100000) X0 X1 X2 W0 W1 W2 B (ix2 r q) := by
  subst g0 g1 g2 gb
  rw [pay0_at, lin3_apply, lin3_apply]
  simp only [h0, h1, h2]

/-- What grid point `t` writes back is block `t` of the whole-array sum of the arrays as the launch finds them. -/
theorem wrote0 (c : Dev nD) (t : Fin cfg0.N) :
    (data0 V c).flushed 7 t = ((cfg0.win 7).blk t).view.read (Elt Ideal) (lin3 (N := 100000) (V c main_arg0) (V c main_v37) (V c main_v75) (V c main_arg4) (V c main_arg13) (V c main_arg15) (V c main_v133)) := by
  show (cfg0.win 7).cut (grid0.coords t) ((data0 V c).after 7 t) = _
  rw [data0_after_7]
  unfold tile0
  rw [View.canon_unit_zero origin0]
  simp only [View.ld_unit_zero (S := S2000x128) origin0, View.ld_unit_zero (S := S128x128) origin0, View.ld_unit_zero (S := S1x128) origin0]
  funext j
  obtain ⟨p, q, rfl⟩ : ∃ (p : Fin 2000) (q : Fin 128), j = ix2 p q := ⟨j 0, j 1, eq_ix2 j⟩
  have hemb : ((cfg0.win 7).blk t).view.emb (ix2 p q) = ix2 (⟨t.val * 2000 + p.val, rows0 t p⟩ : Fin 100000) q := by
    refine funext fun a => Fin.ext ?_
    obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
    match a with
    | ⟨0, _⟩ => show win0_7.index t (0 : Fin 2) * 2000 + 1 * p.val = t.val * 2000 + p.val; omega
    | ⟨1, _⟩ => show win0_7.index t (1 : Fin 2) * 128 + 1 * q.val = q.val; omega
  show k0_pay1 (F := Ideal) (block0 V c 0 t) (block0 V c 3 t) (block0 V c 1 t) (block0 V c 4 t) (block0 V c 2 t) (block0 V c 5 t) (block0 V c 6 t) (ix2 p q)
    = lin3 (N := 100000) (V c main_arg0) (V c main_v37) (V c main_v75) (V c main_arg4) (V c main_arg13) (V c main_arg15) (V c main_v133) (((cfg0.win 7).blk t).view.emb (ix2 p q))
  rw [hemb]
  exact tile0_entry (V c main_arg0) (V c main_v37) (V c main_v75) (V c main_arg4) (V c main_arg13) (V c main_arg15) (V c main_v133) (block0 V c 0 t) (block0 V c 1 t) (block0 V c 2 t) (block0 V c 3 t) (block0 V c 4 t) (block0 V c 5 t) (block0 V c 6 t)
    ⟨t.val * 2000 + p.val, rows0 t p⟩ p q (fun k => block0_0_at V c t p k) (fun k => block0_1_at V c t p k) (fun k => block0_2_at V c t p k)
    (block0_3_eq V c t) (block0_4_eq V c t) (block0_5_eq V c t) (block0_6_eq V c t)

/-- An index of the output array is in point `t`'s block iff its row is among rows 2000·t … 2000·t + 1999. -/
theorem in_block0 (t : Fin cfg0.N) (i : (⟨2, ![100000, 128]⟩ : Shape).Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v134).slice (win0_7.rect t)).set ↔ _
  rw [View.set_slice_whole, Rect.mem_set_unit]
  exact Iff.rfl

/-- Every index of the output array is in some point's block: row r is in block r / 2000. -/
theorem covered0 (i : (⟨2, ![100000, 128]⟩ : Shape).Idx) :
    ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 2000, by show (i 0).val / 2000 < grid0.N; rw [N_0]; omega⟩
  refine ⟨t, flush0_7 t, ?_⟩
  rw [in_block0]
  obtain ⟨⟨e0a, e0b⟩, ⟨e1a, e1b⟩, ⟨e2a, e2b⟩, ⟨e7a, e7b⟩, ⟨e3a, e3b⟩, ⟨e4a, e4b⟩, ⟨e5a, e5b⟩, ⟨e6a, e6b⟩⟩ := index0 t
  have ht : t.val = (i 0).val / 2000 := rfl
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The output array after the launch: the whole-array sum of the arrays as the launch finds them. -/
theorem whole0 (c : Dev nD) : (data0 V c).arrAt 7 cfg0.N = lin3 (N := 100000) (V c main_arg0) (V c main_v37) (V c main_v75) (V c main_arg4) (V c main_arg13) (V c main_arg15) (V c main_v133) :=
  (data0 V c).arrAt_eq_of_cover 7 _ (fun t _ => wrote0 V c t) (covered0)

end Cert.KernelIdeal.Rgn

end
-- ==== Proof.IdealWhole1.lean ====
/-
  Launch 1, on the extended reals: the output array after the launch is one function of the launch's input arrays. A grid
  point's block of the output is rows 2000·t … 2000·t + 1999; its entry (p, q) is the sum over the 2 terms of row 2000·t + p of
  the term's table times column q of its weights, plus the bias row's entry q — the same expression as entry (2000·t + p, q) of
  the whole-array sum. The 15 blocks tile the 30000 rows, so the array ends holding that whole-array sum.
-/
import proofs.«139170_j4398046511496_1_alg».proof.Proof.IdealRegion1
import proofs.«139170_j4398046511496_1_alg».proof.Proof.LinSum

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open LinSum

variable (V : (c : Dev nD) → (b : Ref sig .tc) → Buf (Elt Ideal) ((c : Thread nD τ).loc b))

theorem origin1 : (![0, 0] : Fin 2 → Nat) = fun _ => 0 := funext fun a => by fin_cases a <;> rfl

/-- The index maps over the grid: a row-blocked operand's block at point `t` is block `t` along the rows; the weights and the
    bias row are whole at every point. -/
theorem index1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

theorem rows1 (t : Fin cfg1.N) (p : Fin 2000) : t.val * 2000 + p.val < 30000 := by
  have h : t.val < grid1.N := t.isLt
  have hN : grid1.N = 15 := N_1
  have hp := p.isLt; omega

/-- Row-blocked operand 0's block at point `t`, entry (p, k), is its array's entry (2000·t + p, k). -/
theorem block1_0_at (c : Dev nD) (t : Fin cfg1.N) (p : Fin 2000) (k : Fin 128) :
    block1 V c 0 t (ix2 p k) = V c main_arg1 (ix2 (⟨t.val * 2000 + p.val, rows1 t p⟩ : Fin 30000) k) := by
  unfold block1
  show V c main_arg1 (((cfg1.win 0).blk t).view.emb (ix2 p k)) = _
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index1 t
  match a with
  | ⟨0, _⟩ => show win1_0.index t (0 : Fin 2) * 2000 + 1 * p.val = t.val * 2000 + p.val; omega
  | ⟨1, _⟩ => show win1_0.index t (1 : Fin 2) * 128 + 1 * k.val = k.val; omega

/-- Row-blocked operand 1's block at point `t`, entry (p, k), is its array's entry (2000·t + p, k). -/
theorem block1_1_at (c : Dev nD) (t : Fin cfg1.N) (p : Fin 2000) (k : Fin 128) :
    block1 V c 1 t (ix2 p k) = V c main_v113 (ix2 (⟨t.val * 2000 + p.val, rows1 t p⟩ : Fin 30000) k) := by
  unfold block1
  show V c main_v113 (((cfg1.win 1).blk t).view.emb (ix2 p k)) = _
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index1 t
  match a with
  | ⟨0, _⟩ => show win1_1.index t (0 : Fin 2) * 2000 + 1 * p.val = t.val * 2000 + p.val; omega
  | ⟨1, _⟩ => show win1_1.index t (1 : Fin 2) * 128 + 1 * k.val = k.val; omega

/-- Operand 2 is whole at every point: its block is its array. -/
theorem block1_2_eq (c : Dev nD) (t : Fin cfg1.N) : block1 V c 2 t = V c main_arg6 := by
  unfold block1
  funext y
  show V c main_arg6 (((cfg1.win 2).blk t).view.emb y) = V c main_arg6 y
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index1 t
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Operand 3 is whole at every point: its block is its array. -/
theorem block1_3_eq (c : Dev nD) (t : Fin cfg1.N) : block1 V c 3 t = V c main_arg17 := by
  unfold block1
  funext y
  show V c main_arg17 (((cfg1.win 3).blk t).view.emb y) = V c main_arg17 y
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index1 t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Operand 4 is whole at every point: its block is its array. -/
theorem block1_4_eq (c : Dev nD) (t : Fin cfg1.N) : block1 V c 4 t = V c main_v135 := by
  unfold block1
  funext y
  show V c main_v135 (((cfg1.win 4).blk t).view.emb y) = V c main_v135 y
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index1 t
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Entry (p, q) of the body's result on blocks that are rows r of the tables, the whole weights and the whole bias row is
    entry (r, q) of the whole-array sum. -/
theorem tile1_entry (X0 X1 : FVec Ideal ⟨2, ![30000, 128]⟩ .f32) (W0 W1 : FVec Ideal S128x128 .f32) (B : FVec Ideal S1x128 .f32)
    (x0 x1 : FVec Ideal S2000x128 .f32) (w0 w1 : FVec Ideal S128x128 .f32) (b : FVec Ideal S1x128 .f32)
    (r : Fin 30000) (p : Fin 2000) (q : Fin 128)
    (h0 : ∀ k : Fin 128, x0 (ix2 p k) = X0 (ix2 r k)) (h1 : ∀ k : Fin 128, x1 (ix2 p k) = X1 (ix2 r k))
    (g0 : w0 = W0) (g1 : w1 = W1) (gb : b = B) :
    k1_pay1 (F := Ideal) x0 w0 x1 w1 b (ix2 p q) = lin2 (N := 30000) X0 X1 W0 W1 B (ix2 r q) := by
  subst g0 g1 gb
  rw [pay1_at, lin2_apply, lin2_apply]
  simp only [h0, h1]

/-- What grid point `t` writes back is block `t` of the whole-array sum of the arrays as the launch finds them. -/
theorem wrote1 (c : Dev nD) (t : Fin cfg1.N) :
    (data1 V c).flushed 5 t = ((cfg1.win 5).blk t).view.read (Elt Ideal) (lin2 (N := 30000) (V c main_arg1) (V c main_v113) (V c main_arg6) (V c main_arg17) (V c main_v135)) := by
  show (cfg1.win 5).cut (grid1.coords t) ((data1 V c).after 5 t) = _
  rw [data1_after_5]
  unfold tile1
  rw [View.canon_unit_zero origin1]
  simp only [View.ld_unit_zero (S := S2000x128) origin1, View.ld_unit_zero (S := S128x128) origin1, View.ld_unit_zero (S := S1x128) origin1]
  funext j
  obtain ⟨p, q, rfl⟩ : ∃ (p : Fin 2000) (q : Fin 128), j = ix2 p q := ⟨j 0, j 1, eq_ix2 j⟩
  have hemb : ((cfg1.win 5).blk t).view.emb (ix2 p q) = ix2 (⟨t.val * 2000 + p.val, rows1 t p⟩ : Fin 30000) q := by
    refine funext fun a => Fin.ext ?_
    obtain ⟨⟨e0a, e0b⟩, ⟨e1a, e1b⟩, ⟨e5a, e5b⟩, ⟨e2a, e2b⟩, ⟨e3a, e3b⟩, ⟨e4a, e4b⟩⟩ := index1 t
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (F := Ideal) (block1 V c 0 t) (block1 V c 2 t) (block1 V c 1 t) (block1 V c 3 t) (block1 V c 4 t) (ix2 p q)
    = lin2 (N := 30000) (V c main_arg1) (V c main_v113) (V c main_arg6) (V c main_arg17) (V c main_v135) (((cfg1.win 5).blk t).view.emb (ix2 p q))
  rw [hemb]
  exact tile1_entry (V c main_arg1) (V c main_v113) (V c main_arg6) (V c main_arg17) (V c main_v135) (block1 V c 0 t) (block1 V c 1 t) (block1 V c 2 t) (block1 V c 3 t) (block1 V c 4 t)
    ⟨t.val * 2000 + p.val, rows1 t p⟩ p q (fun k => block1_0_at V c t p k) (fun k => block1_1_at V c t p k)
    (block1_2_eq V c t) (block1_3_eq V c t) (block1_4_eq V c t)

/-- An index of the output array is in point `t`'s block iff its row is among rows 2000·t … 2000·t + 1999. -/
theorem in_block1 (t : Fin cfg1.N) (i : (⟨2, ![30000, 128]⟩ : Shape).Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v136).slice (win1_5.rect t)).set ↔ _
  rw [View.set_slice_whole, Rect.mem_set_unit]
  exact Iff.rfl

/-- Every index of the output array is in some point's block: row r is in block r / 2000. -/
theorem covered1 (i : (⟨2, ![30000, 128]⟩ : Shape).Idx) :
    ∃ t : Fin cfg1.N, (cfg1.win 5).flush t = true ∧ i ∈ ((cfg1.win 5).blk t).view.set := by
  have hi0 : (i 0).val < 30000 := (i 0).isLt
  have hi1 : (i 1).val < 128 := (i 1).isLt
  let t : Fin cfg1.N := ⟨(i 0).val / 2000, by show (i 0).val / 2000 < grid1.N; rw [N_1]; omega⟩
  refine ⟨t, flush1_5 t, ?_⟩
  rw [in_block1]
  obtain ⟨⟨e0a, e0b⟩, ⟨e1a, e1b⟩, ⟨e5a, e5b⟩, ⟨e2a, e2b⟩, ⟨e3a, e3b⟩, ⟨e4a, e4b⟩⟩ := index1 t
  have ht : t.val = (i 0).val / 2000 := rfl
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the launch: the whole-array sum of the arrays as the launch finds them. -/
theorem whole1 (c : Dev nD) : (data1 V c).arrAt 5 cfg1.N = lin2 (N := 30000) (V c main_arg1) (V c main_v113) (V c main_arg6) (V c main_arg17) (V c main_v135) :=
  (data1 V c).arrAt_eq_of_cover 5 _ (fun t _ => wrote1 V c t) (covered1)

end Cert.KernelIdeal.Rgn

end
-- ==== Proof.IdealWhole2.lean ====
/-
  Launch 2, on the extended reals: the output array after the launch is one function of the launch's input arrays. A grid
  point's block of the output is rows 2000·t … 2000·t + 1999; its entry (p, q) is the sum over the 2 terms of row 2000·t + p of
  the term's table times column q of its weights, plus the bias row's entry q — the same expression as entry (2000·t + p, q) of
  the whole-array sum. The 4 blocks tile the 8000 rows, so the array ends holding that whole-array sum.
-/
import proofs.«139170_j4398046511496_1_alg».proof.Proof.IdealRegion2
import proofs.«139170_j4398046511496_1_alg».proof.Proof.LinSum

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open LinSum

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: a row-blocked operand's block at point `t` is block `t` along the rows; the weights and the
    bias row are whole at every point. -/
theorem index2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_5.index t (0 : Fin 2) = t.val ∧ win2_5.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

theorem rows2 (t : Fin cfg2.N) (p : Fin 2000) : t.val * 2000 + p.val < 8000 := by
  have h : t.val < grid2.N := t.isLt
  have hN : grid2.N = 4 := N_2
  have hp := p.isLt; omega

/-- Row-blocked operand 0's block at point `t`, entry (p, k), is its array's entry (2000·t + p, k). -/
theorem block2_0_at (c : Dev nD) (t : Fin cfg2.N) (p : Fin 2000) (k : Fin 128) :
    block2 V c 0 t (ix2 p k) = V c main_arg2 (ix2 (⟨t.val * 2000 + p.val, rows2 t p⟩ : Fin 8000) k) := by
  unfold block2
  show V c main_arg2 (((cfg2.win 0).blk t).view.emb (ix2 p k)) = _
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index2 t
  match a with
  | ⟨0, _⟩ => show win2_0.index t (0 : Fin 2) * 2000 + 1 * p.val = t.val * 2000 + p.val; omega
  | ⟨1, _⟩ => show win2_0.index t (1 : Fin 2) * 128 + 1 * k.val = k.val; omega

/-- Row-blocked operand 1's block at point `t`, entry (p, k), is its array's entry (2000·t + p, k). -/
theorem block2_1_at (c : Dev nD) (t : Fin cfg2.N) (p : Fin 2000) (k : Fin 128) :
    block2 V c 1 t (ix2 p k) = V c main_v18 (ix2 (⟨t.val * 2000 + p.val, rows2 t p⟩ : Fin 8000) k) := by
  unfold block2
  show V c main_v18 (((cfg2.win 1).blk t).view.emb (ix2 p k)) = _
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index2 t
  match a with
  | ⟨0, _⟩ => show win2_1.index t (0 : Fin 2) * 2000 + 1 * p.val = t.val * 2000 + p.val; omega
  | ⟨1, _⟩ => show win2_1.index t (1 : Fin 2) * 128 + 1 * k.val = k.val; omega

/-- Operand 2 is whole at every point: its block is its array. -/
theorem block2_2_eq (c : Dev nD) (t : Fin cfg2.N) : block2 V c 2 t = V c main_arg8 := by
  unfold block2
  funext y
  show V c main_arg8 (((cfg2.win 2).blk t).view.emb y) = V c main_arg8 y
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index2 t
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Operand 3 is whole at every point: its block is its array. -/
theorem block2_3_eq (c : Dev nD) (t : Fin cfg2.N) : block2 V c 3 t = V c main_arg12 := by
  unfold block2
  funext y
  show V c main_arg12 (((cfg2.win 3).blk t).view.emb y) = V c main_arg12 y
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index2 t
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Operand 4 is whole at every point: its block is its array. -/
theorem block2_4_eq (c : Dev nD) (t : Fin cfg2.N) : block2 V c 4 t = V c main_v137 := by
  unfold block2
  funext y
  show V c main_v137 (((cfg2.win 4).blk t).view.emb y) = V c main_v137 y
  refine congrArg _ (funext fun a => Fin.ext ?_)
  obtain ⟨⟨e0a, e0b⟩, ⟨e1a, e1b⟩, ⟨e5a, e5b⟩, ⟨e2a, e2b⟩, ⟨e3a, e3b⟩, ⟨e4a, e4b⟩⟩ := index2 t
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Entry (p, q) of the body's result on blocks that are rows r of the tables, the whole weights and the whole bias row is
    entry (r, q) of the whole-array sum. -/
theorem tile2_entry (X0 X1 : FVec Ideal ⟨2, ![8000, 128]⟩ .f32) (W0 W1 : FVec Ideal S128x128 .f32) (B : FVec Ideal S1x128 .f32)
    (x0 x1 : FVec Ideal S2000x128 .f32) (w0 w1 : FVec Ideal S128x128 .f32) (b : FVec Ideal S1x128 .f32)
    (r : Fin 8000) (p : Fin 2000) (q : Fin 128)
    (h0 : ∀ k : Fin 128, x0 (ix2 p k) = X0 (ix2 r k)) (h1 : ∀ k : Fin 128, x1 (ix2 p k) = X1 (ix2 r k))
    (g0 : w0 = W0) (g1 : w1 = W1) (gb : b = B) :
    k2_pay1 (F := Ideal) x0 w0 x1 w1 b (ix2 p q) = lin2 (N := 8000) X0 X1 W0 W1 B (ix2 r q) := by
  subst g0 g1 gb
  rw [pay2_at, lin2_apply, lin2_apply]
  simp only [h0, h1]

/-- What grid point `t` writes back is block `t` of the whole-array sum of the arrays as the launch finds them. -/
theorem wrote2 (c : Dev nD) (t : Fin cfg2.N) :
    (data2 V c).flushed 5 t = ((cfg2.win 5).blk t).view.read (Elt Ideal) (lin2 (N := 8000) (V c main_arg2) (V c main_v18) (V c main_arg8) (V c main_arg12) (V c main_v137)) := by
  show (cfg2.win 5).cut (grid2.coords t) ((data2 V c).after 5 t) = _
  rw [data2_after_5]
  unfold tile2
  rw [View.canon_unit_zero origin2]
  simp only [View.ld_unit_zero (S := S2000x128) origin2, View.ld_unit_zero (S := S128x128) origin2, View.ld_unit_zero (S := S1x128) origin2]
  funext j
  obtain ⟨p, q, rfl⟩ : ∃ (p : Fin 2000) (q : Fin 128), j = ix2 p q := ⟨j 0, j 1, eq_ix2 j⟩
  have hemb : ((cfg2.win 5).blk t).view.emb (ix2 p q) = ix2 (⟨t.val * 2000 + p.val, rows2 t p⟩ : Fin 8000) q := by
    refine funext fun a => Fin.ext ?_
    obtain ⟨⟨e0a, e0b⟩, ⟨e1a, e1b⟩, ⟨e5a, e5b⟩, ⟨e2a, e2b⟩, ⟨e3a, e3b⟩, ⟨e4a, e4b⟩⟩ := index2 t
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay1 (F := Ideal) (block2 V c 0 t) (block2 V c 2 t) (block2 V c 1 t) (block2 V c 3 t) (block2 V c 4 t) (ix2 p q)
    = lin2 (N := 8000) (V c main_arg2) (V c main_v18) (V c main_arg8) (V c main_arg12) (V c main_v137) (((cfg2.win 5).blk t).view.emb (ix2 p q))
  rw [hemb]
  exact tile2_entry (V c main_arg2) (V c main_v18) (V c main_arg8) (V c main_arg12) (V c main_v137) (block2 V c 0 t) (block2 V c 1 t) (block2 V c 2 t) (block2 V c 3 t) (block2 V c 4 t)
    ⟨t.val * 2000 + p.val, rows2 t p⟩ p q (fun k => block2_0_at V c t p k) (fun k => block2_1_at V c t p k)
    (block2_2_eq V c t) (block2_3_eq V c t) (block2_4_eq V c t)

/-- An index of the output array is in point `t`'s block iff its row is among rows 2000·t … 2000·t + 1999. -/
theorem in_block2 (t : Fin cfg2.N) (i : (⟨2, ![8000, 128]⟩ : Shape).Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v138).slice (win2_5.rect t)).set ↔ _
  rw [View.set_slice_whole, Rect.mem_set_unit]
  exact Iff.rfl

/-- Every index of the output array is in some point's block: row r is in block r / 2000. -/
theorem covered2 (i : (⟨2, ![8000, 128]⟩ : Shape).Idx) :
    ∃ t : Fin cfg2.N, (cfg2.win 5).flush t = true ∧ i ∈ ((cfg2.win 5).blk t).view.set := by
  have hi0 : (i 0).val < 8000 := (i 0).isLt
  have hi1 : (i 1).val < 128 := (i 1).isLt
  let t : Fin cfg2.N := ⟨(i 0).val / 2000, by show (i 0).val / 2000 < grid2.N; rw [N_2]; omega⟩
  refine ⟨t, flush2_5 t, ?_⟩
  rw [in_block2]
  obtain ⟨⟨e0a, e0b⟩, ⟨e1a, e1b⟩, ⟨e5a, e5b⟩, ⟨e2a, e2b⟩, ⟨e3a, e3b⟩, ⟨e4a, e4b⟩⟩ := index2 t
  have ht : t.val = (i 0).val / 2000 := rfl
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the launch: the whole-array sum of the arrays as the launch finds them. -/
theorem whole2 (c : Dev nD) : (data2 V c).arrAt 5 cfg2.N = lin2 (N := 8000) (V c main_arg2) (V c main_v18) (V c main_arg8) (V c main_arg12) (V c main_v137) :=
  (data2 V c).arrAt_eq_of_cover 5 _ (fun t _ => wrote2 V c t) (covered2)

end Cert.KernelIdeal.Rgn

end
-- ==== Proof.IdealWhole3.lean ====
/-
  Launch 3, on the extended reals: the output array after the launch is one function of the launch's input arrays. A grid
  point's block of the output is rows 2000·t … 2000·t + 1999; its entry (p, q) is the sum over the 4 terms of row 2000·t + p of
  the term's table times column q of its weights, plus the bias row's entry q — the same expression as entry (2000·t + p, q) of
  the whole-array sum. The 100 blocks tile the 200000 rows, so the array ends holding that whole-array sum.
-/
import proofs.«139170_j4398046511496_1_alg».proof.Proof.IdealRegion3
import proofs.«139170_j4398046511496_1_alg».proof.Proof.LinSum

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open LinSum

variable (V : (c : Dev nD) → (b : Ref sig .tc) → Buf (Elt Ideal) ((c : Thread nD τ).loc b))

theorem origin3 : (![0, 0] : Fin 2 → Nat) = fun _ => 0 := funext fun a => by fin_cases a <;> rfl

/-- The index maps over the grid: a row-blocked operand's block at point `t` is block `t` along the rows; the weights and the
    bias row are whole at every point. -/
theorem index3 : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_9.index t (0 : Fin 2) = t.val ∧ win3_9.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

theorem rows3 (t : Fin cfg3.N) (p : Fin 2000) : t.val * 2000 + p.val < 200000 := by
  have h : t.val < grid3.N := t.isLt
  have hN : grid3.N = 100 := N_3
  have hp := p.isLt; omega

/-- Row-blocked operand 0's block at point `t`, entry (p, k), is its array's entry (2000·t + p, k). -/
theorem block3_0_at (c : Dev nD) (t : Fin cfg3.N) (p : Fin 2000) (k : Fin 128) :
    block3 V c 0 t (ix2 p k) = V c main_arg3 (ix2 (⟨t.val * 2000 + p.val, rows3 t p⟩ : Fin 200000) k) := by
  unfold block3
  show V c main_arg3 (((cfg3.win 0).blk t).view.emb (ix2 p k)) = _
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_0.index t (0 : Fin 2) * 2000 + 1 * p.val = t.val * 2000 + p.val; omega
  | ⟨1, _⟩ => show win3_0.index t (1 : Fin 2) * 128 + 1 * k.val = k.val; omega

/-- Row-blocked operand 1's block at point `t`, entry (p, k), is its array's entry (2000·t + p, k). -/
theorem block3_1_at (c : Dev nD) (t : Fin cfg3.N) (p : Fin 2000) (k : Fin 128) :
    block3 V c 1 t (ix2 p k) = V c main_v56 (ix2 (⟨t.val * 2000 + p.val, rows3 t p⟩ : Fin 200000) k) := by
  unfold block3
  show V c main_v56 (((cfg3.win 1).blk t).view.emb (ix2 p k)) = _
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_1.index t (0 : Fin 2) * 2000 + 1 * p.val = t.val * 2000 + p.val; omega
  | ⟨1, _⟩ => show win3_1.index t (1 : Fin 2) * 128 + 1 * k.val = k.val; omega

/-- Row-blocked operand 2's block at point `t`, entry (p, k), is its array's entry (2000·t + p, k). -/
theorem block3_2_at (c : Dev nD) (t : Fin cfg3.N) (p : Fin 2000) (k : Fin 128) :
    block3 V c 2 t (ix2 p k) = V c main_v94 (ix2 (⟨t.val * 2000 + p.val, rows3 t p⟩ : Fin 200000) k) := by
  unfold block3
  show V c main_v94 (((cfg3.win 2).blk t).view.emb (ix2 p k)) = _
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_2.index t (0 : Fin 2) * 2000 + 1 * p.val = t.val * 2000 + p.val; omega
  | ⟨1, _⟩ => show win3_2.index t (1 : Fin 2) * 128 + 1 * k.val = k.val; omega

/-- Row-blocked operand 3's block at point `t`, entry (p, k), is its array's entry (2000·t + p, k). -/
theorem block3_3_at (c : Dev nD) (t : Fin cfg3.N) (p : Fin 2000) (k : Fin 128) :
    block3 V c 3 t (ix2 p k) = V c main_v132 (ix2 (⟨t.val * 2000 + p.val, rows3 t p⟩ : Fin 200000) k) := by
  unfold block3
  show V c main_v132 (((cfg3.win 3).blk t).view.emb (ix2 p k)) = _
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_3.index t (0 : Fin 2) * 2000 + 1 * p.val = t.val * 2000 + p.val; omega
  | ⟨1, _⟩ => show win3_3.index t (1 : Fin 2) * 128 + 1 * k.val = k.val; omega

/-- Operand 4 is whole at every point: its block is its array. -/
theorem block3_4_eq (c : Dev nD) (t : Fin cfg3.N) : block3 V c 4 t = V c main_arg10 := by
  unfold block3
  funext y
  show V c main_arg10 (((cfg3.win 4).blk t).view.emb y) = V c main_arg10 y
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Operand 5 is whole at every point: its block is its array. -/
theorem block3_5_eq (c : Dev nD) (t : Fin cfg3.N) : block3 V c 5 t = V c main_arg14 := by
  unfold block3
  funext y
  show V c main_arg14 (((cfg3.win 5).blk t).view.emb y) = V c main_arg14 y
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Operand 6 is whole at every point: its block is its array. -/
theorem block3_6_eq (c : Dev nD) (t : Fin cfg3.N) : block3 V c 6 t = V c main_arg16 := by
  unfold block3
  funext y
  show V c main_arg16 (((cfg3.win 6).blk t).view.emb y) = V c main_arg16 y
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- Operand 7 is whole at every point: its block is its array. -/
theorem block3_7_eq (c : Dev nD) (t : Fin cfg3.N) : block3 V c 7 t = V c main_arg18 := by
  unfold block3
  funext y
  show V c main_arg18 (((cfg3.win 7).blk t).view.emb y) = V c main_arg18 y
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- Operand 8 is whole at every point: its block is its array. -/
theorem block3_8_eq (c : Dev nD) (t : Fin cfg3.N) : block3 V c 8 t = V c main_v139 := by
  unfold block3
  funext y
  show V c main_v139 (((cfg3.win 8).blk t).view.emb y) = V c main_v139 y
  refine congrArg _ (funext fun a => Fin.ext ?_)
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Entry (p, q) of the body's result on blocks that are rows r of the tables, the whole weights and the whole bias row is
    entry (r, q) of the whole-array sum. -/
theorem tile3_entry (X0 X1 X2 X3 : FVec Ideal ⟨2, ![200000, 128]⟩ .f32) (W0 W1 W2 W3 : FVec Ideal S128x128 .f32) (B : FVec Ideal S1x128 .f32)
    (x0 x1 x2 x3 : FVec Ideal S2000x128 .f32) (w0 w1 w2 w3 : FVec Ideal S128x128 .f32) (b : FVec Ideal S1x128 .f32)
    (r : Fin 200000) (p : Fin 2000) (q : Fin 128)
    (h0 : ∀ k : Fin 128, x0 (ix2 p k) = X0 (ix2 r k)) (h1 : ∀ k : Fin 128, x1 (ix2 p k) = X1 (ix2 r k)) (h2 : ∀ k : Fin 128, x2 (ix2 p k) = X2 (ix2 r k)) (h3 : ∀ k : Fin 128, x3 (ix2 p k) = X3 (ix2 r k))
    (g0 : w0 = W0) (g1 : w1 = W1) (g2 : w2 = W2) (g3 : w3 = W3) (gb : b = B) :
    k3_pay1 (F := Ideal) x0 w0 x1 w1 x2 w2 x3 w3 b (ix2 p q) = lin4 (N := 200000) X0 X1 X2 X3 W0 W1 W2 W3 B (ix2 r q) := by
  subst g0 g1 g2 g3 gb
  rw [pay3_at, lin4_apply, lin4_apply]
  simp only [h0, h1, h2, h3]

/-- What grid point `t` writes back is block `t` of the whole-array sum of the arrays as the launch finds them. -/
theorem wrote3 (c : Dev nD) (t : Fin cfg3.N) :
    (data3 V c).flushed 9 t = ((cfg3.win 9).blk t).view.read (Elt Ideal) (lin4 (N := 200000) (V c main_arg3) (V c main_v56) (V c main_v94) (V c main_v132) (V c main_arg10) (V c main_arg14) (V c main_arg16) (V c main_arg18) (V c main_v139)) := by
  show (cfg3.win 9).cut (grid3.coords t) ((data3 V c).after 9 t) = _
  rw [data3_after_9]
  unfold tile3
  rw [View.canon_unit_zero origin3]
  simp only [View.ld_unit_zero (S := S2000x128) origin3, View.ld_unit_zero (S := S128x128) origin3, View.ld_unit_zero (S := S1x128) origin3]
  funext j
  obtain ⟨p, q, rfl⟩ : ∃ (p : Fin 2000) (q : Fin 128), j = ix2 p q := ⟨j 0, j 1, eq_ix2 j⟩
  have hemb : ((cfg3.win 9).blk t).view.emb (ix2 p q) = ix2 (⟨t.val * 2000 + p.val, rows3 t p⟩ : Fin 200000) q := by
    refine funext fun a => Fin.ext ?_
    obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
    match a with
    | ⟨0, _⟩ => show win3_9.index t (0 : Fin 2) * 2000 + 1 * p.val = t.val * 2000 + p.val; omega
    | ⟨1, _⟩ => show win3_9.index t (1 : Fin 2) * 128 + 1 * q.val = q.val; omega
  show k3_pay1 (F := Ideal) (block3 V c 0 t) (block3 V c 4 t) (block3 V c 1 t) (block3 V c 5 t) (block3 V c 2 t) (block3 V c 6 t) (block3 V c 3 t) (block3 V c 7 t) (block3 V c 8 t) (ix2 p q)
    = lin4 (N := 200000) (V c main_arg3) (V c main_v56) (V c main_v94) (V c main_v132) (V c main_arg10) (V c main_arg14) (V c main_arg16) (V c main_arg18) (V c main_v139) (((cfg3.win 9).blk t).view.emb (ix2 p q))
  rw [hemb]
  exact tile3_entry (V c main_arg3) (V c main_v56) (V c main_v94) (V c main_v132) (V c main_arg10) (V c main_arg14) (V c main_arg16) (V c main_arg18) (V c main_v139) (block3 V c 0 t) (block3 V c 1 t) (block3 V c 2 t) (block3 V c 3 t) (block3 V c 4 t) (block3 V c 5 t) (block3 V c 6 t) (block3 V c 7 t) (block3 V c 8 t)
    ⟨t.val * 2000 + p.val, rows3 t p⟩ p q (fun k => block3_0_at V c t p k) (fun k => block3_1_at V c t p k) (fun k => block3_2_at V c t p k) (fun k => block3_3_at V c t p k)
    (block3_4_eq V c t) (block3_5_eq V c t) (block3_6_eq V c t) (block3_7_eq V c t) (block3_8_eq V c t)

/-- An index of the output array is in point `t`'s block iff its row is among rows 2000·t … 2000·t + 1999. -/
theorem in_block3 (t : Fin cfg3.N) (i : (⟨2, ![200000, 128]⟩ : Shape).Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v140).slice (win3_9.rect t)).set ↔ _
  rw [View.set_slice_whole, Rect.mem_set_unit]
  exact Iff.rfl

/-- Every index of the output array is in some point's block: row r is in block r / 2000. -/
theorem covered3 (i : (⟨2, ![200000, 128]⟩ : Shape).Idx) :
    ∃ t : Fin cfg3.N, (cfg3.win 9).flush t = true ∧ i ∈ ((cfg3.win 9).blk t).view.set := by
  have hi0 : (i 0).val < 200000 := (i 0).isLt
  have hi1 : (i 1).val < 128 := (i 1).isLt
  let t : Fin cfg3.N := ⟨(i 0).val / 2000, by show (i 0).val / 2000 < grid3.N; rw [N_3]; omega⟩
  refine ⟨t, flush3_9 t, ?_⟩
  rw [in_block3]
  obtain ⟨⟨e0a, e0b⟩, ⟨e1a, e1b⟩, ⟨e2a, e2b⟩, ⟨e3a, e3b⟩, ⟨e9a, e9b⟩, ⟨e4a, e4b⟩, ⟨e5a, e5b⟩, ⟨e6a, e6b⟩, ⟨e7a, e7b⟩, ⟨e8a, e8b⟩⟩ := index3 t
  have ht : t.val = (i 0).val / 2000 := rfl
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 128 ≤ (i 1).val ∧ (i 1).val < win3_9.index t (1 : Fin 2) * 128 + 128; omega

/-- The output array after the launch: the whole-array sum of the arrays as the launch finds them. -/
theorem whole3 (c : Dev nD) : (data3 V c).arrAt 9 cfg3.N = lin4 (N := 200000) (V c main_arg3) (V c main_v56) (V c main_v94) (V c main_v132) (V c main_arg10) (V c main_arg14) (V c main_arg16) (V c main_arg18) (V c main_v139) :=
  (data3 V c).arrAt_eq_of_cover 9 _ (fun t _ => wrote3 V c t) (covered3)

end Cert.KernelIdeal.Rgn

end
-- ==== Proof.Spec.lean ====
/-
  What the layer computes, as one function of its 33 argument arrays. For each node type the result is the sum of the
  type's own features times its root weights and, for every relation into the type, the mean of the source features over
  the in-edges times the relation's weights, plus the type's bias laid along every row; the four results are stacked along
  the rows (authors, fields, institutions, papers). Both programs are shown to end with this array.
-/
import proofs.«139170_j4398046511496_1_alg».proof.Proof.MeanAgg
import proofs.«139170_j4398046511496_1_alg».proof.Proof.LinSum

noncomputable section

namespace Cert.KernelIdeal.Spec

open Cert.KernelIdeal Cert.KernelIdeal.Gen Idealize.ShloMosaic

/-- The argument arrays, in the programs' order, on the extended reals. -/
structure Inputs where
  x_author : (⟨S100000x128, .f32⟩ : BufTy).Contents (Elt Ideal)
  x_fos : (⟨S30000x128, .f32⟩ : BufTy).Contents (Elt Ideal)
  x_inst : (⟨S8000x128, .f32⟩ : BufTy).Contents (Elt Ideal)
  x_paper : (⟨S200000x128, .f32⟩ : BufTy).Contents (Elt Ideal)
  W_root_author : (⟨S128x128, .f32⟩ : BufTy).Contents (Elt Ideal)
  b_root_author : (⟨S128, .f32⟩ : BufTy).Contents (Elt Ideal)
  W_root_fos : (⟨S128x128, .f32⟩ : BufTy).Contents (Elt Ideal)
  b_root_fos : (⟨S128, .f32⟩ : BufTy).Contents (Elt Ideal)
  W_root_inst : (⟨S128x128, .f32⟩ : BufTy).Contents (Elt Ideal)
  b_root_inst : (⟨S128, .f32⟩ : BufTy).Contents (Elt Ideal)
  W_root_paper : (⟨S128x128, .f32⟩ : BufTy).Contents (Elt Ideal)
  b_root_paper : (⟨S128, .f32⟩ : BufTy).Contents (Elt Ideal)
  W_aff : (⟨S128x128, .f32⟩ : BufTy).Contents (Elt Ideal)
  W_ita : (⟨S128x128, .f32⟩ : BufTy).Contents (Elt Ideal)
  W_writes : (⟨S128x128, .f32⟩ : BufTy).Contents (Elt Ideal)
  W_pta : (⟨S128x128, .f32⟩ : BufTy).Contents (Elt Ideal)
  W_cites : (⟨S128x128, .f32⟩ : BufTy).Contents (Elt Ideal)
  W_topic : (⟨S128x128, .f32⟩ : BufTy).Contents (Elt Ideal)
  W_ftp : (⟨S128x128, .f32⟩ : BufTy).Contents (Elt Ideal)
  src_aff : (⟨S150000, .i32⟩ : BufTy).Contents (Elt Ideal)
  dst_aff : (⟨S150000, .i32⟩ : BufTy).Contents (Elt Ideal)
  src_ita : (⟨S150000, .i32⟩ : BufTy).Contents (Elt Ideal)
  dst_ita : (⟨S150000, .i32⟩ : BufTy).Contents (Elt Ideal)
  src_writes : (⟨S500000, .i32⟩ : BufTy).Contents (Elt Ideal)
  dst_writes : (⟨S500000, .i32⟩ : BufTy).Contents (Elt Ideal)
  src_pta : (⟨S500000, .i32⟩ : BufTy).Contents (Elt Ideal)
  dst_pta : (⟨S500000, .i32⟩ : BufTy).Contents (Elt Ideal)
  src_cites : (⟨S1000000, .i32⟩ : BufTy).Contents (Elt Ideal)
  dst_cites : (⟨S1000000, .i32⟩ : BufTy).Contents (Elt Ideal)
  src_topic : (⟨S500000, .i32⟩ : BufTy).Contents (Elt Ideal)
  dst_topic : (⟨S500000, .i32⟩ : BufTy).Contents (Elt Ideal)
  src_ftp : (⟨S500000, .i32⟩ : BufTy).Contents (Elt Ideal)
  dst_ftp : (⟨S500000, .i32⟩ : BufTy).Contents (Elt Ideal)

/-- A bias vector stood up as one row. -/
def biasRow (b : (⟨S128, .f32⟩ : BufTy).Contents (Elt Ideal)) : (⟨S1x128, .f32⟩ : BufTy).Contents (Elt Ideal) :=
  shapeCast S1x128 b shapeCasts_S128_S1x128

def authorOut (I : Inputs) : (⟨S100000x128, .f32⟩ : BufTy).Contents (Elt Ideal) :=
  LinSum.lin3 (N := 100000) I.x_author (Agg.meanIta I.x_inst I.src_ita I.dst_ita) (Agg.meanPta I.x_paper I.src_pta I.dst_pta)
    I.W_root_author I.W_ita I.W_pta (biasRow I.b_root_author)
def fosOut (I : Inputs) : (⟨S30000x128, .f32⟩ : BufTy).Contents (Elt Ideal) :=
  LinSum.lin2 (N := 30000) I.x_fos (Agg.meanTopic I.x_paper I.src_topic I.dst_topic) I.W_root_fos I.W_topic (biasRow I.b_root_fos)
def instOut (I : Inputs) : (⟨S8000x128, .f32⟩ : BufTy).Contents (Elt Ideal) :=
  LinSum.lin2 (N := 8000) I.x_inst (Agg.meanAff I.x_author I.src_aff I.dst_aff) I.W_root_inst I.W_aff (biasRow I.b_root_inst)
def paperOut (I : Inputs) : (⟨S200000x128, .f32⟩ : BufTy).Contents (Elt Ideal) :=
  LinSum.lin4 (N := 200000) I.x_paper (Agg.meanWrites I.x_author I.src_writes I.dst_writes) (Agg.meanCites I.x_paper I.src_cites I.dst_cites)
    (Agg.meanFtp I.x_fos I.src_ftp I.dst_ftp) I.W_root_paper I.W_writes I.W_cites I.W_ftp (biasRow I.b_root_paper)

/-- The layer's result. -/
def result (I : Inputs) : (⟨S338000x128, .f32⟩ : BufTy).Contents (Elt Ideal) :=
  Agg.stack4 (authorOut I) (fosOut I) (instOut I) (paperOut I)

end Cert.KernelIdeal.Spec

end
-- ==== Proof.IdealValue.lean ====
/-
  The kernel's program on the extended reals ends with the layer's result. Each launch's output array is the whole-array
  sum of the arrays the launch finds; those are the argument arrays, the mean aggregates the host stretches computed, and
  the bias rows; so the four outputs are the four pieces of the specification. No later segment changes them, and the last
  host operation stacks them along the rows.
-/
import proofs.«139170_j4398046511496_1_alg».proof.Proof.IdealHost
import proofs.«139170_j4398046511496_1_alg».proof.Proof.IdealWhole0
import proofs.«139170_j4398046511496_1_alg».proof.Proof.IdealWhole1
import proofs.«139170_j4398046511496_1_alg».proof.Proof.IdealWhole2
import proofs.«139170_j4398046511496_1_alg».proof.Proof.IdealWhole3
import proofs.«139170_j4398046511496_1_alg».proof.Proof.Spec

set_option maxRecDepth 16384

noncomputable section

namespace Cert.KernelIdeal.Rgn

open Cert.KernelIdeal Cert.KernelIdeal.Gen
open Idealize.ShloMosaic Idealize.ShloMosaic.TcCoe
open Idealize.SL Idealize.SL.Sem
open LinSum Cert.KernelIdeal.Agg Cert.KernelIdeal.Spec

variable (m : (ℓ : Loc nD τ sig) → Buf (Elt Ideal) ℓ) (ρ : Dev nD → PrngReg)

/-- The kernel program's argument arrays on core `c`. -/
def kerInputs (c : Dev nD) : Inputs where
  x_author := m ((c : Thread nD τ).loc main_arg0)
  x_fos := m ((c : Thread nD τ).loc main_arg1)
  x_inst := m ((c : Thread nD τ).loc main_arg2)
  x_paper := m ((c : Thread nD τ).loc main_arg3)
  W_root_author := m ((c : Thread nD τ).loc main_arg4)
  b_root_author := m ((c : Thread nD τ).loc main_arg5)
  W_root_fos := m ((c : Thread nD τ).loc main_arg6)
  b_root_fos := m ((c : Thread nD τ).loc main_arg7)
  W_root_inst := m ((c : Thread nD τ).loc main_arg8)
  b_root_inst := m ((c : Thread nD τ).loc main_arg9)
  W_root_paper := m ((c : Thread nD τ).loc main_arg10)
  b_root_paper := m ((c : Thread nD τ).loc main_arg11)
  W_aff := m ((c : Thread nD τ).loc main_arg12)
  W_ita := m ((c : Thread nD τ).loc main_arg13)
  W_writes := m ((c : Thread nD τ).loc main_arg14)
  W_pta := m ((c : Thread nD τ).loc main_arg15)
  W_cites := m ((c : Thread nD τ).loc main_arg16)
  W_topic := m ((c : Thread nD τ).loc main_arg17)
  W_ftp := m ((c : Thread nD τ).loc main_arg18)
  src_aff := m ((c : Thread nD τ).loc main_arg19)
  dst_aff := m ((c : Thread nD τ).loc main_arg20)
  src_ita := m ((c : Thread nD τ).loc main_arg21)
  dst_ita := m ((c : Thread nD τ).loc main_arg22)
  src_writes := m ((c : Thread nD τ).loc main_arg23)
  dst_writes := m ((c : Thread nD τ).loc main_arg24)
  src_pta := m ((c : Thread nD τ).loc main_arg25)
  dst_pta := m ((c : Thread nD τ).loc main_arg26)
  src_cites := m ((c : Thread nD τ).loc main_arg27)
  dst_cites := m ((c : Thread nD τ).loc main_arg28)
  src_topic := m ((c : Thread nD τ).loc main_arg29)
  dst_topic := m ((c : Thread nD τ).loc main_arg30)
  src_ftp := m ((c : Thread nD τ).loc main_arg31)
  dst_ftp := m ((c : Thread nD τ).loc main_arg32)

/-! ## The four launches' outputs -/

theorem at4_v134 (c : Dev nD) : at4 m ρ c (Proc.devRef .tc main_v134) = authorOut (kerInputs m c) := by
  refine (at4_arr m ρ c 7).trans ((whole0 (entry0 m ρ) c).trans ?_)
  show lin3 (N := 100000) (at3 m ρ c (Proc.devRef .tc main_arg0)) (at3 m ρ c (Proc.devRef .tc main_v37)) (at3 m ρ c (Proc.devRef .tc main_v75))
    (at3 m ρ c (Proc.devRef .tc main_arg4)) (at3 m ρ c (Proc.devRef .tc main_arg13)) (at3 m ρ c (Proc.devRef .tc main_arg15)) (at3 m ρ c (Proc.devRef .tc main_v133)) = _
  rw [at3_arg m ρ c main_arg0 (by decide) (by decide) (by decide), at3_v37 m ρ c, at3_v75 m ρ c, at3_arg m ρ c main_arg4 (by decide) (by decide) (by decide), at3_arg m ρ c main_arg13 (by decide) (by decide) (by decide), at3_arg m ρ c main_arg15 (by decide) (by decide) (by decide), at3_v133 m ρ c]
  rfl

theorem at6_v136 (c : Dev nD) : at6 m ρ c (Proc.devRef .tc main_v136) = fosOut (kerInputs m c) := by
  refine (at6_arr m ρ c 5).trans ((whole1 (entry1 m ρ) c).trans ?_)
  show lin2 (N := 30000) (at5 m ρ c (Proc.devRef .tc main_arg1)) (at5 m ρ c (Proc.devRef .tc main_v113))
    (at5 m ρ c (Proc.devRef .tc main_arg6)) (at5 m ρ c (Proc.devRef .tc main_arg17)) (at5 m ρ c (Proc.devRef .tc main_v135)) = _
  rw [at5_arg m ρ c main_arg1 (by decide) (by decide) (by decide) (by decide) (by decide), at5_of_at3 m ρ c main_v113 (by decide) (by decide), at3_v113 m ρ c, at5_arg m ρ c main_arg6 (by decide) (by decide) (by decide) (by decide) (by decide), at5_arg m ρ c main_arg17 (by decide) (by decide) (by decide) (by decide) (by decide), at5_v135 m ρ c]
  rfl

theorem at8_v138 (c : Dev nD) : at8 m ρ c (Proc.devRef .tc main_v138) = instOut (kerInputs m c) := by
  refine (at8_arr m ρ c 5).trans ((whole2 (entry2 m ρ) c).trans ?_)
  show lin2 (N := 8000) (at7 m ρ c (Proc.devRef .tc main_arg2)) (at7 m ρ c (Proc.devRef .tc main_v18))
    (at7 m ρ c (Proc.devRef .tc main_arg8)) (at7 m ρ c (Proc.devRef .tc main_arg12)) (at7 m ρ c (Proc.devRef .tc main_v137)) = _
  rw [at7_arg m ρ c main_arg2 (by decide) (by decide) (by decide) (by decide) (by decide) (by decide) (by decide), at7_of_at5 m ρ c main_v18 (by decide) (by decide), at5_of_at3 m ρ c main_v18 (by decide) (by decide), at3_v18 m ρ c, at7_arg m ρ c main_arg8 (by decide) (by decide) (by decide) (by decide) (by decide) (by decide) (by decide), at7_arg m ρ c main_arg12 (by decide) (by decide) (by decide) (by decide) (by decide) (by decide) (by decide), at7_v137 m ρ c]
  rfl

theorem at10_v140 (c : Dev nD) : at10 m ρ c (Proc.devRef .tc main_v140) = paperOut (kerInputs m c) := by
  refine (at10_arr m ρ c 9).trans ((whole3 (entry3 m ρ) c).trans ?_)
  show lin4 (N := 200000) (at9 m ρ c (Proc.devRef .tc main_arg3)) (at9 m ρ c (Proc.devRef .tc main_v56)) (at9 m ρ c (Proc.devRef .tc main_v94)) (at9 m ρ c (Proc.devRef .tc main_v132))
    (at9 m ρ c (Proc.devRef .tc main_arg10)) (at9 m ρ c (Proc.devRef .tc main_arg14)) (at9 m ρ c (Proc.devRef .tc main_arg16)) (at9 m ρ c (Proc.devRef .tc main_arg18)) (at9 m ρ c (Proc.devRef .tc main_v139)) = _
  rw [at9_arg m ρ c main_arg3 (by decide) (by decide) (by decide) (by decide) (by decide) (by decide) (by decide) (by decide) (by decide),
    at9_of_at7 m ρ c main_v56 (by decide) (by decide), at7_of_at5 m ρ c main_v56 (by decide) (by decide), at5_of_at3 m ρ c main_v56 (by decide) (by decide), at3_v56 m ρ c,
    at9_of_at7 m ρ c main_v94 (by decide) (by decide), at7_of_at5 m ρ c main_v94 (by decide) (by decide), at5_of_at3 m ρ c main_v94 (by decide) (by decide), at3_v94 m ρ c,
    at9_of_at7 m ρ c main_v132 (by decide) (by decide), at7_of_at5 m ρ c main_v132 (by decide) (by decide), at5_of_at3 m ρ c main_v132 (by decide) (by decide), at3_v132 m ρ c,
    at9_arg m ρ c main_arg10 (by decide) (by decide) (by decide) (by decide) (by decide) (by decide) (by decide) (by decide) (by decide), at9_arg m ρ c main_arg14 (by decide) (by decide) (by decide) (by decide) (by decide) (by decide) (by decide) (by decide) (by decide), at9_arg m ρ c main_arg16 (by decide) (by decide) (by decide) (by decide) (by decide) (by decide) (by decide) (by decide) (by decide), at9_arg m ρ c main_arg18 (by decide) (by decide) (by decide) (by decide) (by decide) (by decide) (by decide) (by decide) (by decide), at9_v139 m ρ c]
  rfl

/-! ## Carried to the last launch's exit -/

theorem at10_v134 (c : Dev nD) : at10 m ρ c (Proc.devRef .tc main_v134) = authorOut (kerInputs m c) :=
  (at10_keep m ρ c main_v134 (by decide)).trans ((at9_of_at7 m ρ c main_v134 (by decide) (by decide)).trans ((at7_of_at5 m ρ c main_v134 (by decide) (by decide)).trans
    ((at5_keep m ρ c main_v134 (by decide)).trans (at4_v134 m ρ c))))
theorem at10_v136 (c : Dev nD) : at10 m ρ c (Proc.devRef .tc main_v136) = fosOut (kerInputs m c) :=
  (at10_keep m ρ c main_v136 (by decide)).trans ((at9_of_at7 m ρ c main_v136 (by decide) (by decide)).trans
    ((at7_keep m ρ c main_v136 (by decide)).trans (at6_v136 m ρ c)))
theorem at10_v138 (c : Dev nD) : at10 m ρ c (Proc.devRef .tc main_v138) = instOut (kerInputs m c) :=
  (at10_keep m ρ c main_v138 (by decide)).trans ((at9_keep m ρ c main_v138 (by decide)).trans (at8_v138 m ρ c))

/-! ## The result -/

set_option maxRecDepth 8192 in
/-- The last host operation stacks the four outputs along the rows: the result buffer ends at the layer's result. -/
theorem at11_v141 (c : Dev nD) : at11 m ρ c (Proc.devRef .tc main_v141) = result (kerInputs m c) := by
  show StableHlo.after main_part3_ops1 (at10 m ρ c) (Proc.devRef .tc main_v141) = _
  generalize hV : at10 m ρ c = V₁
  simp only [main_part3_ops1]
  after_results_simp
  try dsimp only [Matrix.cons_val]
  try after_results_simp
  subst hV
  show stack4 (at10 m ρ c (Proc.devRef .tc main_v134)) (at10 m ρ c (Proc.devRef .tc main_v136)) (at10 m ρ c (Proc.devRef .tc main_v138)) (at10 m ρ c (Proc.devRef .tc main_v140)) = _
  rw [at10_v134 m ρ c, at10_v136 m ρ c, at10_v138 m ρ c, at10_v140 m ρ c]
  rfl

/-- The kernel's program runs to its end with the result buffer at the layer's result and every argument array as launched. -/
theorem run_value : θ_run defs (onTc (τ := τ) (main (F := Ideal))) ⟨m, fun _ => 0, ρ⟩ (fun r => ∀ c : Dev nD,
      r.2.mem ((c.tc : Thread nD τ).loc main_v141) = result (kerInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun r h c => ⟨(h c _ (mem_uc main_v141 (by decide))).trans (at11_v141 m ρ c),
    (h c _ (mem_uc main_arg0 (by decide))).trans (at11_main_arg0 m ρ c),
    (h c _ (mem_uc main_arg1 (by decide))).trans (at11_main_arg1 m ρ c),
    (h c _ (mem_uc main_arg2 (by decide))).trans (at11_main_arg2 m ρ c),
    (h c _ (mem_uc main_arg3 (by decide))).trans (at11_main_arg3 m ρ c),
    (h c _ (mem_uc main_arg4 (by decide))).trans (at11_main_arg4 m ρ c),
    (h c _ (mem_uc main_arg5 (by decide))).trans (at11_main_arg5 m ρ c),
    (h c _ (mem_uc main_arg6 (by decide))).trans (at11_main_arg6 m ρ c),
    (h c _ (mem_uc main_arg7 (by decide))).trans (at11_main_arg7 m ρ c),
    (h c _ (mem_uc main_arg8 (by decide))).trans (at11_main_arg8 m ρ c),
    (h c _ (mem_uc main_arg9 (by decide))).trans (at11_main_arg9 m ρ c),
    (h c _ (mem_uc main_arg10 (by decide))).trans (at11_main_arg10 m ρ c),
    (h c _ (mem_uc main_arg11 (by decide))).trans (at11_main_arg11 m ρ c),
    (h c _ (mem_uc main_arg12 (by decide))).trans (at11_main_arg12 m ρ c),
    (h c _ (mem_uc main_arg13 (by decide))).trans (at11_main_arg13 m ρ c),
    (h c _ (mem_uc main_arg14 (by decide))).trans (at11_main_arg14 m ρ c),
    (h c _ (mem_uc main_arg15 (by decide))).trans (at11_main_arg15 m ρ c),
    (h c _ (mem_uc main_arg16 (by decide))).trans (at11_main_arg16 m ρ c),
    (h c _ (mem_uc main_arg17 (by decide))).trans (at11_main_arg17 m ρ c),
    (h c _ (mem_uc main_arg18 (by decide))).trans (at11_main_arg18 m ρ c),
    (h c _ (mem_uc main_arg19 (by decide))).trans (at11_main_arg19 m ρ c),
    (h c _ (mem_uc main_arg20 (by decide))).trans (at11_main_arg20 m ρ c),
    (h c _ (mem_uc main_arg21 (by decide))).trans (at11_main_arg21 m ρ c),
    (h c _ (mem_uc main_arg22 (by decide))).trans (at11_main_arg22 m ρ c),
    (h c _ (mem_uc main_arg23 (by decide))).trans (at11_main_arg23 m ρ c),
    (h c _ (mem_uc main_arg24 (by decide))).trans (at11_main_arg24 m ρ c),
    (h c _ (mem_uc main_arg25 (by decide))).trans (at11_main_arg25 m ρ c),
    (h c _ (mem_uc main_arg26 (by decide))).trans (at11_main_arg26 m ρ c),
    (h c _ (mem_uc main_arg27 (by decide))).trans (at11_main_arg27 m ρ c),
    (h c _ (mem_uc main_arg28 (by decide))).trans (at11_main_arg28 m ρ c),
    (h c _ (mem_uc main_arg29 (by decide))).trans (at11_main_arg29 m ρ c),
    (h c _ (mem_uc main_arg30 (by decide))).trans (at11_main_arg30 m ρ c),
    (h c _ (mem_uc main_arg31 (by decide))).trans (at11_main_arg31 m ρ c),
    (h c _ (mem_uc main_arg32 (by decide))).trans (at11_main_arg32 m ρ c)⟩)
    (run_all m ρ)

end Cert.KernelIdeal.Rgn

end
-- ==== Proof.RefSide.lean ====
/-
  The host program's result is the specified array. Its result is the four node types' arrays stacked along the rows;
  each of the four is the type's own features times its root weights, plus the bias laid along every row, plus one
  product per relation into the type of the mean of the source features over the in-edges with the relation's weights.
  The means are the specification's, operation for operation; moving the bias row to the end of the sum is
  commutativity and associativity of addition on the extended reals.
-/
import proofs.«139170_j4398046511496_1_alg».proof.Proof.Gen.ReferenceIdeal.Run
import proofs.«139170_j4398046511496_1_alg».proof.Proof.Spec

noncomputable section

namespace RefSide

open Idealize.ShloMosaic Idealize.SL.Sem

/-- The reference's argument arrays, read off a valuation of its buffers. -/
def inputs (V0 : Valuation Cert.ReferenceIdeal.τ Cert.ReferenceIdeal.sig (Elt Ideal)) : Cert.KernelIdeal.Spec.Inputs where
  x_author := V0 (Proc.devRef .tc Cert.ReferenceIdeal.main_arg0)
  x_fos := V0 (Proc.devRef .tc Cert.ReferenceIdeal.main_arg1)
  x_inst := V0 (Proc.devRef .tc Cert.ReferenceIdeal.main_arg2)
  x_paper := V0 (Proc.devRef .tc Cert.ReferenceIdeal.main_arg3)
  W_root_author := V0 (Proc.devRef .tc Cert.ReferenceIdeal.main_arg4)
  b_root_author := V0 (Proc.devRef .tc Cert.ReferenceIdeal.main_arg5)
  W_root_fos := V0 (Proc.devRef .tc Cert.ReferenceIdeal.main_arg6)
  b_root_fos := V0 (Proc.devRef .tc Cert.ReferenceIdeal.main_arg7)
  W_root_inst := V0 (Proc.devRef .tc Cert.ReferenceIdeal.main_arg8)
  b_root_inst := V0 (Proc.devRef .tc Cert.ReferenceIdeal.main_arg9)
  W_root_paper := V0 (Proc.devRef .tc Cert.ReferenceIdeal.main_arg10)
  b_root_paper := V0 (Proc.devRef .tc Cert.ReferenceIdeal.main_arg11)
  W_aff := V0 (Proc.devRef .tc Cert.ReferenceIdeal.main_arg12)
  W_ita := V0 (Proc.devRef .tc Cert.ReferenceIdeal.main_arg13)
  W_writes := V0 (Proc.devRef .tc Cert.ReferenceIdeal.main_arg14)
  W_pta := V0 (Proc.devRef .tc Cert.ReferenceIdeal.main_arg15)
  W_cites := V0 (Proc.devRef .tc Cert.ReferenceIdeal.main_arg16)
  W_topic := V0 (Proc.devRef .tc Cert.ReferenceIdeal.main_arg17)
  W_ftp := V0 (Proc.devRef .tc Cert.ReferenceIdeal.main_arg18)
  src_aff := V0 (Proc.devRef .tc Cert.ReferenceIdeal.main_arg19)
  dst_aff := V0 (Proc.devRef .tc Cert.ReferenceIdeal.main_arg20)
  src_ita := V0 (Proc.devRef .tc Cert.ReferenceIdeal.main_arg21)
  dst_ita := V0 (Proc.devRef .tc Cert.ReferenceIdeal.main_arg22)
  src_writes := V0 (Proc.devRef .tc Cert.ReferenceIdeal.main_arg23)
  dst_writes := V0 (Proc.devRef .tc Cert.ReferenceIdeal.main_arg24)
  src_pta := V0 (Proc.devRef .tc Cert.ReferenceIdeal.main_arg25)
  dst_pta := V0 (Proc.devRef .tc Cert.ReferenceIdeal.main_arg26)
  src_cites := V0 (Proc.devRef .tc Cert.ReferenceIdeal.main_arg27)
  dst_cites := V0 (Proc.devRef .tc Cert.ReferenceIdeal.main_arg28)
  src_topic := V0 (Proc.devRef .tc Cert.ReferenceIdeal.main_arg29)
  dst_topic := V0 (Proc.devRef .tc Cert.ReferenceIdeal.main_arg30)
  src_ftp := V0 (Proc.devRef .tc Cert.ReferenceIdeal.main_arg31)
  dst_ftp := V0 (Proc.devRef .tc Cert.ReferenceIdeal.main_arg32)

/-! ## The four node types' arrays, as the host program spells them -/

/-- The authors' array: own features, the mean over institutions, the mean over papers. -/
theorem author_eq (I : Cert.KernelIdeal.Spec.Inputs) :
    (addf (addf (addf (Host.dotGeneral (φ₁ := .f32) (φ₂ := .f32) Cert.ReferenceIdeal.dot_S100000x128_S128x128_S100000x128_1_0_0_1_n_n none I.x_author I.W_root_author)
        (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 I.b_root_author)))
      (Host.dotGeneral (φ₁ := .f32) (φ₂ := .f32) Cert.ReferenceIdeal.dot_S100000x128_S128x128_S100000x128_1_0_0_1_n_n none (Cert.KernelIdeal.Agg.meanIta I.x_inst I.src_ita I.dst_ita) I.W_ita))
      (Host.dotGeneral (φ₁ := .f32) (φ₂ := .f32) Cert.ReferenceIdeal.dot_S100000x128_S128x128_S100000x128_1_0_0_1_n_n none (Cert.KernelIdeal.Agg.meanPta I.x_paper I.src_pta I.dst_pta) I.W_pta))
      = Cert.KernelIdeal.Spec.authorOut I :=
  LinSum.ref3_eq Cert.ReferenceIdeal.dot_S100000x128_S128x128_S100000x128_1_0_0_1_n_n rfl Cert.ReferenceIdeal.Gen.bcast_S128_S1x128_1 Cert.ReferenceIdeal.Gen.bcast_S1x128_S100000x128_0_1
    Cert.KernelIdeal.Gen.shapeCasts_S128_S1x128 _ _ _ _ _ _ _

/-- The fields' array: own features and the mean over papers. -/
theorem fos_eq (I : Cert.KernelIdeal.Spec.Inputs) :
    (addf (addf (Host.dotGeneral (φ₁ := .f32) (φ₂ := .f32) Cert.ReferenceIdeal.dot_S30000x128_S128x128_S30000x128_1_0_0_1_n_n none I.x_fos I.W_root_fos)
        (broadcastInDim Cert.ReferenceIdeal.S30000x128 ![0, 1] Cert.ReferenceIdeal.Gen.bcast_S1x128_S30000x128_0_1 (broadcastInDim Cert.ReferenceIdeal.S1x128 ![1] Cert.ReferenceIdeal.Gen.bcast_S128_S1x128_1 I.b_root_fos)))
      (Host.dotGeneral (φ₁ := .f32) (φ₂ := .f32) Cert.ReferenceIdeal.dot_S30000x128_S128x128_S30000x128_1_0_0_1_n_n none (Cert.KernelIdeal.Agg.meanTopic I.x_paper I.src_topic I.dst_topic) I.W_topic))
      = Cert.KernelIdeal.Spec.fosOut I :=
  LinSum.ref2_eq Cert.ReferenceIdeal.dot_S30000x128_S128x128_S30000x128_1_0_0_1_n_n rfl Cert.ReferenceIdeal.Gen.bcast_S128_S1x128_1 Cert.ReferenceIdeal.Gen.bcast_S1x128_S30000x128_0_1
    Cert.KernelIdeal.Gen.shapeCasts_S128_S1x128 _ _ _ _ _

/-- The institutions' array: own features and the mean over authors. -/
theorem inst_eq (I : Cert.KernelIdeal.Spec.Inputs) :
    (addf (addf (Host.dotGeneral (φ₁ := .f32) (φ₂ := .f32) Cert.ReferenceIdeal.dot_S8000x128_S128x128_S8000x128_1_0_0_1_n_n none I.x_inst I.W_root_inst)
        (broadcastInDim Cert.ReferenceIdeal.S8000x128 ![0, 1] Cert.ReferenceIdeal.Gen.bcast_S1x128_S8000x128_0_1 (broadcastInDim Cert.ReferenceIdeal.S1x128 ![1] Cert.ReferenceIdeal.Gen.bcast_S128_S1x128_1 I.b_root_inst)))
      (Host.dotGeneral (φ₁ := .f32) (φ₂ := .f32) Cert.ReferenceIdeal.dot_S8000x128_S128x128_S8000x128_1_0_0_1_n_n none (Cert.KernelIdeal.Agg.meanAff I.x_author I.src_aff I.dst_aff) I.W_aff))
      = Cert.KernelIdeal.Spec.instOut I :=
  LinSum.ref2_eq Cert.ReferenceIdeal.dot_S8000x128_S128x128_S8000x128_1_0_0_1_n_n rfl Cert.ReferenceIdeal.Gen.bcast_S128_S1x128_1 Cert.ReferenceIdeal.Gen.bcast_S1x128_S8000x128_0_1
    Cert.KernelIdeal.Gen.shapeCasts_S128_S1x128 _ _ _ _ _

/-- The papers' array: own features, the mean over authors, over cited papers, over fields. -/
theorem paper_eq (I : Cert.KernelIdeal.Spec.Inputs) :
    (addf (addf (addf (addf (Host.dotGeneral (φ₁ := .f32) (φ₂ := .f32) Cert.ReferenceIdeal.dot_S200000x128_S128x128_S200000x128_1_0_0_1_n_n none I.x_paper I.W_root_paper)
        (broadcastInDim Cert.ReferenceIdeal.S200000x128 ![0, 1] Cert.ReferenceIdeal.Gen.bcast_S1x128_S200000x128_0_1 (broadcastInDim Cert.ReferenceIdeal.S1x128 ![1] Cert.ReferenceIdeal.Gen.bcast_S128_S1x128_1 I.b_root_paper)))
      (Host.dotGeneral (φ₁ := .f32) (φ₂ := .f32) Cert.ReferenceIdeal.dot_S200000x128_S128x128_S200000x128_1_0_0_1_n_n none (Cert.KernelIdeal.Agg.meanWrites I.x_author I.src_writes I.dst_writes) I.W_writes))
      (Host.dotGeneral (φ₁ := .f32) (φ₂ := .f32) Cert.ReferenceIdeal.dot_S200000x128_S128x128_S200000x128_1_0_0_1_n_n none (Cert.KernelIdeal.Agg.meanCites I.x_paper I.src_cites I.dst_cites) I.W_cites))
      (Host.dotGeneral (φ₁ := .f32) (φ₂ := .f32) Cert.ReferenceIdeal.dot_S200000x128_S128x128_S200000x128_1_0_0_1_n_n none (Cert.KernelIdeal.Agg.meanFtp I.x_fos I.src_ftp I.dst_ftp) I.W_ftp))
      = Cert.KernelIdeal.Spec.paperOut I :=
  LinSum.ref4_eq Cert.ReferenceIdeal.dot_S200000x128_S128x128_S200000x128_1_0_0_1_n_n rfl Cert.ReferenceIdeal.Gen.bcast_S128_S1x128_1 Cert.ReferenceIdeal.Gen.bcast_S1x128_S200000x128_0_1
    Cert.KernelIdeal.Gen.shapeCasts_S128_S1x128 _ _ _ _ _ _ _ _ _

/-! ## The stacked result -/

set_option maxRecDepth 8192 in
theorem result_eq (V0 : Valuation Cert.ReferenceIdeal.τ Cert.ReferenceIdeal.sig (Elt Ideal)) :
    Cert.ReferenceIdeal.Value.res_main_v163 (F := Ideal) V0 = Cert.KernelIdeal.Spec.result (inputs V0) := by
  unfold Cert.KernelIdeal.Spec.result
  rw [← author_eq (inputs V0), ← fos_eq (inputs V0), ← inst_eq (inputs V0), ← paper_eq (inputs V0)]
  rfl

end RefSide

end
-- ==== Proof.lean ====
/-
  The claim, assembled. Both programs compute one graph-convolution layer on a heterogeneous graph: for each of the four node
  types, the type's own features times its root weights plus, for every relation into the type, the mean of the source
  features over the in-edges times the relation's weights, plus the type's bias; the four results stacked along the rows.
  The kernel's program computes the seven mean aggregations by host operations and each node type's sum in a launch of one
  kernel over blocks of 2000 rows (products of blocks rounded to a shorter format — the identity on the extended reals —
  accumulated from zero, the bias row added last); the reference adds the bias first and the relations' products after.
  On the extended reals addition is commutative and associative and zero is neutral, so the two are the same array.
  The frames: the reference is a line of host operations; the kernel's program is run segment by segment, host stretches and
  launches, each argument array followed unchanged to the end. The ideal pass rewrote nothing, so `preserves` is trivial.
-/
import proofs.«139170_j4398046511496_1_alg».proof.Defs
import proofs.«139170_j4398046511496_1_alg».proof.Proof.Gen.Kernel
import proofs.«139170_j4398046511496_1_alg».proof.Proof.Gen.KernelIdeal
import proofs.«139170_j4398046511496_1_alg».proof.Proof.Gen.ReferenceIdeal
import proofs.«139170_j4398046511496_1_alg».proof.Proof.Gen.ReferenceIdeal.Run
import proofs.«139170_j4398046511496_1_alg».proof.Proof.Gen.Pre_finite_inputs
import proofs.«139170_j4398046511496_1_alg».proof.Proof.BitsArgs
import proofs.«139170_j4398046511496_1_alg».proof.Proof.IdealValue
import proofs.«139170_j4398046511496_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Rgn.frame (F := Bits) m ρ

theorem frame_kernel_ideal : Cert.frame_KernelIdeal := fun m ρ _ => Cert.KernelIdeal.Rgn.frame (F := Ideal) m ρ

/-- The reference is a line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the layer's result of those arguments. -/
theorem algebraic : Cert.algebraic_KernelIdeal_ReferenceIdeal := by
  intro m ρ m' ρ' _ hagree
  refine ⟨fun c => Cert.KernelIdeal.Spec.result (Cert.KernelIdeal.Rgn.kerInputs m c), Cert.KernelIdeal.Rgn.run_value m ρ, ?_⟩
  refine (θ_run Cert.ReferenceIdeal.defs _ _).mono (fun _ h c => ⟨(h c).1.trans ?_, (h c).2⟩)
    (Cert.ReferenceIdeal.Value.run (F := Ideal) m' ρ')
  rw [RefSide.result_eq]
  refine congrArg Cert.KernelIdeal.Spec.result ?_
  obtain ⟨h0, h1, h2, h3, h4, h5, h6, h7, h8, h9, h10, h11, h12, h13, h14, h15, h16, h17, h18, h19, h20, h21, h22, h23, h24, h25, h26, h27, h28, h29, h30, h31, h32⟩ := hagree c
  unfold RefSide.inputs Cert.KernelIdeal.Rgn.kerInputs
  rw [Cert.KernelIdeal.Spec.Inputs.mk.injEq]
  exact ⟨h0, h1, h2, h3, h4, h5, h6, h7, h8, h9, h10, h11, h12, h13, h14, h15, h16, h17, h18, h19, h20, h21, h22, h23, h24, h25, h26, h27, h28, h29, h30, h31, h32⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
